-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S56x56x64 : S_.BroadcastsInDim S56x56x64 (![] : Fin 0 → Fin S56x56x64.rank)
  reducesTo_S56x56x64_S_d0_1_2 : S56x56x64.ReducesTo [0, 1, 2] S_
  bcast_S_S28x28x128 : S_.BroadcastsInDim S28x28x128 (![] : Fin 0 → Fin S28x28x128.rank)
  reducesTo_S28x28x128_S_d0_1_2 : S28x28x128.ReducesTo [0, 1, 2] S_
  bcast_S_S14x14x256 : S_.BroadcastsInDim S14x14x256 (![] : Fin 0 → Fin S14x14x256.rank)
  reducesTo_S14x14x256_S_d0_1_2 : S14x14x256.ReducesTo [0, 1, 2] S_
  bcast_S_S7x7x512 : S_.BroadcastsInDim S7x7x512 (![] : Fin 0 → Fin S7x7x512.rank)
  reducesTo_S7x7x512_S_d0_1_2 : S7x7x512.ReducesTo [0, 1, 2] S_

variable [Facts]

def fn_part1 {F : FTy → Type} [FloatOps F] (main_arg4 : FVec F S7x7x512 .f32) (main_v13 : IVec S_ 1) (main_v16 : IVec S14x14x256 1) : IVec S_ 1 :=
  let main_c_5 : IVec S_ 1 := constantI S_ 1 1#1
  let main_v17 : IVec S_ 1 := (fun x v => Host.reduce IntOp.andi x v reducesTo_S14x14x256_S_d0_1_2 h_S_) main_v16 main_c_5
  let main_v18 : IVec S_ 1 := andi main_v13 main_v17
  let main_v19 : FVec F S7x7x512 .f32 := Host.absf main_arg4
  let main_cst_6 : FVec F S_ .f32 := constant S_ .f32 0x7F800000#32
  let main_v20 : FVec F S7x7x512 .f32 := broadcastInDim S7x7x512 ![] bcast_S_S7x7x512 main_cst_6
  let main_v21 : IVec S7x7x512 1 := cmpf .olt main_v19 main_v20
  let main_c_7 : IVec S_ 1 := constantI S_ 1 1#1
  let main_v22 : IVec S_ 1 := (fun x v => Host.reduce IntOp.andi x v reducesTo_S7x7x512_S_d0_1_2 h_S_) main_v21 main_c_7
  let main_v23 : IVec S_ 1 := andi main_v18 main_v22
  main_v23

def fn {F : FTy → Type} [FloatOps F] (main_arg0 : FVec F S200000x3 .f32) (main_arg1 : FVec F S56x56x64 .f32) (main_arg2 : FVec F S28x28x128 .f32) (main_arg3 : FVec F S14x14x256 .f32) (main_arg4 : FVec F S7x7x512 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S56x56x64 .f32 := Host.absf main_arg1
  let main_cst_0 : FVec F S_ .f32 := constant S_ .f32 0x7F800000#32
  let main_v5 : FVec F S56x56x64 .f32 := broadcastInDim S56x56x64 ![] bcast_S_S56x56x64 main_cst_0
  let main_v6 : IVec S56x56x64 1 := cmpf .olt main_v4 main_v5
  let main_c_1 : IVec S_ 1 := constantI S_ 1 1#1
  let main_v7 : IVec S_ 1 := (fun x v => Host.reduce IntOp.andi x v reducesTo_S56x56x64_S_d0_1_2 h_S_) main_v6 main_c_1
  let main_v8 : IVec S_ 1 := andi main_v3 main_v7
  let main_v9 : FVec F S28x28x128 .f32 := Host.absf main_arg2
  let main_cst_2 : FVec F S_ .f32 := constant S_ .f32 0x7F800000#32
  let main_v10 : FVec F S28x28x128 .f32 := broadcastInDim S28x28x128 ![] bcast_S_S28x28x128 main_cst_2
  let main_v11 : IVec S28x28x128 1 := cmpf .olt main_v9 main_v10
  let main_c_3 : IVec S_ 1 := constantI S_ 1 1#1
  let main_v12 : IVec S_ 1 := (fun x v => Host.reduce IntOp.andi x v reducesTo_S28x28x128_S_d0_1_2 h_S_) main_v11 main_c_3
  let main_v13 : IVec S_ 1 := andi main_v8 main_v12
  let main_v14 : FVec F S14x14x256 .f32 := Host.absf main_arg3
  let main_cst_4 : FVec F S_ .f32 := constant S_ .f32 0x7F800000#32
  let main_v15 : FVec F S14x14x256 .f32 := broadcastInDim S14x14x256 ![] bcast_S_S14x14x256 main_cst_4
  let main_v16 : IVec S14x14x256 1 := cmpf .olt main_v14 main_v15
  fn_part1 (F := F) main_arg4 main_v13 main_v16
-- ==== Kernel.lean ====
abbrev S200000x3 : Shape := ⟨2, ![200000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S3136x64 : Shape := ⟨2, ![3136, 64]⟩
abbrev S784x128 : Shape := ⟨2, ![784, 128]⟩
abbrev S196x256 : Shape := ⟨2, ![196, 256]⟩
abbrev S49x512 : Shape := ⟨2, ![49, 512]⟩
abbrev S200000x963 : Shape := ⟨2, ![200000, 963]⟩
abbrev S1600x3 : Shape := ⟨2, ![1600, 3]⟩
abbrev S1600x963 : Shape := ⟨2, ![1600, 963]⟩
abbrev S1600x3136 : Shape := ⟨2, ![1600, 3136]⟩
abbrev S1600x784 : Shape := ⟨2, ![1600, 784]⟩
abbrev S1600x196 : Shape := ⟨2, ![1600, 196]⟩
abbrev S1600x49 : Shape := ⟨2, ![1600, 49]⟩
abbrev S1600x1 : Shape := ⟨2, ![1600, 1]⟩
abbrev S1x3136 : Shape := ⟨2, ![1, 3136]⟩
abbrev S1600x64 : Shape := ⟨2, ![1600, 64]⟩
abbrev S1x784 : Shape := ⟨2, ![1, 784]⟩
abbrev S1600x128 : Shape := ⟨2, ![1600, 128]⟩
abbrev S1x196 : Shape := ⟨2, ![1, 196]⟩
abbrev S1600x256 : Shape := ⟨2, ![1600, 256]⟩
abbrev S1x49 : Shape := ⟨2, ![1, 49]⟩
abbrev S1600x512 : Shape := ⟨2, ![1600, 512]⟩

abbrev nBuf : Space → Nat
  | .hbm => 10
  | .vmem => 12
  | .smem => 0
  | _ => 0

abbrev bufTy : (tb : Table) → Fin (tcTables nBuf tb) → BufTy
  | .hbm, ⟨0, _⟩ => ⟨S200000x3, .f32⟩
  | .hbm, ⟨1, _⟩ => ⟨S56x56x64, .f32⟩
  | .hbm, ⟨2, _⟩ => ⟨S28x28x128, .f32⟩
  | .hbm, ⟨3, _⟩ => ⟨S14x14x256, .f32⟩
  | .hbm, ⟨4, _⟩ => ⟨S7x7x512, .f32⟩
  | .hbm, ⟨5, _⟩ => ⟨S3136x64, .f32⟩
  | .hbm, ⟨6, _⟩ => ⟨S784x128, .f32⟩
  | .hbm, ⟨7, _⟩ => ⟨S196x256, .f32⟩
  | .hbm, ⟨8, _⟩ => ⟨S49x512, .f32⟩
  | .hbm, ⟨9, _⟩ => ⟨S200000x963, .f32⟩
  | .local _ .vmem, ⟨0, _⟩ => ⟨S1600x3, .f32⟩
  | .local _ .vmem, ⟨1, _⟩ => ⟨S1600x3, .f32⟩
  | .local _ .vmem, ⟨2, _⟩ => ⟨S3136x64, .f32⟩
  | .local _ .vmem, ⟨3, _⟩ => ⟨S784x128, .f32⟩
  | .local _ .vmem, ⟨4, _⟩ => ⟨S196x256, .f32⟩
  | .local _ .vmem, ⟨5, _⟩ => ⟨S49x512, .f32⟩
  | .local _ .vmem, ⟨6, _⟩ => ⟨S1600x963, .f32⟩
  | .local _ .vmem, ⟨7, _⟩ => ⟨S1600x963, .f32⟩
  | .local _ .vmem, ⟨8, _⟩ => ⟨S1600x3136, .f32⟩
  | .local _ .vmem, ⟨9, _⟩ => ⟨S1600x784, .f32⟩
  | .local _ .vmem, ⟨10, _⟩ => ⟨S1600x196, .f32⟩
  | .local _ .vmem, ⟨11, _⟩ => ⟨S1600x49, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1600x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S56x56x64_S3136x64 : S56x56x64.ShapeCasts S3136x64
  shapeCasts_S28x28x128_S784x128 : S28x28x128.ShapeCasts S784x128
  shapeCasts_S14x14x256_S196x256 : S14x14x256.ShapeCasts S196x256
  shapeCasts_S7x7x512_S49x512 : S7x7x512.ShapeCasts S49x512
  inb_S1600x3_S1600x3_0_0 : ∀ a, (![0, 0] : Fin 2 → Nat) a + S1600x3.size a ≤ S1600x3.size a
  h_S1600x3 : 0 < S1600x3.numel
  slices_S1600x3_o0_0_S1600x1 : S1600x3.Slices ![0, 0] S1600x1
  slices_S1600x3_o0_1_S1600x1 : S1600x3.Slices ![0, 1] S1600x1
  slices_S1600x3_o0_2_S1600x1 : S1600x3.Slices ![0, 2] S1600x1
  inb_S1600x963_S1600x3_0_0 : ∀ a, (![0, 0] : Fin 2 → Nat) a + S1600x3.size a ≤ S1600x963.size a
  iota_S1x3136_d1_w32 : S1x3136.Iotas .tc 32 [1]
  broadcasts_S1x3136_S1600x3136 : S1x3136.Broadcasts S1600x3136
  broadcasts_S1600x1_S1600x3136 : S1600x1.Broadcasts S1600x3136
  shapeCasts_S1600x1_S1600x1 : S1600x1.ShapeCasts S1600x1
  inb_S1600x3136_S1600x3136_0_0 : ∀ a, (![0, 0] : Fin 2 → Nat) a + S1600x3136.size a ≤ S1600x3136.size a
  h_S1600x3136 : 0 < S1600x3136.numel
  shapeCasts_S1600x3136_S1600x3136 : S1600x3136.ShapeCasts S1600x3136
  inb_S3136x64_S3136x64_0_0 : ∀ a, (![0, 0] : Fin 2 → Nat) a + S3136x64.size a ≤ S3136x64.size a
  h_S3136x64 : 0 < S3136x64.numel
  shapeCasts_S3136x64_S3136x64 : S3136x64.ShapeCasts S3136x64
  bitsLt_bf16_f32 : FTy.bits .bf16 < FTy.bits .f32
  inb_S1600x963_S1600x64_0_3 : ∀ a, (![0, 3] : Fin 2 → Nat) a + S1600x64.size a ≤ S1600x963.size a
  h_S1600x64 : 0 < S1600x64.numel
  iota_S1x784_d1_w32 : S1x784.Iotas .tc 32 [1]
  broadcasts_S1x784_S1600x784 : S1x784.Broadcasts S1600x784
  broadcasts_S1600x1_S1600x784 : S1600x1.Broadcasts S1600x784
  inb_S1600x784_S1600x784_0_0 : ∀ a, (![0, 0] : Fin 2 → Nat) a + S1600x784.size a ≤ S1600x784.size a
  h_S1600x784 : 0 < S1600x784.numel
  shapeCasts_S1600x784_S1600x784 : S1600x784.ShapeCasts S1600x784
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1600x963_S1600x128_0_67 : ∀ a, (![0, 67] : Fin 2 → Nat) a + S1600x128.size a ≤ S1600x963.size a
  h_S1600x128 : 0 < S1600x128.numel
  iota_S1x196_d1_w32 : S1x196.Iotas .tc 32 [1]
  broadcasts_S1x196_S1600x196 : S1x196.Broadcasts S1600x196
  broadcasts_S1600x1_S1600x196 : S1600x1.Broadcasts S1600x196
  inb_S1600x196_S1600x196_0_0 : ∀ a, (![0, 0] : Fin 2 → Nat) a + S1600x196.size a ≤ S1600x196.size a
  h_S1600x196 : 0 < S1600x196.numel
  shapeCasts_S1600x196_S1600x196 : S1600x196.ShapeCasts S1600x196
  inb_S196x256_S196x256_0_0 : ∀ a, (![0, 0] : Fin 2 → Nat) a + S196x256.size a ≤ S196x256.size a
  h_S196x256 : 0 < S196x256.numel
  shapeCasts_S196x256_S196x256 : S196x256.ShapeCasts S196x256
  inb_S1600x963_S1600x256_0_195 : ∀ a, (![0, 195] : Fin 2 → Nat) a + S1600x256.size a ≤ S1600x963.size a
  h_S1600x256 : 0 < S1600x256.numel
  iota_S1x49_d1_w32 : S1x49.Iotas .tc 32 [1]
  broadcasts_S1x49_S1600x49 : S1x49.Broadcasts S1600x49
  broadcasts_S1600x1_S1600x49 : S1600x1.Broadcasts S1600x49
  inb_S1600x49_S1600x49_0_0 : ∀ a, (![0, 0] : Fin 2 → Nat) a + S1600x49.size a ≤ S1600x49.size a
  h_S1600x49 : 0 < S1600x49.numel
  shapeCasts_S1600x49_S1600x49 : S1600x49.ShapeCasts S1600x49
  inb_S49x512_S49x512_0_0 : ∀ a, (![0, 0] : Fin 2 → Nat) a + S49x512.size a ≤ S49x512.size a
  h_S49x512 : 0 < S49x512.numel
  shapeCasts_S49x512_S49x512 : S49x512.ShapeCasts S49x512
  inb_S1600x963_S1600x512_0_451 : ∀ a, (![0, 451] : Fin 2 → Nat) a + S1600x512.size a ≤ S1600x963.size a
  h_S1600x512 : 0 < S1600x512.numel
  dot_S1600x3136_S3136x64_S1600x64_1_0_0_1_n_n_wf : DotDims.WF S1600x3136 S3136x64 S1600x64 [1] [0] [0] [1] [] []
  dot_S1600x784_S784x128_S1600x128_1_0_0_1_n_n_wf : DotDims.WF S1600x784 S784x128 S1600x128 [1] [0] [0] [1] [] []
  dot_S1600x196_S196x256_S1600x256_1_0_0_1_n_n_wf : DotDims.WF S1600x196 S196x256 S1600x256 [1] [0] [0] [1] [] []
  dot_S1600x49_S49x512_S1600x512_1_0_0_1_n_n_wf : DotDims.WF S1600x49 S49x512 S1600x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x3.size a ≤ S200000x3.size a
  hwx0_0 : ∀ i : grid0.Coords, EltTy.bits .f32 = 32 ∨ (Rect.block (s := S200000x3) S1600x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .f32 = 32 ∨ (Rect.block (s := S3136x64) S3136x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x128.size a ≤ S784x128.size a
  hwx0_2 : ∀ i : grid0.Coords, EltTy.bits .f32 = 32 ∨ (Rect.block (s := S784x128) S784x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x256.size a ≤ S196x256.size a
  hwx0_3 : ∀ i : grid0.Coords, EltTy.bits .f32 = 32 ∨ (Rect.block (s := S196x256) S196x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x512.size a ≤ S49x512.size a
  hwx0_4 : ∀ i : grid0.Coords, EltTy.bits .f32 = 32 ∨ (Rect.block (s := S49x512) S49x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1600x963.size a ≤ S200000x963.size a
  hwx0_5 : ∀ i : grid0.Coords, EltTy.bits .f32 = 32 ∨ (Rect.block (s := S200000x963) S1600x963.size (cc0_transform_5 i) (hinb0_5 i)).WholeWords (EltTy.packing .f32)

variable [Facts₀]

def dot_S1600x3136_S3136x64_S1600x64_1_0_0_1_n_n : DotDims S1600x3136 S3136x64 S1600x64 where
  lhsContracting := [1]
  rhsContracting := [0]
  lhsNonContracting := [0]
  rhsNonContracting := [1]
  lhsBatch := []
  rhsBatch := []
  wf := dot_S1600x3136_S3136x64_S1600x64_1_0_0_1_n_n_wf
def dot_S1600x784_S784x128_S1600x128_1_0_0_1_n_n : DotDims S1600x784 S784x128 S1600x128 where
  lhsContracting := [1]
  rhsContracting := [0]
  lhsNonContracting := [0]
  rhsNonContracting := [1]
  lhsBatch := []
  rhsBatch := []
  wf := dot_S1600x784_S784x128_S1600x128_1_0_0_1_n_n_wf
def dot_S1600x196_S196x256_S1600x256_1_0_0_1_n_n : DotDims S1600x196 S196x256 S1600x256 where
  lhsContracting := [1]
  rhsContracting := [0]
  lhsNonContracting := [0]
  rhsNonContracting := [1]
  lhsBatch := []
  rhsBatch := []
  wf := dot_S1600x196_S196x256_S1600x256_1_0_0_1_n_n_wf
def dot_S1600x49_S49x512_S1600x512_1_0_0_1_n_n : DotDims S1600x49 S49x512 S1600x512 where
  lhsContracting := [1]
  rhsContracting := [0]
  lhsNonContracting := [0]
  rhsNonContracting := [1]
  lhsBatch := []
  rhsBatch := []
  wf := dot_S1600x49_S49x512_S1600x512_1_0_0_1_n_n_wf

abbrev win0_0 : Pipeline.Window sig grid0 :=
  Pipeline.Window.ofSpec (Memref.whole main_arg0) S1600x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3136x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S784x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S196x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1600x963.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x3 : Shape := ⟨2, ![200000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S200000x1 : Shape := ⟨2, ![200000, 1]⟩
abbrev S200000 : Shape := ⟨1, ![200000]⟩
abbrev S_ : Shape := ⟨0, ![]⟩
abbrev S200000x2 : Shape := ⟨2, ![200000, 2]⟩
abbrev S200000x64 : Shape := ⟨2, ![200000, 64]⟩
abbrev S200000x128 : Shape := ⟨2, ![200000, 128]⟩
abbrev S200000x256 : Shape := ⟨2, ![200000, 256]⟩
abbrev S200000x512 : Shape := ⟨2, ![200000, 512]⟩
abbrev S200000x963 : Shape := ⟨2, ![200000, 963]⟩

abbrev nBuf : Space → Nat
  | .hbm => 497
  | .vmem => 0
  | .smem => 0
  | _ => 0

abbrev hbmTy0_0 (i : Nat) : BufTy := match i % 128 with
  | 0 => ⟨S200000x3, .f32⟩
  | 1 => ⟨S56x56x64, .f32⟩
  | 2 => ⟨S28x28x128, .f32⟩
  | 3 => ⟨S14x14x256, .f32⟩
  | 4 => ⟨S7x7x512, .f32⟩
  | 5 => ⟨S200000x1, .f32⟩
  | 6 => ⟨S200000, .f32⟩
  | 7 => ⟨S200000x1, .f32⟩
  | 8 => ⟨S200000, .f32⟩
  | 9 => ⟨S200000x1, .f32⟩
  | 10 => ⟨S200000, .f32⟩
  | 11 => ⟨S200000, .f32⟩
  | 12 => ⟨S_, .f32⟩
  | 13 => ⟨S200000, .f32⟩
  | 14 => ⟨S200000, .f32⟩
  | 15 => ⟨S200000, .f32⟩
  | 16 => ⟨S200000, .f32⟩
  | 17 => ⟨S_, .f32⟩
  | 18 => ⟨S200000, .f32⟩
  | 19 => ⟨S200000, .f32⟩
  | 20 => ⟨S_, .f32⟩
  | 21 => ⟨S200000, .f32⟩
  | 22 => ⟨S200000, .f32⟩
  | 23 => ⟨S200000, .f32⟩
  | 24 => ⟨S200000, .f32⟩
  | 25 => ⟨S_, .f32⟩
  | 26 => ⟨S200000, .f32⟩
  | 27 => ⟨S200000, .f32⟩
  | 28 => ⟨S_, .f32⟩
  | 29 => ⟨S_, .f32⟩
  | 30 => ⟨S_, .f32⟩
  | 31 => ⟨S200000, .f32⟩
  | 32 => ⟨S200000, .f32⟩
  | 33 => ⟨S_, .f32⟩
  | 34 => ⟨S200000, .f32⟩
  | 35 => ⟨S200000, .f32⟩
  | 36 => ⟨S_, .f32⟩
  | 37 => ⟨S_, .f32⟩
  | 38 => ⟨S_, .f32⟩
  | 39 => ⟨S200000, .f32⟩
  | 40 => ⟨S200000, .f32⟩
  | 41 => ⟨S_, .f32⟩
  | 42 => ⟨S200000, .f32⟩
  | 43 => ⟨S200000, .f32⟩
  | 44 => ⟨S_, .f32⟩
  | 45 => ⟨S200000, .f32⟩
  | 46 => ⟨S200000, .f32⟩
  | 47 => ⟨S_, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .i32⟩
  | 55 => ⟨S200000, .i32⟩
  | 56 => ⟨S200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x1, .i32⟩
  | 74 => ⟨S200000x2, .i32⟩
  | 75 => ⟨S200000x64, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x1, .i32⟩
  | 92 => ⟨S200000x2, .i32⟩
  | 93 => ⟨S200000x64, .f32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x1, .i32⟩
  | 110 => ⟨S200000x2, .i32⟩
  | 111 => ⟨S200000x64, .f32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x1, .i32⟩
  | _ => ⟨S200000x3, .f32⟩

abbrev hbmTy0_1 (i : Nat) : BufTy := match i % 128 with
  | 0 => ⟨S200000x2, .i32⟩
  | 1 => ⟨S200000x64, .f32⟩
  | 2 => ⟨S200000, .f32⟩
  | 3 => ⟨S200000, .f32⟩
  | 4 => ⟨S200000, .f32⟩
  | 5 => ⟨S200000x1, .f32⟩
  | 6 => ⟨S200000, .f32⟩
  | 7 => ⟨S200000, .f32⟩
  | 8 => ⟨S200000, .f32⟩
  | 9 => ⟨S200000x1, .f32⟩
  | 10 => ⟨S200000, .f32⟩
  | 11 => ⟨S200000, .f32⟩
  | 12 => ⟨S200000, .f32⟩
  | 13 => ⟨S200000x1, .f32⟩
  | 14 => ⟨S200000, .f32⟩
  | 15 => ⟨S200000, .f32⟩
  | 16 => ⟨S200000, .f32⟩
  | 17 => ⟨S200000x1, .f32⟩
  | 18 => ⟨S200000x64, .f32⟩
  | 19 => ⟨S200000x64, .f32⟩
  | 20 => ⟨S200000x64, .f32⟩
  | 21 => ⟨S200000x64, .f32⟩
  | 22 => ⟨S200000x64, .f32⟩
  | 23 => ⟨S200000x64, .f32⟩
  | 24 => ⟨S200000x64, .f32⟩
  | 25 => ⟨S200000x64, .f32⟩
  | 26 => ⟨S200000x64, .f32⟩
  | 27 => ⟨S200000x64, .f32⟩
  | 28 => ⟨S200000x64, .f32⟩
  | 29 => ⟨S_, .f32⟩
  | 30 => ⟨S200000, .f32⟩
  | 31 => ⟨S200000, .f32⟩
  | 32 => ⟨S_, .f32⟩
  | 33 => ⟨S200000, .f32⟩
  | 34 => ⟨S200000, .f32⟩
  | 35 => ⟨S200000, .f32⟩
  | 36 => ⟨S200000, .f32⟩
  | 37 => ⟨S200000, .f32⟩
  | 38 => ⟨S200000, .f32⟩
  | 39 => ⟨S200000, .i32⟩
  | 40 => ⟨S200000, .i32⟩
  | 41 => ⟨S200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x1, .i32⟩
  | 59 => ⟨S200000x2, .i32⟩
  | 60 => ⟨S200000x128, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x1, .i32⟩
  | 77 => ⟨S200000x2, .i32⟩
  | 78 => ⟨S200000x128, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x1, .i32⟩
  | 95 => ⟨S200000x2, .i32⟩
  | 96 => ⟨S200000x128, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x1, .i32⟩
  | 113 => ⟨S200000x2, .i32⟩
  | 114 => ⟨S200000x128, .f32⟩
  | 115 => ⟨S200000, .f32⟩
  | 116 => ⟨S200000, .f32⟩
  | 117 => ⟨S200000, .f32⟩
  | 118 => ⟨S200000x1, .f32⟩
  | 119 => ⟨S200000, .f32⟩
  | 120 => ⟨S200000, .f32⟩
  | 121 => ⟨S200000, .f32⟩
  | 122 => ⟨S200000x1, .f32⟩
  | 123 => ⟨S200000, .f32⟩
  | 124 => ⟨S200000, .f32⟩
  | 125 => ⟨S200000, .f32⟩
  | 126 => ⟨S200000x1, .f32⟩
  | 127 => ⟨S200000, .f32⟩
  | _ => ⟨S200000x3, .f32⟩

abbrev hbmTy0_2 (i : Nat) : BufTy := match i % 128 with
  | 0 => ⟨S200000, .f32⟩
  | 1 => ⟨S200000, .f32⟩
  | 2 => ⟨S200000x1, .f32⟩
  | 3 => ⟨S200000x128, .f32⟩
  | 4 => ⟨S200000x128, .f32⟩
  | 5 => ⟨S200000x128, .f32⟩
  | 6 => ⟨S200000x128, .f32⟩
  | 7 => ⟨S200000x128, .f32⟩
  | 8 => ⟨S200000x128, .f32⟩
  | 9 => ⟨S200000x128, .f32⟩
  | 10 => ⟨S200000x128, .f32⟩
  | 11 => ⟨S200000x128, .f32⟩
  | 12 => ⟨S200000x128, .f32⟩
  | 13 => ⟨S200000x128, .f32⟩
  | 14 => ⟨S_, .f32⟩
  | 15 => ⟨S200000, .f32⟩
  | 16 => ⟨S200000, .f32⟩
  | 17 => ⟨S_, .f32⟩
  | 18 => ⟨S200000, .f32⟩
  | 19 => ⟨S200000, .f32⟩
  | 20 => ⟨S200000, .f32⟩
  | 21 => ⟨S200000, .f32⟩
  | 22 => ⟨S200000, .f32⟩
  | 23 => ⟨S200000, .f32⟩
  | 24 => ⟨S200000, .i32⟩
  | 25 => ⟨S200000, .i32⟩
  | 26 => ⟨S200000, .i32⟩
  | 27 => ⟨S200000, .i32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x1, .i32⟩
  | 44 => ⟨S200000x2, .i32⟩
  | 45 => ⟨S200000x256, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x1, .i32⟩
  | 62 => ⟨S200000x2, .i32⟩
  | 63 => ⟨S200000x256, .f32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S200000x1, .i32⟩
  | 80 => ⟨S200000x2, .i32⟩
  | 81 => ⟨S200000x256, .f32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x1, .i32⟩
  | 98 => ⟨S200000x2, .i32⟩
  | 99 => ⟨S200000x256, .f32⟩
  | 100 => ⟨S200000, .f32⟩
  | 101 => ⟨S200000, .f32⟩
  | 102 => ⟨S200000, .f32⟩
  | 103 => ⟨S200000x1, .f32⟩
  | 104 => ⟨S200000, .f32⟩
  | 105 => ⟨S200000, .f32⟩
  | 106 => ⟨S200000, .f32⟩
  | 107 => ⟨S200000x1, .f32⟩
  | 108 => ⟨S200000, .f32⟩
  | 109 => ⟨S200000, .f32⟩
  | 110 => ⟨S200000, .f32⟩
  | 111 => ⟨S200000x1, .f32⟩
  | 112 => ⟨S200000, .f32⟩
  | 113 => ⟨S200000, .f32⟩
  | 114 => ⟨S200000, .f32⟩
  | 115 => ⟨S200000x1, .f32⟩
  | 116 => ⟨S200000x256, .f32⟩
  | 117 => ⟨S200000x256, .f32⟩
  | 118 => ⟨S200000x256, .f32⟩
  | 119 => ⟨S200000x256, .f32⟩
  | 120 => ⟨S200000x256, .f32⟩
  | 121 => ⟨S200000x256, .f32⟩
  | 122 => ⟨S200000x256, .f32⟩
  | 123 => ⟨S200000x256, .f32⟩
  | 124 => ⟨S200000x256, .f32⟩
  | 125 => ⟨S200000x256, .f32⟩
  | 126 => ⟨S200000x256, .f32⟩
  | 127 => ⟨S_, .f32⟩
  | _ => ⟨S200000x3, .f32⟩

abbrev hbmTy0_3 (i : Nat) : BufTy := match i % 128 with
  | 0 => ⟨S200000, .f32⟩
  | 1 => ⟨S200000, .f32⟩
  | 2 => ⟨S_, .f32⟩
  | 3 => ⟨S200000, .f32⟩
  | 4 => ⟨S200000, .f32⟩
  | 5 => ⟨S200000, .f32⟩
  | 6 => ⟨S200000, .f32⟩
  | 7 => ⟨S200000, .f32⟩
  | 8 => ⟨S200000, .f32⟩
  | 9 => ⟨S200000, .i32⟩
  | 10 => ⟨S200000, .i32⟩
  | 11 => ⟨S200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x1, .i32⟩
  | 29 => ⟨S200000x2, .i32⟩
  | 30 => ⟨S200000x512, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000x1, .i32⟩
  | 47 => ⟨S200000x2, .i32⟩
  | 48 => ⟨S200000x512, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x1, .i32⟩
  | 65 => ⟨S200000x2, .i32⟩
  | 66 => ⟨S200000x512, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x1, .i32⟩
  | 83 => ⟨S200000x2, .i32⟩
  | 84 => ⟨S200000x512, .f32⟩
  | 85 => ⟨S200000, .f32⟩
  | 86 => ⟨S200000, .f32⟩
  | 87 => ⟨S200000, .f32⟩
  | 88 => ⟨S200000x1, .f32⟩
  | 89 => ⟨S200000, .f32⟩
  | 90 => ⟨S200000, .f32⟩
  | 91 => ⟨S200000, .f32⟩
  | 92 => ⟨S200000x1, .f32⟩
  | 93 => ⟨S200000, .f32⟩
  | 94 => ⟨S200000, .f32⟩
  | 95 => ⟨S200000, .f32⟩
  | 96 => ⟨S200000x1, .f32⟩
  | 97 => ⟨S200000, .f32⟩
  | 98 => ⟨S200000, .f32⟩
  | 99 => ⟨S200000, .f32⟩
  | 100 => ⟨S200000x1, .f32⟩
  | 101 => ⟨S200000x512, .f32⟩
  | 102 => ⟨S200000x512, .f32⟩
  | 103 => ⟨S200000x512, .f32⟩
  | 104 => ⟨S200000x512, .f32⟩
  | 105 => ⟨S200000x512, .f32⟩
  | 106 => ⟨S200000x512, .f32⟩
  | 107 => ⟨S200000x512, .f32⟩
  | 108 => ⟨S200000x512, .f32⟩
  | 109 => ⟨S200000x512, .f32⟩
  | 110 => ⟨S200000x512, .f32⟩
  | 111 => ⟨S200000x512, .f32⟩
  | 112 => ⟨S200000x963, .f32⟩
  | _ => ⟨S200000x3, .f32⟩

abbrev hbmTy (i : Nat) : BufTy := match i / 128 with
  | 0 => hbmTy0_0 i
  | 1 => hbmTy0_1 i
  | 2 => hbmTy0_2 i
  | 3 => hbmTy0_3 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_v66 : Ref sig .tc := ⟨.hbm, 102, rfl⟩
abbrev main_v67 : Ref sig .tc := ⟨.hbm, 103, rfl⟩
abbrev main_c_19 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_20 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_22 : Ref sig .tc := ⟨.hbm, 119, rfl⟩
abbrev main_v80 : Ref sig .tc := ⟨.hbm, 120, rfl⟩
abbrev main_v81 : Ref sig .tc := ⟨.hbm, 121, rfl⟩
abbrev main_c_23 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_24 : Ref sig .tc := ⟨.hbm, 157, rfl⟩
abbrev main_v116 : Ref sig .tc := ⟨.hbm, 158, rfl⟩
abbrev main_v117 : Ref sig .tc := ⟨.hbm, 159, rfl⟩
abbrev main_cst_25 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_26 : Ref sig .tc := ⟨.hbm, 171, rfl⟩
abbrev main_v128 : Ref sig .tc := ⟨.hbm, 172, rfl⟩
abbrev main_v129 : Ref sig .tc := ⟨.hbm, 173, rfl⟩
abbrev main_c_27 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_28 : Ref sig .tc := ⟨.hbm, 178, rfl⟩
abbrev main_v133 : Ref sig .tc := ⟨.hbm, 179, rfl⟩
abbrev main_v134 : Ref sig .tc := ⟨.hbm, 180, rfl⟩
abbrev main_c_29 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_30 : Ref sig .tc := ⟨.hbm, 189, rfl⟩
abbrev main_v142 : Ref sig .tc := ⟨.hbm, 190, rfl⟩
abbrev main_v143 : Ref sig .tc := ⟨.hbm, 191, rfl⟩
abbrev main_c_31 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_32 : Ref sig .tc := ⟨.hbm, 196, rfl⟩
abbrev main_v147 : Ref sig .tc := ⟨.hbm, 197, rfl⟩
abbrev main_v148 : Ref sig .tc := ⟨.hbm, 198, rfl⟩
abbrev main_c_33 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_34 : Ref sig .tc := ⟨.hbm, 207, rfl⟩
abbrev main_v156 : Ref sig .tc := ⟨.hbm, 208, rfl⟩
abbrev main_v157 : Ref sig .tc := ⟨.hbm, 209, rfl⟩
abbrev main_c_35 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_36 : Ref sig .tc := ⟨.hbm, 214, rfl⟩
abbrev main_v161 : Ref sig .tc := ⟨.hbm, 215, rfl⟩
abbrev main_v162 : Ref sig .tc := ⟨.hbm, 216, rfl⟩
abbrev main_c_37 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_38 : Ref sig .tc := ⟨.hbm, 225, rfl⟩
abbrev main_v170 : Ref sig .tc := ⟨.hbm, 226, rfl⟩
abbrev main_v171 : Ref sig .tc := ⟨.hbm, 227, rfl⟩
abbrev main_c_39 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_40 : Ref sig .tc := ⟨.hbm, 232, rfl⟩
abbrev main_v175 : Ref sig .tc := ⟨.hbm, 233, rfl⟩
abbrev main_v176 : Ref sig .tc := ⟨.hbm, 234, rfl⟩
abbrev main_c_41 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_42 : Ref sig .tc := ⟨.hbm, 270, rfl⟩
abbrev main_v211 : Ref sig .tc := ⟨.hbm, 271, rfl⟩
abbrev main_v212 : Ref sig .tc := ⟨.hbm, 272, rfl⟩
abbrev main_cst_43 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_c_44 : Ref sig .tc := ⟨.hbm, 284, rfl⟩
abbrev main_v223 : Ref sig .tc := ⟨.hbm, 285, rfl⟩
abbrev main_v224 : Ref sig .tc := ⟨.hbm, 286, rfl⟩
abbrev main_c_45 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_46 : Ref sig .tc := ⟨.hbm, 291, rfl⟩
abbrev main_v228 : Ref sig .tc := ⟨.hbm, 292, rfl⟩
abbrev main_v229 : Ref sig .tc := ⟨.hbm, 293, rfl⟩
abbrev main_c_47 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_c_48 : Ref sig .tc := ⟨.hbm, 302, rfl⟩
abbrev main_v237 : Ref sig .tc := ⟨.hbm, 303, rfl⟩
abbrev main_v238 : Ref sig .tc := ⟨.hbm, 304, rfl⟩
abbrev main_c_49 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_c_50 : Ref sig .tc := ⟨.hbm, 309, rfl⟩
abbrev main_v242 : Ref sig .tc := ⟨.hbm, 310, rfl⟩
abbrev main_v243 : Ref sig .tc := ⟨.hbm, 311, rfl⟩
abbrev main_c_51 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_52 : Ref sig .tc := ⟨.hbm, 320, rfl⟩
abbrev main_v251 : Ref sig .tc := ⟨.hbm, 321, rfl⟩
abbrev main_v252 : Ref sig .tc := ⟨.hbm, 322, rfl⟩
abbrev main_c_53 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_c_54 : Ref sig .tc := ⟨.hbm, 327, rfl⟩
abbrev main_v256 : Ref sig .tc := ⟨.hbm, 328, rfl⟩
abbrev main_v257 : Ref sig .tc := ⟨.hbm, 329, rfl⟩
abbrev main_c_55 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_c_56 : Ref sig .tc := ⟨.hbm, 338, rfl⟩
abbrev main_v265 : Ref sig .tc := ⟨.hbm, 339, rfl⟩
abbrev main_v266 : Ref sig .tc := ⟨.hbm, 340, rfl⟩
abbrev main_c_57 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_c_58 : Ref sig .tc := ⟨.hbm, 345, rfl⟩
abbrev main_v270 : Ref sig .tc := ⟨.hbm, 346, rfl⟩
abbrev main_v271 : Ref sig .tc := ⟨.hbm, 347, rfl⟩
abbrev main_c_59 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_cst_60 : Ref sig .tc := ⟨.hbm, 383, rfl⟩
abbrev main_v306 : Ref sig .tc := ⟨.hbm, 384, rfl⟩
abbrev main_v307 : Ref sig .tc := ⟨.hbm, 385, rfl⟩
abbrev main_cst_61 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_c_62 : Ref sig .tc := ⟨.hbm, 397, rfl⟩
abbrev main_v318 : Ref sig .tc := ⟨.hbm, 398, rfl⟩
abbrev main_v319 : Ref sig .tc := ⟨.hbm, 399, rfl⟩
abbrev main_c_63 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_c_64 : Ref sig .tc := ⟨.hbm, 404, rfl⟩
abbrev main_v323 : Ref sig .tc := ⟨.hbm, 405, rfl⟩
abbrev main_v324 : Ref sig .tc := ⟨.hbm, 406, rfl⟩
abbrev main_c_65 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_c_66 : Ref sig .tc := ⟨.hbm, 415, rfl⟩
abbrev main_v332 : Ref sig .tc := ⟨.hbm, 416, rfl⟩
abbrev main_v333 : Ref sig .tc := ⟨.hbm, 417, rfl⟩
abbrev main_c_67 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_c_68 : Ref sig .tc := ⟨.hbm, 422, rfl⟩
abbrev main_v337 : Ref sig .tc := ⟨.hbm, 423, rfl⟩
abbrev main_v338 : Ref sig .tc := ⟨.hbm, 424, rfl⟩
abbrev main_c_69 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_c_70 : Ref sig .tc := ⟨.hbm, 433, rfl⟩
abbrev main_v346 : Ref sig .tc := ⟨.hbm, 434, rfl⟩
abbrev main_v347 : Ref sig .tc := ⟨.hbm, 435, rfl⟩
abbrev main_c_71 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_c_72 : Ref sig .tc := ⟨.hbm, 440, rfl⟩
abbrev main_v351 : Ref sig .tc := ⟨.hbm, 441, rfl⟩
abbrev main_v352 : Ref sig .tc := ⟨.hbm, 442, rfl⟩
abbrev main_c_73 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_c_74 : Ref sig .tc := ⟨.hbm, 451, rfl⟩
abbrev main_v360 : Ref sig .tc := ⟨.hbm, 452, rfl⟩
abbrev main_v361 : Ref sig .tc := ⟨.hbm, 453, rfl⟩
abbrev main_c_75 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_c_76 : Ref sig .tc := ⟨.hbm, 458, rfl⟩
abbrev main_v365 : Ref sig .tc := ⟨.hbm, 459, rfl⟩
abbrev main_v366 : Ref sig .tc := ⟨.hbm, 460, rfl⟩
abbrev main_c_77 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S200000x1_S200000x64_0_1 : S200000x1.BroadcastsInDim S200000x64 (![0, 1] : Fin 2 → Fin S200000x64.rank)
  bcast_S200000x1_S200000x128_0_1 : S200000x1.BroadcastsInDim S200000x128 (![0, 1] : Fin 2 → Fin S200000x128.rank)
  bcast_S200000x1_S200000x256_0_1 : S200000x1.BroadcastsInDim S200000x256 (![0, 1] : Fin 2 → Fin S200000x256.rank)
  bcast_S200000x1_S200000x512_0_1 : S200000x1.BroadcastsInDim S200000x512 (![0, 1] : Fin 2 → Fin S200000x512.rank)
  concatenates_S200000x3_S200000x64_S200000x128_S200000x256_S200000x512_S200000x963_d1 : Shape.Concatenates [S200000x3, S200000x64, S200000x128, S200000x256, S200000x512] S200000x963 1
  gather_S56x56x64_S200000x2_S200000x64_1_01_n_n_01_1_1164_wf : GatherDims.WF S56x56x64 S200000x2 S200000x64 [1] [0, 1] [] [0, 1] [] 1 ![1, 1, 64]
  gather_S28x28x128_S200000x2_S200000x128_1_01_n_n_01_1_11128_wf : GatherDims.WF S28x28x128 S200000x2 S200000x128 [1] [0, 1] [] [0, 1] [] 1 ![1, 1, 128]
  gather_S14x14x256_S200000x2_S200000x256_1_01_n_n_01_1_11256_wf : GatherDims.WF S14x14x256 S200000x2 S200000x256 [1] [0, 1] [] [0, 1] [] 1 ![1, 1, 256]
  gather_S7x7x512_S200000x2_S200000x512_1_01_n_n_01_1_11512_wf : GatherDims.WF S7x7x512 S200000x2 S200000x512 [1] [0, 1] [] [0, 1] [] 1 ![1, 1, 512]

variable [Facts₀]

def gather_S56x56x64_S200000x2_S200000x64_1_01_n_n_01_1_1164 : GatherDims S56x56x64 S200000x2 S200000x64 where
  offsetDims := [1]
  collapsedSliceDims := [0, 1]
  operandBatchingDims := []
  startIndicesBatchingDims := []
  startIndexMap := [0, 1]
  indexVectorDim := 1
  sliceSizes := ![1, 1, 64]
  wf := gather_S56x56x64_S200000x2_S200000x64_1_01_n_n_01_1_1164_wf
def gather_S28x28x128_S200000x2_S200000x128_1_01_n_n_01_1_11128 : GatherDims S28x28x128 S200000x2 S200000x128 where
  offsetDims := [1]
  collapsedSliceDims := [0, 1]
  operandBatchingDims := []
  startIndicesBatchingDims := []
  startIndexMap := [0, 1]
  indexVectorDim := 1
  sliceSizes := ![1, 1, 128]
  wf := gather_S28x28x128_S200000x2_S200000x128_1_01_n_n_01_1_11128_wf
def gather_S14x14x256_S200000x2_S200000x256_1_01_n_n_01_1_11256 : GatherDims S14x14x256 S200000x2 S200000x256 where
  offsetDims := [1]
  collapsedSliceDims := [0, 1]
  operandBatchingDims := []
  startIndicesBatchingDims := []
  startIndexMap := [0, 1]
  indexVectorDim := 1
  sliceSizes := ![1, 1, 256]
  wf := gather_S14x14x256_S200000x2_S200000x256_1_01_n_n_01_1_11256_wf
def gather_S7x7x512_S200000x2_S200000x512_1_01_n_n_01_1_11512 : GatherDims S7x7x512 S200000x2 S200000x512 where
  offsetDims := [1]
  collapsedSliceDims := [0, 1]
  operandBatchingDims := []
  startIndicesBatchingDims := []
  startIndexMap := [0, 1]
  indexVectorDim := 1
  sliceSizes := ![1, 1, 512]
  wf := gather_S7x7x512_S200000x2_S200000x512_1_01_n_n_01_1_11512_wf

class Facts : Prop extends Facts₀ where

variable [Facts]
-- ==== Proof.Spec.lean ====
/-
  What the two programs compute, entry by entry, on the extended reals.

  A point (x, y, z) is projected to the image plane, row coordinate 112·(0 − y)/(0 − z) + 111.5 and column coordinate
  112·x/(0 − z) + 111.5, both clipped to [0, 223]. At each of four scales (grid side H = 56, 28, 14, 7; cell size
  224/H = 4, 8, 16, 32) the coordinates are divided by the cell size and the four surrounding grid cells
  (floor/ceil × floor/ceil) are blended with the weights (ceil − s)(ceil − t), (s − floor)(ceil − t),
  (ceil − s)(t − floor), (s − floor)(t − floor).  The output row is the point followed by the four blended feature rows.

  Two spellings of the blend are stated here.  `projK` contracts a weighted one-hot row against the flat table
  [H·H, C]: place r of the row holds the sum of the weights of the corners whose flat cell x·H + y (32-bit words, the
  coordinates clipped to 0..H−1 before conversion) is r.  `projR` reads the table [H, H, C] at the four cells, each
  coordinate converted to a word, a negative word wrapped by H and the result clamped into 0..H−1, and sums the four
  weighted rows.  `GK` / `GR` are the whole arrays in the two spellings; they are equal when the tables are finite
  (proved elsewhere: it needs distributivity, hence real weights and finite table entries).
-/
import Idealize.ShloMosaic.PureOps.Ideal
import Idealize.ShloMosaic.Lib.ValueIdx

noncomputable section

open scoped BigOperators

namespace Cert.Spec

open Idealize.ShloMosaic Idealize.ShloMosaic.ValueIdx

/-! ## Scalars -/

/-- The extended real a 32-bit float word denotes. -/
abbrev lit (b : BitVec 32) : EReal := Ideal.ofBits .f32 b

/-- A value clipped to the image, [0, 223]. -/
def clip (a : EReal) : EReal := min (lit 0x435F0000#32) (max (lit 0x00000000#32) a)

/-- The image row coordinate of a point, before clipping: 112·(0 − y)/(0 − z) + 111.5. -/
def rowPre (y z : EReal) : EReal :=
  Ideal.div (lit 0x42E00000#32 * (lit 0x00000000#32 - y)) (lit 0x00000000#32 - z) + lit 0x42DF0000#32

/-- The image column coordinate of a point, before clipping: 112·x/(0 − z) + 111.5. -/
def colPre (x z : EReal) : EReal :=
  Ideal.div (lit 0x42E00000#32 * x) (lit 0x00000000#32 - z) + lit 0x42DF0000#32

/-- Floor and ceiling, the infinities fixed. -/
def fl (v : EReal) : EReal := Ideal.liftRound Int.floor v
def ce (v : EReal) : EReal := Ideal.liftRound Int.ceil v

/-- The four bilinear weights at grid coordinates (s, t): corners (floor, floor), (ceil, floor), (floor, ceil),
    (ceil, ceil), in that order. -/
def w11 (s t : EReal) : EReal := (ce s - s) * (ce t - t)
def w21 (s t : EReal) : EReal := (s - fl s) * (ce t - t)
def w12 (s t : EReal) : EReal := (ce s - s) * (t - fl t)
def w22 (s t : EReal) : EReal := (s - fl s) * (t - fl t)

/-! ## The weighted one-hot spelling -/

/-- A grid coordinate clipped into [0, top] and converted to a 32-bit word. -/
def kWord (top v : EReal) : BitVec 32 := Ideal.fptosi 32 (min top (max (lit 0x00000000#32) v))

/-- The flat cell x·H + y of a corner, in 32-bit words. -/
def kRow (H : ℕ) (top vx vy : EReal) : BitVec 32 := kWord top vx * BitVec.ofNat 32 H + kWord top vy

/-- Place r of the weighted one-hot row of a point at grid coordinates (s, t). -/
def oneHot (H : ℕ) (top s t : EReal) (r : ℕ) : EReal :=
  (((if BitVec.ofNat 32 r = kRow H top (fl s) (fl t) then w11 s t else lit 0x00000000#32)
    + (if BitVec.ofNat 32 r = kRow H top (ce s) (fl t) then w21 s t else lit 0x00000000#32))
    + (if BitVec.ofNat 32 r = kRow H top (fl s) (ce t) then w12 s t else lit 0x00000000#32))
    + (if BitVec.ofNat 32 r = kRow H top (ce s) (ce t) then w22 s t else lit 0x00000000#32)

/-- The one-hot row contracted against one column of the flat table. -/
def projK (HW H : ℕ) (top s t : EReal) (T : ℕ → EReal) : EReal :=
  ∑ r : Fin HW, oneHot H top s t r.val * T r.val

/-! ## The four-cell spelling -/

/-- A grid coordinate converted to a 32-bit word, a negative word wrapped by H. -/
def rWord (H : ℕ) (v : EReal) : BitVec 32 :=
  if (Ideal.fptosi 32 v).slt 0#32 then Ideal.fptosi 32 v + BitVec.ofNat 32 H else Ideal.fptosi 32 v

/-- The cell that word selects: read signed, clamped into 0..H−1. -/
def rCell (H : ℕ) (v : EReal) : ℕ := min (rWord H v).toInt.toNat (H - 1)

/-- The four cells' entries blended. -/
def projR (H : ℕ) (s t : EReal) (T : ℕ → ℕ → EReal) : EReal :=
  ((w11 s t * T (rCell H (fl s)) (rCell H (fl t)) + w21 s t * T (rCell H (ce s)) (rCell H (fl t)))
    + w12 s t * T (rCell H (fl s)) (rCell H (ce t))) + w22 s t * T (rCell H (ce s)) (rCell H (ce t))

/-! ## One entry of an output row -/

/-- Entry q of the output row of a point (x, y, z), one-hot spelling; `first3` are the row's first three entries,
    `T1 … T4` the flat tables (row, column). -/
def entryK (x y z : EReal) (first3 : ℕ → EReal) (T1 T2 T3 T4 : ℕ → ℕ → EReal) (q : ℕ) : EReal :=
  if q < 3 then first3 q
  else if q < 67 then
    projK 3136 56 (lit 0x425C0000#32) (Ideal.div (clip (rowPre y z)) (lit 0x40800000#32))
      (Ideal.div (clip (colPre x z)) (lit 0x40800000#32)) (fun r => T1 r (q - 3))
  else if q < 195 then
    projK 784 28 (lit 0x41D80000#32) (Ideal.div (clip (rowPre y z)) (lit 0x41000000#32))
      (Ideal.div (clip (colPre x z)) (lit 0x41000000#32)) (fun r => T2 r (q - 67))
  else if q < 451 then
    projK 196 14 (lit 0x41500000#32) (Ideal.div (clip (rowPre y z)) (lit 0x41800000#32))
      (Ideal.div (clip (colPre x z)) (lit 0x41800000#32)) (fun r => T3 r (q - 195))
  else
    projK 49 7 (lit 0x40C00000#32) (Ideal.div (clip (rowPre y z)) (lit 0x42000000#32))
      (Ideal.div (clip (colPre x z)) (lit 0x42000000#32)) (fun r => T4 r (q - 451))

/-- Entry q of the output row of a point (x, y, z), four-cell spelling; `T1 … T4` the tables (cell row, cell column,
    channel). -/
def entryR (x y z : EReal) (first3 : ℕ → EReal) (T1 T2 T3 T4 : ℕ → ℕ → ℕ → EReal) (q : ℕ) : EReal :=
  if q < 3 then first3 q
  else if q < 67 then
    projR 56 (Ideal.div (clip (rowPre y z)) (lit 0x40800000#32)) (Ideal.div (clip (colPre x z)) (lit 0x40800000#32))
      (fun a b => T1 a b (q - 3))
  else if q < 195 then
    projR 28 (Ideal.div (clip (rowPre y z)) (lit 0x41000000#32)) (Ideal.div (clip (colPre x z)) (lit 0x41000000#32))
      (fun a b => T2 a b (q - 67))
  else if q < 451 then
    projR 14 (Ideal.div (clip (rowPre y z)) (lit 0x41800000#32)) (Ideal.div (clip (colPre x z)) (lit 0x41800000#32))
      (fun a b => T3 a b (q - 195))
  else
    projR 7 (Ideal.div (clip (rowPre y z)) (lit 0x42000000#32)) (Ideal.div (clip (colPre x z)) (lit 0x42000000#32))
      (fun a b => T4 a b (q - 451))

/-! ## Arrays read at natural-number coordinates (zero outside) -/

def tab2 {A B : ℕ} (f : (⟨2, ![A, B]⟩ : Shape).Idx → EReal) (a b : ℕ) : EReal :=
  if h : a < A ∧ b < B then f (ix2 ⟨a, h.1⟩ ⟨b, h.2⟩) else 0

def tab3 {A B C : ℕ} (f : (⟨3, ![A, B, C]⟩ : Shape).Idx → EReal) (a b c : ℕ) : EReal :=
  if h : a < A ∧ b < B ∧ c < C then f (ix3 ⟨a, h.1⟩ ⟨b, h.2.1⟩ ⟨c, h.2.2⟩) else 0

/-! ## The whole arrays -/

/-- The output array, one-hot spelling, of the point array and the four feature arrays: the flat table of a feature
    array [H, H, C] has the cell (a, b) at row a·H + b. -/
def GK (coord : (⟨2, ![200000, 3]⟩ : Shape).Idx → EReal) (f1 : (⟨3, ![56, 56, 64]⟩ : Shape).Idx → EReal)
    (f2 : (⟨3, ![28, 28, 128]⟩ : Shape).Idx → EReal) (f3 : (⟨3, ![14, 14, 256]⟩ : Shape).Idx → EReal)
    (f4 : (⟨3, ![7, 7, 512]⟩ : Shape).Idx → EReal) : (⟨2, ![200000, 963]⟩ : Shape).Idx → EReal := fun i =>
  entryK (tab2 coord (i 0).val 0) (tab2 coord (i 0).val 1) (tab2 coord (i 0).val 2) (fun q => tab2 coord (i 0).val q)
    (fun r c => tab3 f1 (r / 56) (r % 56) c) (fun r c => tab3 f2 (r / 28) (r % 28) c)
    (fun r c => tab3 f3 (r / 14) (r % 14) c) (fun r c => tab3 f4 (r / 7) (r % 7) c) (i 1).val

/-- The output array, four-cell spelling. -/
def GR (coord : (⟨2, ![200000, 3]⟩ : Shape).Idx → EReal) (f1 : (⟨3, ![56, 56, 64]⟩ : Shape).Idx → EReal)
    (f2 : (⟨3, ![28, 28, 128]⟩ : Shape).Idx → EReal) (f3 : (⟨3, ![14, 14, 256]⟩ : Shape).Idx → EReal)
    (f4 : (⟨3, ![7, 7, 512]⟩ : Shape).Idx → EReal) : (⟨2, ![200000, 963]⟩ : Shape).Idx → EReal := fun i =>
  entryR (tab2 coord (i 0).val 0) (tab2 coord (i 0).val 1) (tab2 coord (i 0).val 2) (fun q => tab2 coord (i 0).val q)
    (tab3 f1) (tab3 f2) (tab3 f3) (tab3 f4) (i 1).val

end Cert.Spec

end
-- ==== Proof.KernelBlock.lean ====
/-
  What one grid point leaves in the output block, at the ideal values, as one function of its five input blocks.

  The block [1600, 963] is written by five stores: columns 0..2 the point block; columns 3..66, 67..194, 195..450 and
  451..962 the products of a weighted one-hot array [1600, H·H] with the flat feature table [H·H, C] at grid sides
  H = 56, 28, 14, 7.  Each one-hot array is built in a scratch buffer by four stores: the first holds, at (p, r), the
  first weight where the column number r is the first corner's flat cell and zero elsewhere; each later store adds the
  next corner's term to what the buffer held.  Read at (p, r) the buffer is therefore the four-term sum `Spec.oneHot`,
  and the product read at (p, c) is the sum over r of that row times the table's column, `Spec.projK`.  Every step is
  symbolic in the point p, the cell r and the channel c; nothing is evaluated at an extent.

  `out_eq`: the run's five found pieces, read back, are `KB` — entry (p, q) of the block is `Spec.entryK` of point
  p's three coordinates and the four tables at q.
-/
import proofs.«182027_j29850022707588_2_alg».proof.Proof.Gen.KernelIdeal.Frame
import proofs.«182027_j29850022707588_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem

namespace Cert.KernelIdeal.KBlock

open Cert.KernelIdeal Cert.KernelIdeal.Gen Idealize.ShloMosaic Idealize.ShloMosaic.ValueIdx

/-- what a grid point leaves in the output block -/
def KB (x0 : Vec Ideal S1600x3 .f32) (x1 : Vec Ideal S3136x64 .f32) (x2 : Vec Ideal S784x128 .f32)
    (x3 : Vec Ideal S196x256 .f32) (x4 : Vec Ideal S49x512 .f32) : Vec Ideal S1600x963 .f32 := fun j =>
  Cert.Spec.entryK (Cert.Spec.tab2 x0 (j 0).val 0) (Cert.Spec.tab2 x0 (j 0).val 1) (Cert.Spec.tab2 x0 (j 0).val 2)
    (fun q => Cert.Spec.tab2 x0 (j 0).val q) (Cert.Spec.tab2 x1) (Cert.Spec.tab2 x2) (Cert.Spec.tab2 x3)
    (Cert.Spec.tab2 x4) (j 1).val

/-! ## Layout operations read at an index of explicit coordinates -/

theorem hz : (![0, 0] : Fin 2 → Nat) = fun _ => 0 := funext fun a => by fin_cases a <;> rfl

/-- A column broadcast along the rows reads, at (p, c), the column's entry at p. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One column of a two-axis array, as a unit-stride slice, reads the array on that column. -/
theorem slice_col {α : Type} {a b : ℕ} (x : (⟨2, ![a, b]⟩ : Shape).Idx → α) (off : Fin 2 → ℕ)
    (h : (⟨2, ![a, b]⟩ : Shape).Slices off ⟨2, ![a, 1]⟩) (c : Fin b) (h0 : off ⟨0, by omega⟩ = 0)
    (h1 : off ⟨1, by omega⟩ = c.val) (p : Fin a) (z : Fin 1) :
    extractStridedSlice ⟨2, ![a, 1]⟩ off x h (ix2 p z) = x (ix2 p c) := by
  refine extractStridedSlice_apply off x h (ix2 p z) (ix2 p c) fun ax => ?_
  match ax with
  | ⟨0, _⟩ => show p.val = off ⟨0, _⟩ + p.val; omega
  | ⟨1, _⟩ => show c.val = off ⟨1, _⟩ + z.val; have := z.isLt; omega

/-- The iota along the second axis of a one-row array reads the column number. -/
theorem iota_row {n : ℕ} (h : (⟨2, ![1, n]⟩ : Shape).Iotas .tc 32 [1]) (z : Fin 1) (r : Fin n) :
    iota .tc ⟨2, ![1, n]⟩ 32 [1] h (ix2 z r) = BitVec.ofNat 32 r.val :=
  (iota_single_apply .tc ⟨2, ![1, n]⟩ 32 1 h (ix2 z r)).trans rfl

/-- A select on an equality test of two words is the `if` on their equality. -/
theorem sel_eq {α : Type} (a b : BitVec 32) (u v : α) :
    Scalar.select (IntOp.cmpi .eq a b) u v = if a = b then u else v := by
  by_cases h : a = b
  · subst h; simp [Scalar.select, IntOp.cmpi]
  · have hb : (a == b) = false := beq_eq_false_iff_ne.mpr h
    simp [Scalar.select, IntOp.cmpi, hb, h]

/-! ## The point block's three columns and the clipped image coordinates -/

theorem x0_col0 (x0 : Vec Ideal S1600x3 .f32) (p : Fin 1600) (z : Fin 1) :
    extractStridedSlice S1600x1 ![0, 0] x0 slices_S1600x3_o0_0_S1600x1 (ix2 p z) = x0 (ix2 p (0 : Fin 3)) :=
  slice_col x0 _ _ 0 rfl rfl p z
theorem x0_col1 (x0 : Vec Ideal S1600x3 .f32) (p : Fin 1600) (z : Fin 1) :
    extractStridedSlice S1600x1 ![0, 1] x0 slices_S1600x3_o0_1_S1600x1 (ix2 p z) = x0 (ix2 p (1 : Fin 3)) :=
  slice_col x0 _ _ 1 rfl rfl p z
theorem x0_col2 (x0 : Vec Ideal S1600x3 .f32) (p : Fin 1600) (z : Fin 1) :
    extractStridedSlice S1600x1 ![0, 2] x0 slices_S1600x3_o0_2_S1600x1 (ix2 p z) = x0 (ix2 p (2 : Fin 3)) :=
  slice_col x0 _ _ 2 rfl rfl p z

/-- The clipped image row coordinate of point p. -/
def rowOf (x0 : Vec Ideal S1600x3 .f32) (p : Fin 1600) : EReal :=
  Cert.Spec.clip (Cert.Spec.rowPre (x0 (ix2 p (1 : Fin 3))) (x0 (ix2 p (2 : Fin 3))))
/-- The clipped image column coordinate of point p. -/
def colOf (x0 : Vec Ideal S1600x3 .f32) (p : Fin 1600) : EReal :=
  Cert.Spec.clip (Cert.Spec.colPre (x0 (ix2 p (0 : Fin 3))) (x0 (ix2 p (2 : Fin 3))))

theorem c4 (x0 : Vec Ideal S1600x3 .f32) (p : Fin 1600) (z : Fin 1) :
    k0_pay4 x0 (ix2 p z) = x0 (ix2 p (2 : Fin 3)) := by
  unfold k0_pay4; exact x0_col2 x0 p z

theorem c5 (x0 : Vec Ideal S1600x3 .f32) (p : Fin 1600) (z : Fin 1) :
    k0_pay5 x0 (ix2 p z) = rowOf x0 p := by
  unfold k0_pay5
  simp only [minimumf_apply, maximumf_apply, addf_apply, divf_apply, mulf_apply, subf_apply, broadcast_apply,
    c4]
  rw [x0_col1 x0 p z]
  rfl

theorem c6 (x0 : Vec Ideal S1600x3 .f32) (p : Fin 1600) (z : Fin 1) :
    k0_pay6 x0 (ix2 p z) = colOf x0 p := by
  unfold k0_pay6
  simp only [minimumf_apply, maximumf_apply, addf_apply, divf_apply, mulf_apply, subf_apply, broadcast_apply,
    c4]
  rw [x0_col0 x0 p z]
  rfl

/-! ## More pointwise operations read at an index (all by unfolding) -/

theorem floor_apply {s : Shape} {φ : FTy} (a : FVec Ideal s φ) (i : s.Idx) : floor a i = Cert.Spec.fl (a i) := rfl
theorem ceil_apply {s : Shape} {φ : FTy} (a : FVec Ideal s φ) (i : s.Idx) : ceil a i = Cert.Spec.ce (a i) := rfl
theorem fptosi_apply {s : Shape} {φ : FTy} (a : FVec Ideal s φ) (i : s.Idx) : fptosi 32 a i = Ideal.fptosi 32 (a i) := rfl
theorem muli_apply {s : Shape} (a b : IVec s 32) (i : s.Idx) : muli a b i = a i * b i := rfl
theorem addi_apply {s : Shape} (a b : IVec s 32) (i : s.Idx) : addi a b i = a i + b i := rfl
theorem cmpi_apply {s : Shape} (a b : IVec s 32) (i : s.Idx) : cmpi .eq a b i = IntOp.cmpi .eq (a i) (b i) := rfl

/-- An array read at in-range natural-number coordinates is the array there. -/
theorem tab2_val {A B : ℕ} (f : (⟨2, ![A, B]⟩ : Shape).Idx → EReal) (a : Fin A) (b : Fin B) :
    Cert.Spec.tab2 f a.val b.val = f (ix2 a b) := by
  unfold Cert.Spec.tab2
  rw [dif_pos ⟨a.isLt, b.isLt⟩]

/-- The grid coordinates of point p at a scale of cell size `cell`. -/
def sOf (cell : BitVec 32) (x0 : Vec Ideal S1600x3 .f32) (p : Fin 1600) : EReal :=
  Ideal.div (rowOf x0 p) (Cert.Spec.lit cell)
def tOf (cell : BitVec 32) (x0 : Vec Ideal S1600x3 .f32) (p : Fin 1600) : EReal :=
  Ideal.div (colOf x0 p) (Cert.Spec.lit cell)
/-- The value of the output block, from the two coordinates of its index. -/
theorem KB_of_vals (x0 : Vec Ideal S1600x3 .f32) (x1 : Vec Ideal S3136x64 .f32) (x2 : Vec Ideal S784x128 .f32)
    (x3 : Vec Ideal S196x256 .f32) (x4 : Vec Ideal S49x512 .f32) (j : S1600x963.Idx) (p : Fin 1600) (q : ℕ)
    (h0 : (j 0).val = p.val) (h1 : (j 1).val = q) :
    KB x0 x1 x2 x3 x4 j = Cert.Spec.entryK (x0 (ix2 p (0 : Fin 3))) (x0 (ix2 p (1 : Fin 3))) (x0 (ix2 p (2 : Fin 3)))
      (fun q => Cert.Spec.tab2 x0 p.val q) (Cert.Spec.tab2 x1) (Cert.Spec.tab2 x2) (Cert.Spec.tab2 x3)
      (Cert.Spec.tab2 x4) q := by
  unfold KB
  rw [h0, h1]
  have e0 : Cert.Spec.tab2 x0 p.val 0 = x0 (ix2 p (0 : Fin 3)) := tab2_val x0 p 0
  have e1 : Cert.Spec.tab2 x0 p.val 1 = x0 (ix2 p (1 : Fin 3)) := tab2_val x0 p 1
  have e2 : Cert.Spec.tab2 x0 p.val 2 = x0 (ix2 p (2 : Fin 3)) := tab2_val x0 p 2
  rw [e0, e1, e2]

/-- Columns 0..2: the point block itself. -/
theorem piece0 (x0 : Vec Ideal S1600x3 .f32) (x1 : Vec Ideal S3136x64 .f32) (x2 : Vec Ideal S784x128 .f32)
    (x3 : Vec Ideal S196x256 .f32) (x4 : Vec Ideal S49x512 .f32) (p : Fin 1600) (k : Fin 3) (j : S1600x963.Idx)
    (h0 : (j 0).val = p.val) (h1 : (j 1).val = k.val) :
    x0 (ix2 p k) = KB x0 x1 x2 x3 x4 j := by
  rw [KB_of_vals x0 x1 x2 x3 x4 j p k.val h0 h1]
  unfold Cert.Spec.entryK
  rw [if_pos k.isLt]
  exact (tab2_val x0 p k).symm

/-! ## Grid side 56 (cell size 4): the columns, the stores into the scratch buffer, the product -/

theorem a1_s (x0 : Vec Ideal S1600x3 .f32) (p : Fin 1600) (z : Fin 1) : k0_pay7 x0 (ix2 p z) = sOf 0x40800000#32 x0 p := by
  unfold k0_pay7; simp only [divf_apply, broadcast_apply, c5]; rfl
theorem a1_t (x0 : Vec Ideal S1600x3 .f32) (p : Fin 1600) (z : Fin 1) : k0_pay8 x0 (ix2 p z) = tOf 0x40800000#32 x0 p := by
  unfold k0_pay8; simp only [divf_apply, broadcast_apply, c6]; rfl
theorem a1_fls (x0 : Vec Ideal S1600x3 .f32) (p : Fin 1600) (z : Fin 1) : k0_pay9 x0 (ix2 p z) = Cert.Spec.fl (sOf 0x40800000#32 x0 p) := by
  unfold k0_pay9; simp only [floor_apply, a1_s]
theorem a1_ces (x0 : Vec Ideal S1600x3 .f32) (p : Fin 1600) (z : Fin 1) : k0_pay10 x0 (ix2 p z) = Cert.Spec.ce (sOf 0x40800000#32 x0 p) := by
  unfold k0_pay10; simp only [ceil_apply, a1_s]
theorem a1_flt (x0 : Vec Ideal S1600x3 .f32) (p : Fin 1600) (z : Fin 1) : k0_pay11 x0 (ix2 p z) = Cert.Spec.fl (tOf 0x40800000#32 x0 p) := by
  unfold k0_pay11; simp only [floor_apply, a1_t]
theorem a1_cet (x0 : Vec Ideal S1600x3 .f32) (p : Fin 1600) (z : Fin 1) : k0_pay12 x0 (ix2 p z) = Cert.Spec.ce (tOf 0x40800000#32 x0 p) := by
  unfold k0_pay12; simp only [ceil_apply, a1_t]
theorem a1_w11 (x0 : Vec Ideal S1600x3 .f32) (p : Fin 1600) (z : Fin 1) : k0_pay13 x0 (ix2 p z) = Cert.Spec.w11 (sOf 0x40800000#32 x0 p) (tOf 0x40800000#32 x0 p) := by
  unfold k0_pay13; simp only [mulf_apply, subf_apply, a1_s, a1_t, a1_ces, a1_cet]; rfl
theorem a1_sfl (x0 : Vec Ideal S1600x3 .f32) (p : Fin 1600) (z : Fin 1) : k0_pay14 x0 (ix2 p z) = (sOf 0x40800000#32 x0 p) - Cert.Spec.fl (sOf 0x40800000#32 x0 p) := by
  unfold k0_pay14; simp only [subf_apply, a1_s, a1_fls]

theorem a1_w21 (vt vcet vsfl : FVec Ideal S1600x1 .f32) (j : S1600x1.Idx) :
    k0_pay15 vt vcet vsfl j = vsfl j * (vcet j - vt j) := rfl
theorem a1_w12 (vs vt vces vflt : FVec Ideal S1600x1 .f32) (j : S1600x1.Idx) :
    k0_pay16 vs vt vces vflt j = (vces j - vs j) * (vt j - vflt j) := rfl
theorem a1_w22 (vs vt vfls vflt : FVec Ideal S1600x1 .f32) (j : S1600x1.Idx) :
    k0_pay17 vs vt vfls vflt j = (vs j - vfls j) * (vt j - vflt j) := rfl
theorem a1_i21 (vx vy : FVec Ideal S1600x1 .f32) (j : S1600x1.Idx) :
    k0_pay22 vx vy j = Cert.Spec.kRow 56 (Cert.Spec.lit 0x425C0000#32) (vx j) (vy j) := rfl
theorem a1_i12 (vx vy : FVec Ideal S1600x1 .f32) (j : S1600x1.Idx) :
    k0_pay23 vx vy j = Cert.Spec.kRow 56 (Cert.Spec.lit 0x425C0000#32) (vx j) (vy j) := rfl
theorem a1_i22 (vx vy : FVec Ideal S1600x1 .f32) (j : S1600x1.Idx) :
    k0_pay24 vx vy j = Cert.Spec.kRow 56 (Cert.Spec.lit 0x425C0000#32) (vx j) (vy j) := rfl

theorem a1_mask (vx vy : FVec Ideal S1600x1 .f32) (p : Fin 1600) (r : Fin 3136) :
    k0_pay25 vx vy (ix2 p r) = IntOp.cmpi .eq (BitVec.ofNat 32 r.val)
      (Cert.Spec.kRow 56 (Cert.Spec.lit 0x425C0000#32) (vx (ix2 p (0 : Fin 1))) (vy (ix2 p (0 : Fin 1)))) := by
  unfold k0_pay25
  show IntOp.cmpi .eq (broadcastTo S1600x3136 (iota .tc S1x3136 32 [1] iota_S1x3136_d1_w32) broadcasts_S1x3136_S1600x3136 (ix2 p r)) (broadcastTo S1600x3136 _ broadcasts_S1600x1_S1600x3136 (ix2 p r)) = _
  rw [broadcastTo_1b_ab_apply _ broadcasts_S1x3136_S1600x3136 p r, bcast_col _ broadcasts_S1600x1_S1600x3136 p r, iota_row iota_S1x3136_d1_w32 0 r]
  rfl
theorem a1_bw (w : FVec Ideal S1600x1 .f32) (p : Fin 1600) (r : Fin 3136) :
    k0_pay26 w (ix2 p r) = w (ix2 p (0 : Fin 1)) := by
  unfold k0_pay26
  simp only [shapeCast_self]
  exact bcast_col w broadcasts_S1600x1_S1600x3136 p r
theorem a1_zero (j : S1600x3136.Idx) : k0_pay27 (F := Ideal) j = Cert.Spec.lit 0x00000000#32 := rfl
theorem a1_sel (m : IVec S1600x3136 1) (u v : FVec Ideal S1600x3136 .f32) (j : S1600x3136.Idx) :
    k0_pay28 m u v j = Scalar.select (m j) (u j) (v j) := by
  unfold k0_pay28
  simp only [shapeCast_self]
  rfl

theorem a1_a1 (w : FVec Ideal S1600x1 .f32) (idx : IVec S1600x1 32) (io : IVec S1x3136 32) (prev : Vec Ideal S1600x3136 .f32)
    (p : Fin 1600) (r : Fin 3136) :
    k0_pay29 w idx io prev (ix2 p r) = prev (ix2 p r)
      + (if io (ix2 (0 : Fin 1) r) = idx (ix2 p (0 : Fin 1)) then w (ix2 p (0 : Fin 1)) else Cert.Spec.lit 0x00000000#32) := by
  unfold k0_pay29
  simp only [shapeCast_self]
  show prev (ix2 p r) + Scalar.select (IntOp.cmpi .eq (broadcastTo S1600x3136 io broadcasts_S1x3136_S1600x3136 (ix2 p r))
      (broadcastTo S1600x3136 idx broadcasts_S1600x1_S1600x3136 (ix2 p r))) (broadcastTo S1600x3136 w broadcasts_S1600x1_S1600x3136 (ix2 p r)) _ = _
  rw [broadcastTo_1b_ab_apply io broadcasts_S1x3136_S1600x3136 p r, bcast_col idx broadcasts_S1600x1_S1600x3136 p r, bcast_col w broadcasts_S1600x1_S1600x3136 p r, sel_eq]
  rfl

theorem a1_a2 (w : FVec Ideal S1600x1 .f32) (idx : IVec S1600x1 32) (io : IVec S1x3136 32) (prev : Vec Ideal S1600x3136 .f32)
    (p : Fin 1600) (r : Fin 3136) :
    k0_pay30 w idx io prev (ix2 p r) = prev (ix2 p r)
      + (if io (ix2 (0 : Fin 1) r) = idx (ix2 p (0 : Fin 1)) then w (ix2 p (0 : Fin 1)) else Cert.Spec.lit 0x00000000#32) := by
  unfold k0_pay30
  simp only [shapeCast_self]
  show prev (ix2 p r) + Scalar.select (IntOp.cmpi .eq (broadcastTo S1600x3136 io broadcasts_S1x3136_S1600x3136 (ix2 p r))
      (broadcastTo S1600x3136 idx broadcasts_S1600x1_S1600x3136 (ix2 p r))) (broadcastTo S1600x3136 w broadcasts_S1600x1_S1600x3136 (ix2 p r)) _ = _
  rw [broadcastTo_1b_ab_apply io broadcasts_S1x3136_S1600x3136 p r, bcast_col idx broadcasts_S1600x1_S1600x3136 p r, bcast_col w broadcasts_S1600x1_S1600x3136 p r, sel_eq]
  rfl

theorem a1_a3 (w : FVec Ideal S1600x1 .f32) (idx : IVec S1600x1 32) (io : IVec S1x3136 32) (prev : Vec Ideal S1600x3136 .f32)
    (p : Fin 1600) (r : Fin 3136) :
    k0_pay31 w idx io prev (ix2 p r) = prev (ix2 p r)
      + (if io (ix2 (0 : Fin 1) r) = idx (ix2 p (0 : Fin 1)) then w (ix2 p (0 : Fin 1)) else Cert.Spec.lit 0x00000000#32) := by
  unfold k0_pay31
  simp only [shapeCast_self]
  show prev (ix2 p r) + Scalar.select (IntOp.cmpi .eq (broadcastTo S1600x3136 io broadcasts_S1x3136_S1600x3136 (ix2 p r))
      (broadcastTo S1600x3136 idx broadcasts_S1600x1_S1600x3136 (ix2 p r))) (broadcastTo S1600x3136 w broadcasts_S1600x1_S1600x3136 (ix2 p r)) _ = _
  rw [broadcastTo_1b_ab_apply io broadcasts_S1x3136_S1600x3136 p r, bcast_col idx broadcasts_S1600x1_S1600x3136 p r, bcast_col w broadcasts_S1600x1_S1600x3136 p r, sel_eq]
  rfl

/-- The product of a [1600, 3136] array and a [3136, 64] table into the zero accumulator, at (p, k): the sum over the
    contracted coordinate. -/
theorem a1_mm (T : Vec Ideal S3136x64 .f32) (OH : Vec Ideal S1600x3136 .f32) (p : Fin 1600) (k : Fin 64) :
    k0_pay32 T OH (ix2 p k) = ∑ r : Fin 3136, OH (ix2 p r) * T (ix2 r k) := by
  unfold k0_pay32
  simp only [shapeCast_self]
  show FloatOps.matmul dot_S1600x3136_S3136x64_S1600x64_1_0_0_1_n_n none _ _ (constant S1600x64 .f32 0x00000000#32) (ix2 p k) = _
  rw [Ideal.matmul_constant_zero_apply, ← Equiv.sum_comp (contrEquiv1 dot_S1600x3136_S3136x64_S1600x64_1_0_0_1_n_n 3136 rfl rfl).symm]
  refine Finset.sum_congr rfl fun r _ => ?_
  have c2 := contrEquiv1_symm_val dot_S1600x3136_S3136x64_S1600x64_1_0_0_1_n_n 3136 rfl rfl r
  have l2 : dot_S1600x3136_S3136x64_S1600x64_1_0_0_1_n_n.lhsIdx (ix2 p k) ((contrEquiv1 _ 3136 rfl rfl).symm r) = ix2 p r := by
    funext ax; apply Fin.ext
    match ax with
    | ⟨0, _⟩ => simp [DotDims.lhsIdx, dot_S1600x3136_S3136x64_S1600x64_1_0_0_1_n_n]; rfl
    | ⟨1, _⟩ => simp [DotDims.lhsIdx, dot_S1600x3136_S3136x64_S1600x64_1_0_0_1_n_n]; exact c2
  have r2 : dot_S1600x3136_S3136x64_S1600x64_1_0_0_1_n_n.rhsIdx (ix2 p k) ((contrEquiv1 _ 3136 rfl rfl).symm r) = ix2 r k := by
    funext ax; apply Fin.ext
    match ax with
    | ⟨0, _⟩ => simp [DotDims.rhsIdx, dot_S1600x3136_S3136x64_S1600x64_1_0_0_1_n_n]; exact c2
    | ⟨1, _⟩ => simp [DotDims.rhsIdx, dot_S1600x3136_S3136x64_S1600x64_1_0_0_1_n_n]; rfl
  rw [l2, r2]
  rfl

/-- What the scratch buffer of grid side 56 holds when the product reads it: each point's weighted one-hot row. -/
theorem a1_oh (x0 : Vec Ideal S1600x3 .f32) (p : Fin 1600) (r : Fin 3136) :
    (k0_pay31 (k0_pay17 (k0_pay7 x0) (k0_pay8 x0) (k0_pay9 x0) (k0_pay11 x0)) (k0_pay24 (k0_pay10 x0) (k0_pay12 x0)) (iota .tc S1x3136 32 [1] iota_S1x3136_d1_w32)
      (k0_pay30 (k0_pay16 (k0_pay7 x0) (k0_pay8 x0) (k0_pay10 x0) (k0_pay11 x0)) (k0_pay23 (k0_pay9 x0) (k0_pay12 x0)) (iota .tc S1x3136 32 [1] iota_S1x3136_d1_w32)
        (k0_pay29 (k0_pay15 (k0_pay8 x0) (k0_pay12 x0) (k0_pay14 x0)) (k0_pay22 (k0_pay10 x0) (k0_pay11 x0)) (iota .tc S1x3136 32 [1] iota_S1x3136_d1_w32)
          (k0_pay28 (k0_pay25 (k0_pay9 x0) (k0_pay11 x0)) (k0_pay26 (k0_pay13 x0)) k0_pay27)))) (ix2 p r)
      = Cert.Spec.oneHot 56 (Cert.Spec.lit 0x425C0000#32) (sOf 0x40800000#32 x0 p) (tOf 0x40800000#32 x0 p) r.val := by
  rw [a1_a3, a1_a2, a1_a1, a1_sel, a1_zero, a1_bw, a1_mask, a1_i22, a1_i12, a1_i21, a1_w22, a1_w12, a1_w21, a1_sfl, a1_w11, a1_cet, a1_flt, a1_ces, a1_fls, a1_t, a1_s,
    iota_row iota_S1x3136_d1_w32 0 r, sel_eq]
  rfl

/-- Columns 3..66: the blend at grid side 56, the one-hot rows times the flat table. -/
theorem a1_piece (x0 : Vec Ideal S1600x3 .f32) (x1 : Vec Ideal S3136x64 .f32) (x2 : Vec Ideal S784x128 .f32)
    (x3 : Vec Ideal S196x256 .f32) (x4 : Vec Ideal S49x512 .f32) (p : Fin 1600) (k : Fin 64) (j : S1600x963.Idx)
    (h0 : (j 0).val = p.val) (h1 : (j 1).val = 3 + k.val) :
    k0_pay32 x1 (k0_pay31 (k0_pay17 (k0_pay7 x0) (k0_pay8 x0) (k0_pay9 x0) (k0_pay11 x0)) (k0_pay24 (k0_pay10 x0) (k0_pay12 x0)) (iota .tc S1x3136 32 [1] iota_S1x3136_d1_w32)
      (k0_pay30 (k0_pay16 (k0_pay7 x0) (k0_pay8 x0) (k0_pay10 x0) (k0_pay11 x0)) (k0_pay23 (k0_pay9 x0) (k0_pay12 x0)) (iota .tc S1x3136 32 [1] iota_S1x3136_d1_w32)
        (k0_pay29 (k0_pay15 (k0_pay8 x0) (k0_pay12 x0) (k0_pay14 x0)) (k0_pay22 (k0_pay10 x0) (k0_pay11 x0)) (iota .tc S1x3136 32 [1] iota_S1x3136_d1_w32)
          (k0_pay28 (k0_pay25 (k0_pay9 x0) (k0_pay11 x0)) (k0_pay26 (k0_pay13 x0)) k0_pay27)))) (ix2 p k) = KB x0 x1 x2 x3 x4 j := by
  rw [KB_of_vals x0 x1 x2 x3 x4 j p (3 + k.val) h0 h1, a1_mm]
  unfold Cert.Spec.entryK
  have hk := k.isLt
  rw [if_neg (by omega), if_pos (by omega)]
  unfold Cert.Spec.projK
  refine Finset.sum_congr rfl fun r _ => ?_
  rw [a1_oh, show 3 + k.val - 3 = k.val by omega]
  show _ = _ * Cert.Spec.tab2 x1 r.val k.val
  rw [tab2_val x1 r k]
  rfl

/-! ## Grid side 28 (cell size 8): the columns, the stores into the scratch buffer, the product -/

theorem b2_s (x0 : Vec Ideal S1600x3 .f32) (p : Fin 1600) (z : Fin 1) : k0_pay33 (k0_pay5 x0) (ix2 p z) = sOf 0x41000000#32 x0 p := by
  unfold k0_pay33; simp only [divf_apply, broadcast_apply, c5]; rfl
theorem b2_t (x0 : Vec Ideal S1600x3 .f32) (p : Fin 1600) (z : Fin 1) : k0_pay34 (k0_pay6 x0) (ix2 p z) = tOf 0x41000000#32 x0 p := by
  unfold k0_pay34; simp only [divf_apply, broadcast_apply, c6]; rfl
theorem b2_fls (x0 : Vec Ideal S1600x3 .f32) (p : Fin 1600) (z : Fin 1) : k0_pay35 (k0_pay5 x0) (ix2 p z) = Cert.Spec.fl (sOf 0x41000000#32 x0 p) := by
  unfold k0_pay35; simp only [floor_apply, b2_s]
theorem b2_ces (x0 : Vec Ideal S1600x3 .f32) (p : Fin 1600) (z : Fin 1) : k0_pay36 (k0_pay5 x0) (ix2 p z) = Cert.Spec.ce (sOf 0x41000000#32 x0 p) := by
  unfold k0_pay36; simp only [ceil_apply, b2_s]
theorem b2_flt (x0 : Vec Ideal S1600x3 .f32) (p : Fin 1600) (z : Fin 1) : k0_pay37 (k0_pay6 x0) (ix2 p z) = Cert.Spec.fl (tOf 0x41000000#32 x0 p) := by
  unfold k0_pay37; simp only [floor_apply, b2_t]
theorem b2_cet (x0 : Vec Ideal S1600x3 .f32) (p : Fin 1600) (z : Fin 1) : k0_pay38 (k0_pay6 x0) (ix2 p z) = Cert.Spec.ce (tOf 0x41000000#32 x0 p) := by
  unfold k0_pay38; simp only [ceil_apply, b2_t]
theorem b2_w11 (x0 : Vec Ideal S1600x3 .f32) (p : Fin 1600) (z : Fin 1) : k0_pay39 (k0_pay5 x0) (k0_pay6 x0) (ix2 p z) = Cert.Spec.w11 (sOf 0x41000000#32 x0 p) (tOf 0x41000000#32 x0 p) := by
  unfold k0_pay39; simp only [mulf_apply, subf_apply, b2_s, b2_t, b2_ces, b2_cet]; rfl
theorem b2_w21 (x0 : Vec Ideal S1600x3 .f32) (p : Fin 1600) (z : Fin 1) : k0_pay40 (k0_pay5 x0) (k0_pay6 x0) (ix2 p z) = Cert.Spec.w21 (sOf 0x41000000#32 x0 p) (tOf 0x41000000#32 x0 p) := by
  unfold k0_pay40; simp only [mulf_apply, subf_apply, b2_s, b2_t, b2_fls, b2_cet]; rfl
theorem b2_w12 (x0 : Vec Ideal S1600x3 .f32) (p : Fin 1600) (z : Fin 1) : k0_pay41 (k0_pay5 x0) (k0_pay6 x0) (ix2 p z) = Cert.Spec.w12 (sOf 0x41000000#32 x0 p) (tOf 0x41000000#32 x0 p) := by
  unfold k0_pay41; simp only [mulf_apply, subf_apply, b2_s, b2_t, b2_ces, b2_flt]; rfl
theorem b2_w22 (x0 : Vec Ideal S1600x3 .f32) (p : Fin 1600) (z : Fin 1) : k0_pay42 (k0_pay5 x0) (k0_pay6 x0) (ix2 p z) = Cert.Spec.w22 (sOf 0x41000000#32 x0 p) (tOf 0x41000000#32 x0 p) := by
  unfold k0_pay42; simp only [mulf_apply, subf_apply, b2_s, b2_t, b2_fls, b2_flt]; rfl
theorem b2_kfs (x0 : Vec Ideal S1600x3 .f32) (p : Fin 1600) (z : Fin 1) : k0_pay43 (k0_pay5 x0) (ix2 p z) = Cert.Spec.kWord (Cert.Spec.lit 0x41D80000#32) (Cert.Spec.fl (sOf 0x41000000#32 x0 p)) := by
  unfold k0_pay43; simp only [fptosi_apply, minimumf_apply, maximumf_apply, broadcast_apply, b2_fls]; rfl
theorem b2_kcs (x0 : Vec Ideal S1600x3 .f32) (p : Fin 1600) (z : Fin 1) : k0_pay44 (k0_pay5 x0) (ix2 p z) = Cert.Spec.kWord (Cert.Spec.lit 0x41D80000#32) (Cert.Spec.ce (sOf 0x41000000#32 x0 p)) := by
  unfold k0_pay44; simp only [fptosi_apply, minimumf_apply, maximumf_apply, broadcast_apply, b2_ces]; rfl
theorem b2_kft (x0 : Vec Ideal S1600x3 .f32) (p : Fin 1600) (z : Fin 1) : k0_pay45 (k0_pay6 x0) (ix2 p z) = Cert.Spec.kWord (Cert.Spec.lit 0x41D80000#32) (Cert.Spec.fl (tOf 0x41000000#32 x0 p)) := by
  unfold k0_pay45; simp only [fptosi_apply, minimumf_apply, maximumf_apply, broadcast_apply, b2_flt]; rfl
theorem b2_kct (x0 : Vec Ideal S1600x3 .f32) (p : Fin 1600) (z : Fin 1) : k0_pay46 (k0_pay38 (k0_pay6 x0)) (FloatOps.ofBits .f32 0x00000000#32 : Ideal .f32) (ix2 p z) = Cert.Spec.kWord (Cert.Spec.lit 0x41D80000#32) (Cert.Spec.ce (tOf 0x41000000#32 x0 p)) := by
  unfold k0_pay46; simp only [fptosi_apply, minimumf_apply, maximumf_apply, broadcast_apply, b2_cet]; rfl

theorem b2_i22 (v : FVec Ideal S1600x1 .f32) (i1 : IVec S1600x1 32) (cst : Ideal .f32) (j : S1600x1.Idx) :
    k0_pay47 v i1 cst j = i1 j * 28#32 + k0_pay46 v cst j := rfl

theorem b2_st1 (w : FVec Ideal S1600x1 .f32) (i1 i2 : IVec S1600x1 32) (p : Fin 1600) (r : Fin 784) :
    k0_pay48 w i1 i2 (ix2 p r)
      = if BitVec.ofNat 32 r.val = i1 (ix2 p (0 : Fin 1)) * 28#32 + i2 (ix2 p (0 : Fin 1)) then w (ix2 p (0 : Fin 1))
        else Cert.Spec.lit 0x00000000#32 := by
  unfold k0_pay48
  simp only [shapeCast_self]
  show Scalar.select (IntOp.cmpi .eq (broadcastTo S1600x784 (iota .tc S1x784 32 [1] iota_S1x784_d1_w32) broadcasts_S1x784_S1600x784 (ix2 p r))
      (broadcastTo S1600x784 (addi (muli i1 (broadcast S1600x1 28#32)) i2) broadcasts_S1600x1_S1600x784 (ix2 p r))) (broadcastTo S1600x784 w broadcasts_S1600x1_S1600x784 (ix2 p r)) _ = _
  rw [broadcastTo_1b_ab_apply _ broadcasts_S1x784_S1600x784 p r, bcast_col (addi (muli i1 (broadcast S1600x1 28#32)) i2) broadcasts_S1600x1_S1600x784 p r,
    bcast_col w broadcasts_S1600x1_S1600x784 p r, iota_row iota_S1x784_d1_w32 0 r, sel_eq]
  rfl

theorem b2_st2 (w : FVec Ideal S1600x1 .f32) (i1 i2 : IVec S1600x1 32) (prev : Vec Ideal S1600x784 .f32)
    (p : Fin 1600) (r : Fin 784) :
    k0_pay49 w i1 i2 prev (ix2 p r) = prev (ix2 p r)
      + (if BitVec.ofNat 32 r.val = i1 (ix2 p (0 : Fin 1)) * 28#32 + i2 (ix2 p (0 : Fin 1)) then w (ix2 p (0 : Fin 1))
        else Cert.Spec.lit 0x00000000#32) := by
  unfold k0_pay49
  simp only [shapeCast_self]
  show prev (ix2 p r) + Scalar.select (IntOp.cmpi .eq (broadcastTo S1600x784 (iota .tc S1x784 32 [1] iota_S1x784_d1_w32) broadcasts_S1x784_S1600x784 (ix2 p r))
      (broadcastTo S1600x784 (addi (muli i1 (broadcast S1600x1 28#32)) i2) broadcasts_S1600x1_S1600x784 (ix2 p r))) (broadcastTo S1600x784 w broadcasts_S1600x1_S1600x784 (ix2 p r)) _ = _
  rw [broadcastTo_1b_ab_apply _ broadcasts_S1x784_S1600x784 p r, bcast_col (addi (muli i1 (broadcast S1600x1 28#32)) i2) broadcasts_S1600x1_S1600x784 p r,
    bcast_col w broadcasts_S1600x1_S1600x784 p r, iota_row iota_S1x784_d1_w32 0 r, sel_eq]
  rfl

theorem b2_iob (p : Fin 1600) (r : Fin 784) : k0_pay50 (ix2 p r) = BitVec.ofNat 32 r.val := by
  unfold k0_pay50
  show broadcastTo S1600x784 (iota .tc S1x784 32 [1] iota_S1x784_d1_w32) broadcasts_S1x784_S1600x784 (ix2 p r) = _
  rw [broadcastTo_1b_ab_apply _ broadcasts_S1x784_S1600x784 p r, iota_row iota_S1x784_d1_w32 0 r]

theorem b2_i12b (v : FVec Ideal S1600x1 .f32) (i1 : IVec S1600x1 32) (cst : Ideal .f32) (p : Fin 1600) (r : Fin 784) :
    k0_pay51 v i1 cst (ix2 p r) = i1 (ix2 p (0 : Fin 1)) * 28#32 + k0_pay46 v cst (ix2 p (0 : Fin 1)) := by
  unfold k0_pay51
  show broadcastTo S1600x784 (addi (muli i1 (broadcast S1600x1 28#32)) (k0_pay46 v cst)) broadcasts_S1600x1_S1600x784 (ix2 p r) = _
  rw [bcast_col _ broadcasts_S1600x1_S1600x784 p r]
  rfl

theorem b2_st3 (w : FVec Ideal S1600x1 .f32) (prev : Vec Ideal S1600x784 .f32) (ia ib : IVec S1600x784 32)
    (p : Fin 1600) (r : Fin 784) :
    k0_pay52 w prev ia ib (ix2 p r) = prev (ix2 p r)
      + (if ia (ix2 p r) = ib (ix2 p r) then w (ix2 p (0 : Fin 1)) else Cert.Spec.lit 0x00000000#32) := by
  unfold k0_pay52
  simp only [shapeCast_self]
  show prev (ix2 p r) + Scalar.select (IntOp.cmpi .eq (ia (ix2 p r)) (ib (ix2 p r))) (broadcastTo S1600x784 w broadcasts_S1600x1_S1600x784 (ix2 p r)) _ = _
  rw [bcast_col w broadcasts_S1600x1_S1600x784 p r, sel_eq]
  rfl

theorem b2_st4 (w : FVec Ideal S1600x1 .f32) (idx : IVec S1600x1 32) (io : IVec S1x784 32) (prev : Vec Ideal S1600x784 .f32)
    (p : Fin 1600) (r : Fin 784) :
    k0_pay53 w idx io prev (ix2 p r) = prev (ix2 p r)
      + (if io (ix2 (0 : Fin 1) r) = idx (ix2 p (0 : Fin 1)) then w (ix2 p (0 : Fin 1)) else Cert.Spec.lit 0x00000000#32) := by
  unfold k0_pay53
  simp only [shapeCast_self]
  show prev (ix2 p r) + Scalar.select (IntOp.cmpi .eq (broadcastTo S1600x784 io broadcasts_S1x784_S1600x784 (ix2 p r))
      (broadcastTo S1600x784 idx broadcasts_S1600x1_S1600x784 (ix2 p r))) (broadcastTo S1600x784 w broadcasts_S1600x1_S1600x784 (ix2 p r)) _ = _
  rw [broadcastTo_1b_ab_apply io broadcasts_S1x784_S1600x784 p r, bcast_col idx broadcasts_S1600x1_S1600x784 p r, bcast_col w broadcasts_S1600x1_S1600x784 p r, sel_eq]
  rfl

/-- The product of a [1600, 784] array and a [784, 128] table into the zero accumulator, at (p, k): the sum over the
    contracted coordinate. -/
theorem b2_mm (T : Vec Ideal S784x128 .f32) (OH : Vec Ideal S1600x784 .f32) (p : Fin 1600) (k : Fin 128) :
    k0_pay54 T OH (ix2 p k) = ∑ r : Fin 784, OH (ix2 p r) * T (ix2 r k) := by
  unfold k0_pay54
  simp only [shapeCast_self]
  show FloatOps.matmul dot_S1600x784_S784x128_S1600x128_1_0_0_1_n_n none _ _ (constant S1600x128 .f32 0x00000000#32) (ix2 p k) = _
  rw [Ideal.matmul_constant_zero_apply, ← Equiv.sum_comp (contrEquiv1 dot_S1600x784_S784x128_S1600x128_1_0_0_1_n_n 784 rfl rfl).symm]
  refine Finset.sum_congr rfl fun r _ => ?_
  have c2 := contrEquiv1_symm_val dot_S1600x784_S784x128_S1600x128_1_0_0_1_n_n 784 rfl rfl r
  have l2 : dot_S1600x784_S784x128_S1600x128_1_0_0_1_n_n.lhsIdx (ix2 p k) ((contrEquiv1 _ 784 rfl rfl).symm r) = ix2 p r := by
    funext ax; apply Fin.ext
    match ax with
    | ⟨0, _⟩ => simp [DotDims.lhsIdx, dot_S1600x784_S784x128_S1600x128_1_0_0_1_n_n]; rfl
    | ⟨1, _⟩ => simp [DotDims.lhsIdx, dot_S1600x784_S784x128_S1600x128_1_0_0_1_n_n]; exact c2
  have r2 : dot_S1600x784_S784x128_S1600x128_1_0_0_1_n_n.rhsIdx (ix2 p k) ((contrEquiv1 _ 784 rfl rfl).symm r) = ix2 r k := by
    funext ax; apply Fin.ext
    match ax with
    | ⟨0, _⟩ => simp [DotDims.rhsIdx, dot_S1600x784_S784x128_S1600x128_1_0_0_1_n_n]; exact c2
    | ⟨1, _⟩ => simp [DotDims.rhsIdx, dot_S1600x784_S784x128_S1600x128_1_0_0_1_n_n]; rfl
  rw [l2, r2]
  rfl

/-- What the scratch buffer of grid side 28 holds when the product reads it: each point's weighted one-hot row. -/
theorem b2_oh (x0 : Vec Ideal S1600x3 .f32) (p : Fin 1600) (r : Fin 784) :
    (k0_pay53 (k0_pay42 (k0_pay5 x0) (k0_pay6 x0)) (k0_pay47 (k0_pay38 (k0_pay6 x0)) (k0_pay44 (k0_pay5 x0)) (FloatOps.ofBits .f32 0x00000000#32 : Ideal .f32)) (iota .tc S1x784 32 [1] iota_S1x784_d1_w32)
      (k0_pay52 (k0_pay41 (k0_pay5 x0) (k0_pay6 x0))
        (k0_pay49 (k0_pay40 (k0_pay5 x0) (k0_pay6 x0)) (k0_pay44 (k0_pay5 x0)) (k0_pay45 (k0_pay6 x0)) (k0_pay48 (k0_pay39 (k0_pay5 x0) (k0_pay6 x0)) (k0_pay43 (k0_pay5 x0)) (k0_pay45 (k0_pay6 x0))))
        k0_pay50 (k0_pay51 (k0_pay38 (k0_pay6 x0)) (k0_pay43 (k0_pay5 x0)) (FloatOps.ofBits .f32 0x00000000#32 : Ideal .f32)))) (ix2 p r)
      = Cert.Spec.oneHot 28 (Cert.Spec.lit 0x41D80000#32) (sOf 0x41000000#32 x0 p) (tOf 0x41000000#32 x0 p) r.val := by
  rw [b2_st4, b2_st3, b2_st2, b2_st1, b2_iob, b2_i12b, b2_i22, b2_kct, b2_kft, b2_kcs, b2_kfs, b2_w22, b2_w12, b2_w21, b2_w11,
    iota_row iota_S1x784_d1_w32 0 r]
  rfl

/-- Columns 67..194: the blend at grid side 28, the one-hot rows times the flat table. -/
theorem b2_piece (x0 : Vec Ideal S1600x3 .f32) (x1 : Vec Ideal S3136x64 .f32) (x2 : Vec Ideal S784x128 .f32)
    (x3 : Vec Ideal S196x256 .f32) (x4 : Vec Ideal S49x512 .f32) (p : Fin 1600) (k : Fin 128) (j : S1600x963.Idx)
    (h0 : (j 0).val = p.val) (h1 : (j 1).val = 67 + k.val) :
    k0_pay54 x2 (k0_pay53 (k0_pay42 (k0_pay5 x0) (k0_pay6 x0)) (k0_pay47 (k0_pay38 (k0_pay6 x0)) (k0_pay44 (k0_pay5 x0)) (FloatOps.ofBits .f32 0x00000000#32 : Ideal .f32)) (iota .tc S1x784 32 [1] iota_S1x784_d1_w32)
      (k0_pay52 (k0_pay41 (k0_pay5 x0) (k0_pay6 x0))
        (k0_pay49 (k0_pay40 (k0_pay5 x0) (k0_pay6 x0)) (k0_pay44 (k0_pay5 x0)) (k0_pay45 (k0_pay6 x0)) (k0_pay48 (k0_pay39 (k0_pay5 x0) (k0_pay6 x0)) (k0_pay43 (k0_pay5 x0)) (k0_pay45 (k0_pay6 x0))))
        k0_pay50 (k0_pay51 (k0_pay38 (k0_pay6 x0)) (k0_pay43 (k0_pay5 x0)) (FloatOps.ofBits .f32 0x00000000#32 : Ideal .f32)))) (ix2 p k) = KB x0 x1 x2 x3 x4 j := by
  rw [KB_of_vals x0 x1 x2 x3 x4 j p (67 + k.val) h0 h1, b2_mm]
  unfold Cert.Spec.entryK
  have hk := k.isLt
  rw [if_neg (by omega), if_neg (by omega), if_pos (by omega)]
  unfold Cert.Spec.projK
  refine Finset.sum_congr rfl fun r _ => ?_
  rw [b2_oh, show 67 + k.val - 67 = k.val by omega]
  show _ = _ * Cert.Spec.tab2 x2 r.val k.val
  rw [tab2_val x2 r k]
  rfl

/-! ## Grid side 14 (cell size 16): the columns, the stores into the scratch buffer, the product -/

theorem a3_s (x0 : Vec Ideal S1600x3 .f32) (p : Fin 1600) (z : Fin 1) : k0_pay55 (k0_pay5 x0) (ix2 p z) = sOf 0x41800000#32 x0 p := by
  unfold k0_pay55; simp only [divf_apply, broadcast_apply, c5]; rfl
theorem a3_t (x0 : Vec Ideal S1600x3 .f32) (p : Fin 1600) (z : Fin 1) : k0_pay56 (k0_pay6 x0) (ix2 p z) = tOf 0x41800000#32 x0 p := by
  unfold k0_pay56; simp only [divf_apply, broadcast_apply, c6]; rfl
theorem a3_fls (x0 : Vec Ideal S1600x3 .f32) (p : Fin 1600) (z : Fin 1) : k0_pay57 (k0_pay5 x0) (ix2 p z) = Cert.Spec.fl (sOf 0x41800000#32 x0 p) := by
  unfold k0_pay57; simp only [floor_apply, a3_s]
theorem a3_ces (x0 : Vec Ideal S1600x3 .f32) (p : Fin 1600) (z : Fin 1) : k0_pay58 (k0_pay5 x0) (ix2 p z) = Cert.Spec.ce (sOf 0x41800000#32 x0 p) := by
  unfold k0_pay58; simp only [ceil_apply, a3_s]
theorem a3_flt (x0 : Vec Ideal S1600x3 .f32) (p : Fin 1600) (z : Fin 1) : k0_pay59 (k0_pay6 x0) (ix2 p z) = Cert.Spec.fl (tOf 0x41800000#32 x0 p) := by
  unfold k0_pay59; simp only [floor_apply, a3_t]
theorem a3_cet (x0 : Vec Ideal S1600x3 .f32) (p : Fin 1600) (z : Fin 1) : k0_pay60 (k0_pay6 x0) (ix2 p z) = Cert.Spec.ce (tOf 0x41800000#32 x0 p) := by
  unfold k0_pay60; simp only [ceil_apply, a3_t]
theorem a3_w11 (x0 : Vec Ideal S1600x3 .f32) (p : Fin 1600) (z : Fin 1) : k0_pay61 (k0_pay5 x0) (k0_pay6 x0) (ix2 p z) = Cert.Spec.w11 (sOf 0x41800000#32 x0 p) (tOf 0x41800000#32 x0 p) := by
  unfold k0_pay61; simp only [mulf_apply, subf_apply, a3_s, a3_t, a3_ces, a3_cet]; rfl
theorem a3_sfl (x0 : Vec Ideal S1600x3 .f32) (p : Fin 1600) (z : Fin 1) : k0_pay62 (k0_pay5 x0) (ix2 p z) = (sOf 0x41800000#32 x0 p) - Cert.Spec.fl (sOf 0x41800000#32 x0 p) := by
  unfold k0_pay62; simp only [subf_apply, a3_s, a3_fls]

theorem a3_w21 (vt vcet vsfl : FVec Ideal S1600x1 .f32) (j : S1600x1.Idx) :
    k0_pay63 vt vcet vsfl j = vsfl j * (vcet j - vt j) := rfl
theorem a3_w12 (vs vt vces vflt : FVec Ideal S1600x1 .f32) (j : S1600x1.Idx) :
    k0_pay64 vs vt vces vflt j = (vces j - vs j) * (vt j - vflt j) := rfl
theorem a3_w22 (vs vt vfls vflt : FVec Ideal S1600x1 .f32) (j : S1600x1.Idx) :
    k0_pay65 vs vt vfls vflt j = (vs j - vfls j) * (vt j - vflt j) := rfl
theorem a3_i21 (vx vy : FVec Ideal S1600x1 .f32) (j : S1600x1.Idx) :
    k0_pay70 vx vy j = Cert.Spec.kRow 14 (Cert.Spec.lit 0x41500000#32) (vx j) (vy j) := rfl
theorem a3_i12 (vx vy : FVec Ideal S1600x1 .f32) (j : S1600x1.Idx) :
    k0_pay71 vx vy j = Cert.Spec.kRow 14 (Cert.Spec.lit 0x41500000#32) (vx j) (vy j) := rfl
theorem a3_i22 (vx vy : FVec Ideal S1600x1 .f32) (j : S1600x1.Idx) :
    k0_pay72 vx vy j = Cert.Spec.kRow 14 (Cert.Spec.lit 0x41500000#32) (vx j) (vy j) := rfl

theorem a3_mask (vx vy : FVec Ideal S1600x1 .f32) (p : Fin 1600) (r : Fin 196) :
    k0_pay73 vx vy (ix2 p r) = IntOp.cmpi .eq (BitVec.ofNat 32 r.val)
      (Cert.Spec.kRow 14 (Cert.Spec.lit 0x41500000#32) (vx (ix2 p (0 : Fin 1))) (vy (ix2 p (0 : Fin 1)))) := by
  unfold k0_pay73
  show IntOp.cmpi .eq (broadcastTo S1600x196 (iota .tc S1x196 32 [1] iota_S1x196_d1_w32) broadcasts_S1x196_S1600x196 (ix2 p r)) (broadcastTo S1600x196 _ broadcasts_S1600x1_S1600x196 (ix2 p r)) = _
  rw [broadcastTo_1b_ab_apply _ broadcasts_S1x196_S1600x196 p r, bcast_col _ broadcasts_S1600x1_S1600x196 p r, iota_row iota_S1x196_d1_w32 0 r]
  rfl
theorem a3_bw (w : FVec Ideal S1600x1 .f32) (p : Fin 1600) (r : Fin 196) :
    k0_pay74 w (ix2 p r) = w (ix2 p (0 : Fin 1)) := by
  unfold k0_pay74
  simp only [shapeCast_self]
  exact bcast_col w broadcasts_S1600x1_S1600x196 p r
theorem a3_zero (j : S1600x196.Idx) : k0_pay75 (F := Ideal) j = Cert.Spec.lit 0x00000000#32 := rfl
theorem a3_sel (m : IVec S1600x196 1) (u v : FVec Ideal S1600x196 .f32) (j : S1600x196.Idx) :
    k0_pay76 m u v j = Scalar.select (m j) (u j) (v j) := by
  unfold k0_pay76
  simp only [shapeCast_self]
  rfl

theorem a3_a1 (w : FVec Ideal S1600x1 .f32) (idx : IVec S1600x1 32) (io : IVec S1x196 32) (prev : Vec Ideal S1600x196 .f32)
    (p : Fin 1600) (r : Fin 196) :
    k0_pay77 w idx io prev (ix2 p r) = prev (ix2 p r)
      + (if io (ix2 (0 : Fin 1) r) = idx (ix2 p (0 : Fin 1)) then w (ix2 p (0 : Fin 1)) else Cert.Spec.lit 0x00000000#32) := by
  unfold k0_pay77
  simp only [shapeCast_self]
  show prev (ix2 p r) + Scalar.select (IntOp.cmpi .eq (broadcastTo S1600x196 io broadcasts_S1x196_S1600x196 (ix2 p r))
      (broadcastTo S1600x196 idx broadcasts_S1600x1_S1600x196 (ix2 p r))) (broadcastTo S1600x196 w broadcasts_S1600x1_S1600x196 (ix2 p r)) _ = _
  rw [broadcastTo_1b_ab_apply io broadcasts_S1x196_S1600x196 p r, bcast_col idx broadcasts_S1600x1_S1600x196 p r, bcast_col w broadcasts_S1600x1_S1600x196 p r, sel_eq]
  rfl

theorem a3_a2 (w : FVec Ideal S1600x1 .f32) (idx : IVec S1600x1 32) (io : IVec S1x196 32) (prev : Vec Ideal S1600x196 .f32)
    (p : Fin 1600) (r : Fin 196) :
    k0_pay78 w idx io prev (ix2 p r) = prev (ix2 p r)
      + (if io (ix2 (0 : Fin 1) r) = idx (ix2 p (0 : Fin 1)) then w (ix2 p (0 : Fin 1)) else Cert.Spec.lit 0x00000000#32) := by
  unfold k0_pay78
  simp only [shapeCast_self]
  show prev (ix2 p r) + Scalar.select (IntOp.cmpi .eq (broadcastTo S1600x196 io broadcasts_S1x196_S1600x196 (ix2 p r))
      (broadcastTo S1600x196 idx broadcasts_S1600x1_S1600x196 (ix2 p r))) (broadcastTo S1600x196 w broadcasts_S1600x1_S1600x196 (ix2 p r)) _ = _
  rw [broadcastTo_1b_ab_apply io broadcasts_S1x196_S1600x196 p r, bcast_col idx broadcasts_S1600x1_S1600x196 p r, bcast_col w broadcasts_S1600x1_S1600x196 p r, sel_eq]
  rfl

theorem a3_a3 (w : FVec Ideal S1600x1 .f32) (idx : IVec S1600x1 32) (io : IVec S1x196 32) (prev : Vec Ideal S1600x196 .f32)
    (p : Fin 1600) (r : Fin 196) :
    k0_pay79 w idx io prev (ix2 p r) = prev (ix2 p r)
      + (if io (ix2 (0 : Fin 1) r) = idx (ix2 p (0 : Fin 1)) then w (ix2 p (0 : Fin 1)) else Cert.Spec.lit 0x00000000#32) := by
  unfold k0_pay79
  simp only [shapeCast_self]
  show prev (ix2 p r) + Scalar.select (IntOp.cmpi .eq (broadcastTo S1600x196 io broadcasts_S1x196_S1600x196 (ix2 p r))
      (broadcastTo S1600x196 idx broadcasts_S1600x1_S1600x196 (ix2 p r))) (broadcastTo S1600x196 w broadcasts_S1600x1_S1600x196 (ix2 p r)) _ = _
  rw [broadcastTo_1b_ab_apply io broadcasts_S1x196_S1600x196 p r, bcast_col idx broadcasts_S1600x1_S1600x196 p r, bcast_col w broadcasts_S1600x1_S1600x196 p r, sel_eq]
  rfl

/-- The product of a [1600, 196] array and a [196, 256] table into the zero accumulator, at (p, k): the sum over the
    contracted coordinate. -/
theorem a3_mm (T : Vec Ideal S196x256 .f32) (OH : Vec Ideal S1600x196 .f32) (p : Fin 1600) (k : Fin 256) :
    k0_pay80 T OH (ix2 p k) = ∑ r : Fin 196, OH (ix2 p r) * T (ix2 r k) := by
  unfold k0_pay80
  simp only [shapeCast_self]
  show FloatOps.matmul dot_S1600x196_S196x256_S1600x256_1_0_0_1_n_n none _ _ (constant S1600x256 .f32 0x00000000#32) (ix2 p k) = _
  rw [Ideal.matmul_constant_zero_apply, ← Equiv.sum_comp (contrEquiv1 dot_S1600x196_S196x256_S1600x256_1_0_0_1_n_n 196 rfl rfl).symm]
  refine Finset.sum_congr rfl fun r _ => ?_
  have c2 := contrEquiv1_symm_val dot_S1600x196_S196x256_S1600x256_1_0_0_1_n_n 196 rfl rfl r
  have l2 : dot_S1600x196_S196x256_S1600x256_1_0_0_1_n_n.lhsIdx (ix2 p k) ((contrEquiv1 _ 196 rfl rfl).symm r) = ix2 p r := by
    funext ax; apply Fin.ext
    match ax with
    | ⟨0, _⟩ => simp [DotDims.lhsIdx, dot_S1600x196_S196x256_S1600x256_1_0_0_1_n_n]; rfl
    | ⟨1, _⟩ => simp [DotDims.lhsIdx, dot_S1600x196_S196x256_S1600x256_1_0_0_1_n_n]; exact c2
  have r2 : dot_S1600x196_S196x256_S1600x256_1_0_0_1_n_n.rhsIdx (ix2 p k) ((contrEquiv1 _ 196 rfl rfl).symm r) = ix2 r k := by
    funext ax; apply Fin.ext
    match ax with
    | ⟨0, _⟩ => simp [DotDims.rhsIdx, dot_S1600x196_S196x256_S1600x256_1_0_0_1_n_n]; exact c2
    | ⟨1, _⟩ => simp [DotDims.rhsIdx, dot_S1600x196_S196x256_S1600x256_1_0_0_1_n_n]; rfl
  rw [l2, r2]
  rfl

/-- What the scratch buffer of grid side 14 holds when the product reads it: each point's weighted one-hot row. -/
theorem a3_oh (x0 : Vec Ideal S1600x3 .f32) (p : Fin 1600) (r : Fin 196) :
    (k0_pay79 (k0_pay65 (k0_pay55 (k0_pay5 x0)) (k0_pay56 (k0_pay6 x0)) (k0_pay57 (k0_pay5 x0)) (k0_pay59 (k0_pay6 x0))) (k0_pay72 (k0_pay58 (k0_pay5 x0)) (k0_pay60 (k0_pay6 x0))) (iota .tc S1x196 32 [1] iota_S1x196_d1_w32)
      (k0_pay78 (k0_pay64 (k0_pay55 (k0_pay5 x0)) (k0_pay56 (k0_pay6 x0)) (k0_pay58 (k0_pay5 x0)) (k0_pay59 (k0_pay6 x0))) (k0_pay71 (k0_pay57 (k0_pay5 x0)) (k0_pay60 (k0_pay6 x0))) (iota .tc S1x196 32 [1] iota_S1x196_d1_w32)
        (k0_pay77 (k0_pay63 (k0_pay56 (k0_pay6 x0)) (k0_pay60 (k0_pay6 x0)) (k0_pay62 (k0_pay5 x0))) (k0_pay70 (k0_pay58 (k0_pay5 x0)) (k0_pay59 (k0_pay6 x0))) (iota .tc S1x196 32 [1] iota_S1x196_d1_w32)
          (k0_pay76 (k0_pay73 (k0_pay57 (k0_pay5 x0)) (k0_pay59 (k0_pay6 x0))) (k0_pay74 (k0_pay61 (k0_pay5 x0) (k0_pay6 x0))) k0_pay75)))) (ix2 p r)
      = Cert.Spec.oneHot 14 (Cert.Spec.lit 0x41500000#32) (sOf 0x41800000#32 x0 p) (tOf 0x41800000#32 x0 p) r.val := by
  rw [a3_a3, a3_a2, a3_a1, a3_sel, a3_zero, a3_bw, a3_mask, a3_i22, a3_i12, a3_i21, a3_w22, a3_w12, a3_w21, a3_sfl, a3_w11, a3_cet, a3_flt, a3_ces, a3_fls, a3_t, a3_s,
    iota_row iota_S1x196_d1_w32 0 r, sel_eq]
  rfl

/-- Columns 195..450: the blend at grid side 14, the one-hot rows times the flat table. -/
theorem a3_piece (x0 : Vec Ideal S1600x3 .f32) (x1 : Vec Ideal S3136x64 .f32) (x2 : Vec Ideal S784x128 .f32)
    (x3 : Vec Ideal S196x256 .f32) (x4 : Vec Ideal S49x512 .f32) (p : Fin 1600) (k : Fin 256) (j : S1600x963.Idx)
    (h0 : (j 0).val = p.val) (h1 : (j 1).val = 195 + k.val) :
    k0_pay80 x3 (k0_pay79 (k0_pay65 (k0_pay55 (k0_pay5 x0)) (k0_pay56 (k0_pay6 x0)) (k0_pay57 (k0_pay5 x0)) (k0_pay59 (k0_pay6 x0))) (k0_pay72 (k0_pay58 (k0_pay5 x0)) (k0_pay60 (k0_pay6 x0))) (iota .tc S1x196 32 [1] iota_S1x196_d1_w32)
      (k0_pay78 (k0_pay64 (k0_pay55 (k0_pay5 x0)) (k0_pay56 (k0_pay6 x0)) (k0_pay58 (k0_pay5 x0)) (k0_pay59 (k0_pay6 x0))) (k0_pay71 (k0_pay57 (k0_pay5 x0)) (k0_pay60 (k0_pay6 x0))) (iota .tc S1x196 32 [1] iota_S1x196_d1_w32)
        (k0_pay77 (k0_pay63 (k0_pay56 (k0_pay6 x0)) (k0_pay60 (k0_pay6 x0)) (k0_pay62 (k0_pay5 x0))) (k0_pay70 (k0_pay58 (k0_pay5 x0)) (k0_pay59 (k0_pay6 x0))) (iota .tc S1x196 32 [1] iota_S1x196_d1_w32)
          (k0_pay76 (k0_pay73 (k0_pay57 (k0_pay5 x0)) (k0_pay59 (k0_pay6 x0))) (k0_pay74 (k0_pay61 (k0_pay5 x0) (k0_pay6 x0))) k0_pay75)))) (ix2 p k) = KB x0 x1 x2 x3 x4 j := by
  rw [KB_of_vals x0 x1 x2 x3 x4 j p (195 + k.val) h0 h1, a3_mm]
  unfold Cert.Spec.entryK
  have hk := k.isLt
  rw [if_neg (by omega), if_neg (by omega), if_neg (by omega), if_pos (by omega)]
  unfold Cert.Spec.projK
  refine Finset.sum_congr rfl fun r _ => ?_
  rw [a3_oh, show 195 + k.val - 195 = k.val by omega]
  show _ = _ * Cert.Spec.tab2 x3 r.val k.val
  rw [tab2_val x3 r k]
  rfl

/-! ## Grid side 7 (cell size 32): the columns, the stores into the scratch buffer, the product -/

theorem b4_s (x0 : Vec Ideal S1600x3 .f32) (p : Fin 1600) (z : Fin 1) : k0_pay81 (k0_pay5 x0) (ix2 p z) = sOf 0x42000000#32 x0 p := by
  unfold k0_pay81; simp only [divf_apply, broadcast_apply, c5]; rfl
theorem b4_t (x0 : Vec Ideal S1600x3 .f32) (p : Fin 1600) (z : Fin 1) : k0_pay82 (k0_pay6 x0) (ix2 p z) = tOf 0x42000000#32 x0 p := by
  unfold k0_pay82; simp only [divf_apply, broadcast_apply, c6]; rfl
theorem b4_fls (x0 : Vec Ideal S1600x3 .f32) (p : Fin 1600) (z : Fin 1) : k0_pay83 (k0_pay5 x0) (ix2 p z) = Cert.Spec.fl (sOf 0x42000000#32 x0 p) := by
  unfold k0_pay83; simp only [floor_apply, b4_s]
theorem b4_ces (x0 : Vec Ideal S1600x3 .f32) (p : Fin 1600) (z : Fin 1) : k0_pay84 (k0_pay5 x0) (ix2 p z) = Cert.Spec.ce (sOf 0x42000000#32 x0 p) := by
  unfold k0_pay84; simp only [ceil_apply, b4_s]
theorem b4_flt (x0 : Vec Ideal S1600x3 .f32) (p : Fin 1600) (z : Fin 1) : k0_pay85 (k0_pay6 x0) (ix2 p z) = Cert.Spec.fl (tOf 0x42000000#32 x0 p) := by
  unfold k0_pay85; simp only [floor_apply, b4_t]
theorem b4_cet (x0 : Vec Ideal S1600x3 .f32) (p : Fin 1600) (z : Fin 1) : k0_pay86 (k0_pay6 x0) (ix2 p z) = Cert.Spec.ce (tOf 0x42000000#32 x0 p) := by
  unfold k0_pay86; simp only [ceil_apply, b4_t]
theorem b4_w11 (x0 : Vec Ideal S1600x3 .f32) (p : Fin 1600) (z : Fin 1) : k0_pay87 (k0_pay5 x0) (k0_pay6 x0) (ix2 p z) = Cert.Spec.w11 (sOf 0x42000000#32 x0 p) (tOf 0x42000000#32 x0 p) := by
  unfold k0_pay87; simp only [mulf_apply, subf_apply, b4_s, b4_t, b4_ces, b4_cet]; rfl
theorem b4_w21 (x0 : Vec Ideal S1600x3 .f32) (p : Fin 1600) (z : Fin 1) : k0_pay88 (k0_pay5 x0) (k0_pay6 x0) (ix2 p z) = Cert.Spec.w21 (sOf 0x42000000#32 x0 p) (tOf 0x42000000#32 x0 p) := by
  unfold k0_pay88; simp only [mulf_apply, subf_apply, b4_s, b4_t, b4_fls, b4_cet]; rfl
theorem b4_w12 (x0 : Vec Ideal S1600x3 .f32) (p : Fin 1600) (z : Fin 1) : k0_pay89 (k0_pay5 x0) (k0_pay6 x0) (ix2 p z) = Cert.Spec.w12 (sOf 0x42000000#32 x0 p) (tOf 0x42000000#32 x0 p) := by
  unfold k0_pay89; simp only [mulf_apply, subf_apply, b4_s, b4_t, b4_ces, b4_flt]; rfl
theorem b4_w22 (x0 : Vec Ideal S1600x3 .f32) (p : Fin 1600) (z : Fin 1) : k0_pay90 (k0_pay5 x0) (k0_pay6 x0) (ix2 p z) = Cert.Spec.w22 (sOf 0x42000000#32 x0 p) (tOf 0x42000000#32 x0 p) := by
  unfold k0_pay90; simp only [mulf_apply, subf_apply, b4_s, b4_t, b4_fls, b4_flt]; rfl
theorem b4_kfs (x0 : Vec Ideal S1600x3 .f32) (p : Fin 1600) (z : Fin 1) : k0_pay91 (k0_pay5 x0) (ix2 p z) = Cert.Spec.kWord (Cert.Spec.lit 0x40C00000#32) (Cert.Spec.fl (sOf 0x42000000#32 x0 p)) := by
  unfold k0_pay91; simp only [fptosi_apply, minimumf_apply, maximumf_apply, broadcast_apply, b4_fls]; rfl
theorem b4_kcs (x0 : Vec Ideal S1600x3 .f32) (p : Fin 1600) (z : Fin 1) : k0_pay92 (k0_pay5 x0) (ix2 p z) = Cert.Spec.kWord (Cert.Spec.lit 0x40C00000#32) (Cert.Spec.ce (sOf 0x42000000#32 x0 p)) := by
  unfold k0_pay92; simp only [fptosi_apply, minimumf_apply, maximumf_apply, broadcast_apply, b4_ces]; rfl
theorem b4_kft (x0 : Vec Ideal S1600x3 .f32) (p : Fin 1600) (z : Fin 1) : k0_pay93 (k0_pay6 x0) (ix2 p z) = Cert.Spec.kWord (Cert.Spec.lit 0x40C00000#32) (Cert.Spec.fl (tOf 0x42000000#32 x0 p)) := by
  unfold k0_pay93; simp only [fptosi_apply, minimumf_apply, maximumf_apply, broadcast_apply, b4_flt]; rfl
theorem b4_kct (x0 : Vec Ideal S1600x3 .f32) (p : Fin 1600) (z : Fin 1) : k0_pay94 (k0_pay86 (k0_pay6 x0)) (FloatOps.ofBits .f32 0x00000000#32 : Ideal .f32) (ix2 p z) = Cert.Spec.kWord (Cert.Spec.lit 0x40C00000#32) (Cert.Spec.ce (tOf 0x42000000#32 x0 p)) := by
  unfold k0_pay94; simp only [fptosi_apply, minimumf_apply, maximumf_apply, broadcast_apply, b4_cet]; rfl

theorem b4_i22 (v : FVec Ideal S1600x1 .f32) (i1 : IVec S1600x1 32) (cst : Ideal .f32) (j : S1600x1.Idx) :
    k0_pay95 v i1 cst j = i1 j * 7#32 + k0_pay94 v cst j := rfl

theorem b4_st1 (w : FVec Ideal S1600x1 .f32) (i1 i2 : IVec S1600x1 32) (p : Fin 1600) (r : Fin 49) :
    k0_pay96 w i1 i2 (ix2 p r)
      = if BitVec.ofNat 32 r.val = i1 (ix2 p (0 : Fin 1)) * 7#32 + i2 (ix2 p (0 : Fin 1)) then w (ix2 p (0 : Fin 1))
        else Cert.Spec.lit 0x00000000#32 := by
  unfold k0_pay96
  simp only [shapeCast_self]
  show Scalar.select (IntOp.cmpi .eq (broadcastTo S1600x49 (iota .tc S1x49 32 [1] iota_S1x49_d1_w32) broadcasts_S1x49_S1600x49 (ix2 p r))
      (broadcastTo S1600x49 (addi (muli i1 (broadcast S1600x1 7#32)) i2) broadcasts_S1600x1_S1600x49 (ix2 p r))) (broadcastTo S1600x49 w broadcasts_S1600x1_S1600x49 (ix2 p r)) _ = _
  rw [broadcastTo_1b_ab_apply _ broadcasts_S1x49_S1600x49 p r, bcast_col (addi (muli i1 (broadcast S1600x1 7#32)) i2) broadcasts_S1600x1_S1600x49 p r,
    bcast_col w broadcasts_S1600x1_S1600x49 p r, iota_row iota_S1x49_d1_w32 0 r, sel_eq]
  rfl

theorem b4_st2 (w : FVec Ideal S1600x1 .f32) (i1 i2 : IVec S1600x1 32) (prev : Vec Ideal S1600x49 .f32)
    (p : Fin 1600) (r : Fin 49) :
    k0_pay97 w i1 i2 prev (ix2 p r) = prev (ix2 p r)
      + (if BitVec.ofNat 32 r.val = i1 (ix2 p (0 : Fin 1)) * 7#32 + i2 (ix2 p (0 : Fin 1)) then w (ix2 p (0 : Fin 1))
        else Cert.Spec.lit 0x00000000#32) := by
  unfold k0_pay97
  simp only [shapeCast_self]
  show prev (ix2 p r) + Scalar.select (IntOp.cmpi .eq (broadcastTo S1600x49 (iota .tc S1x49 32 [1] iota_S1x49_d1_w32) broadcasts_S1x49_S1600x49 (ix2 p r))
      (broadcastTo S1600x49 (addi (muli i1 (broadcast S1600x1 7#32)) i2) broadcasts_S1600x1_S1600x49 (ix2 p r))) (broadcastTo S1600x49 w broadcasts_S1600x1_S1600x49 (ix2 p r)) _ = _
  rw [broadcastTo_1b_ab_apply _ broadcasts_S1x49_S1600x49 p r, bcast_col (addi (muli i1 (broadcast S1600x1 7#32)) i2) broadcasts_S1600x1_S1600x49 p r,
    bcast_col w broadcasts_S1600x1_S1600x49 p r, iota_row iota_S1x49_d1_w32 0 r, sel_eq]
  rfl

theorem b4_iob (p : Fin 1600) (r : Fin 49) : k0_pay98 (ix2 p r) = BitVec.ofNat 32 r.val := by
  unfold k0_pay98
  show broadcastTo S1600x49 (iota .tc S1x49 32 [1] iota_S1x49_d1_w32) broadcasts_S1x49_S1600x49 (ix2 p r) = _
  rw [broadcastTo_1b_ab_apply _ broadcasts_S1x49_S1600x49 p r, iota_row iota_S1x49_d1_w32 0 r]

theorem b4_i12b (v : FVec Ideal S1600x1 .f32) (i1 : IVec S1600x1 32) (cst : Ideal .f32) (p : Fin 1600) (r : Fin 49) :
    k0_pay99 v i1 cst (ix2 p r) = i1 (ix2 p (0 : Fin 1)) * 7#32 + k0_pay94 v cst (ix2 p (0 : Fin 1)) := by
  unfold k0_pay99
  show broadcastTo S1600x49 (addi (muli i1 (broadcast S1600x1 7#32)) (k0_pay94 v cst)) broadcasts_S1600x1_S1600x49 (ix2 p r) = _
  rw [bcast_col _ broadcasts_S1600x1_S1600x49 p r]
  rfl

theorem b4_st3 (w : FVec Ideal S1600x1 .f32) (prev : Vec Ideal S1600x49 .f32) (ia ib : IVec S1600x49 32)
    (p : Fin 1600) (r : Fin 49) :
    k0_pay1 w prev ia ib (ix2 p r) = prev (ix2 p r)
      + (if ia (ix2 p r) = ib (ix2 p r) then w (ix2 p (0 : Fin 1)) else Cert.Spec.lit 0x00000000#32) := by
  unfold k0_pay1
  simp only [shapeCast_self]
  show prev (ix2 p r) + Scalar.select (IntOp.cmpi .eq (ia (ix2 p r)) (ib (ix2 p r))) (broadcastTo S1600x49 w broadcasts_S1600x1_S1600x49 (ix2 p r)) _ = _
  rw [bcast_col w broadcasts_S1600x1_S1600x49 p r, sel_eq]
  rfl

theorem b4_st4 (w : FVec Ideal S1600x1 .f32) (idx : IVec S1600x1 32) (io : IVec S1x49 32) (prev : Vec Ideal S1600x49 .f32)
    (p : Fin 1600) (r : Fin 49) :
    k0_pay2 w idx io prev (ix2 p r) = prev (ix2 p r)
      + (if io (ix2 (0 : Fin 1) r) = idx (ix2 p (0 : Fin 1)) then w (ix2 p (0 : Fin 1)) else Cert.Spec.lit 0x00000000#32) := by
  unfold k0_pay2
  simp only [shapeCast_self]
  show prev (ix2 p r) + Scalar.select (IntOp.cmpi .eq (broadcastTo S1600x49 io broadcasts_S1x49_S1600x49 (ix2 p r))
      (broadcastTo S1600x49 idx broadcasts_S1600x1_S1600x49 (ix2 p r))) (broadcastTo S1600x49 w broadcasts_S1600x1_S1600x49 (ix2 p r)) _ = _
  rw [broadcastTo_1b_ab_apply io broadcasts_S1x49_S1600x49 p r, bcast_col idx broadcasts_S1600x1_S1600x49 p r, bcast_col w broadcasts_S1600x1_S1600x49 p r, sel_eq]
  rfl

/-- The product of a [1600, 49] array and a [49, 512] table into the zero accumulator, at (p, k): the sum over the
    contracted coordinate. -/
theorem b4_mm (T : Vec Ideal S49x512 .f32) (OH : Vec Ideal S1600x49 .f32) (p : Fin 1600) (k : Fin 512) :
    k0_pay3 T OH (ix2 p k) = ∑ r : Fin 49, OH (ix2 p r) * T (ix2 r k) := by
  unfold k0_pay3
  simp only [shapeCast_self]
  show FloatOps.matmul dot_S1600x49_S49x512_S1600x512_1_0_0_1_n_n none _ _ (constant S1600x512 .f32 0x00000000#32) (ix2 p k) = _
  rw [Ideal.matmul_constant_zero_apply, ← Equiv.sum_comp (contrEquiv1 dot_S1600x49_S49x512_S1600x512_1_0_0_1_n_n 49 rfl rfl).symm]
  refine Finset.sum_congr rfl fun r _ => ?_
  have c2 := contrEquiv1_symm_val dot_S1600x49_S49x512_S1600x512_1_0_0_1_n_n 49 rfl rfl r
  have l2 : dot_S1600x49_S49x512_S1600x512_1_0_0_1_n_n.lhsIdx (ix2 p k) ((contrEquiv1 _ 49 rfl rfl).symm r) = ix2 p r := by
    funext ax; apply Fin.ext
    match ax with
    | ⟨0, _⟩ => simp [DotDims.lhsIdx, dot_S1600x49_S49x512_S1600x512_1_0_0_1_n_n]; rfl
    | ⟨1, _⟩ => simp [DotDims.lhsIdx, dot_S1600x49_S49x512_S1600x512_1_0_0_1_n_n]; exact c2
  have r2 : dot_S1600x49_S49x512_S1600x512_1_0_0_1_n_n.rhsIdx (ix2 p k) ((contrEquiv1 _ 49 rfl rfl).symm r) = ix2 r k := by
    funext ax; apply Fin.ext
    match ax with
    | ⟨0, _⟩ => simp [DotDims.rhsIdx, dot_S1600x49_S49x512_S1600x512_1_0_0_1_n_n]; exact c2
    | ⟨1, _⟩ => simp [DotDims.rhsIdx, dot_S1600x49_S49x512_S1600x512_1_0_0_1_n_n]; rfl
  rw [l2, r2]
  rfl

/-- What the scratch buffer of grid side 7 holds when the product reads it: each point's weighted one-hot row. -/
theorem b4_oh (x0 : Vec Ideal S1600x3 .f32) (p : Fin 1600) (r : Fin 49) :
    (k0_pay2 (k0_pay90 (k0_pay5 x0) (k0_pay6 x0)) (k0_pay95 (k0_pay86 (k0_pay6 x0)) (k0_pay92 (k0_pay5 x0)) (FloatOps.ofBits .f32 0x00000000#32 : Ideal .f32)) (iota .tc S1x49 32 [1] iota_S1x49_d1_w32)
      (k0_pay1 (k0_pay89 (k0_pay5 x0) (k0_pay6 x0))
        (k0_pay97 (k0_pay88 (k0_pay5 x0) (k0_pay6 x0)) (k0_pay92 (k0_pay5 x0)) (k0_pay93 (k0_pay6 x0)) (k0_pay96 (k0_pay87 (k0_pay5 x0) (k0_pay6 x0)) (k0_pay91 (k0_pay5 x0)) (k0_pay93 (k0_pay6 x0))))
        k0_pay98 (k0_pay99 (k0_pay86 (k0_pay6 x0)) (k0_pay91 (k0_pay5 x0)) (FloatOps.ofBits .f32 0x00000000#32 : Ideal .f32)))) (ix2 p r)
      = Cert.Spec.oneHot 7 (Cert.Spec.lit 0x40C00000#32) (sOf 0x42000000#32 x0 p) (tOf 0x42000000#32 x0 p) r.val := by
  rw [b4_st4, b4_st3, b4_st2, b4_st1, b4_iob, b4_i12b, b4_i22, b4_kct, b4_kft, b4_kcs, b4_kfs, b4_w22, b4_w12, b4_w21, b4_w11,
    iota_row iota_S1x49_d1_w32 0 r]
  rfl

/-- Columns 451..962: the blend at grid side 7, the one-hot rows times the flat table. -/
theorem b4_piece (x0 : Vec Ideal S1600x3 .f32) (x1 : Vec Ideal S3136x64 .f32) (x2 : Vec Ideal S784x128 .f32)
    (x3 : Vec Ideal S196x256 .f32) (x4 : Vec Ideal S49x512 .f32) (p : Fin 1600) (k : Fin 512) (j : S1600x963.Idx)
    (h0 : (j 0).val = p.val) (h1 : (j 1).val = 451 + k.val) :
    k0_pay3 x4 (k0_pay2 (k0_pay90 (k0_pay5 x0) (k0_pay6 x0)) (k0_pay95 (k0_pay86 (k0_pay6 x0)) (k0_pay92 (k0_pay5 x0)) (FloatOps.ofBits .f32 0x00000000#32 : Ideal .f32)) (iota .tc S1x49 32 [1] iota_S1x49_d1_w32)
      (k0_pay1 (k0_pay89 (k0_pay5 x0) (k0_pay6 x0))
        (k0_pay97 (k0_pay88 (k0_pay5 x0) (k0_pay6 x0)) (k0_pay92 (k0_pay5 x0)) (k0_pay93 (k0_pay6 x0)) (k0_pay96 (k0_pay87 (k0_pay5 x0) (k0_pay6 x0)) (k0_pay91 (k0_pay5 x0)) (k0_pay93 (k0_pay6 x0))))
        k0_pay98 (k0_pay99 (k0_pay86 (k0_pay6 x0)) (k0_pay91 (k0_pay5 x0)) (FloatOps.ofBits .f32 0x00000000#32 : Ideal .f32)))) (ix2 p k) = KB x0 x1 x2 x3 x4 j := by
  rw [KB_of_vals x0 x1 x2 x3 x4 j p (451 + k.val) h0 h1, b4_mm]
  unfold Cert.Spec.entryK
  have hk := k.isLt
  rw [if_neg (by omega), if_neg (by omega), if_neg (by omega), if_neg (by omega)]
  unfold Cert.Spec.projK
  refine Finset.sum_congr rfl fun r _ => ?_
  rw [b4_oh, show 451 + k.val - 451 = k.val by omega]
  show _ = _ * Cert.Spec.tab2 x4 r.val k.val
  rw [tab2_val x4 r k]
  rfl

/-! ## The output block -/

/-- What a grid point leaves in the output block: the five stored column ranges are the five ranges of `KB`. -/
theorem out_eq (c : Dev nD) (i : grid0.Coords) (arg1 : Memref sig .tc .vmem S1600x3 .f32) (harg1 : arg1.IsWhole) (arg2 : Memref sig .tc .vmem S3136x64 .f32) (harg2 : arg2.IsWhole) (arg3 : Memref sig .tc .vmem S784x128 .f32) (harg3 : arg3.IsWhole) (arg4 : Memref sig .tc .vmem S196x256 .f32) (harg4 : arg4.IsWhole) (arg5 : Memref sig .tc .vmem S49x512 .f32) (harg5 : arg5.IsWhole) (arg6 : Memref sig .tc .vmem S1600x963 .f32) (harg6 : arg6.IsWhole) (arg7 : Memref sig .tc .vmem S1600x3136 .f32) (harg7 : arg7.IsWhole) (arg8 : Memref sig .tc .vmem S1600x784 .f32) (harg8 : arg8.IsWhole) (arg9 : Memref sig .tc .vmem S1600x196 .f32) (harg9 : arg9.IsWhole) (arg10 : Memref sig .tc .vmem S1600x49 .f32) (harg10 : arg10.IsWhole)
    (x0 : Vec Ideal S1600x3 .f32) (x1 : Vec Ideal S3136x64 .f32) (x2 : Vec Ideal S784x128 .f32) (x3 : Vec Ideal S196x256 .f32) (x4 : Vec Ideal S49x512 .f32) :
    out0_A_5 (F := Ideal) c i arg1 harg1 arg2 harg2 arg3 harg3 arg4 harg4 arg5 harg5 arg6 harg6 arg7 harg7 arg8 harg8 arg9 harg9 arg10 harg10 x0 x1 x2 x3 x4 = KB x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3 x4)]
  funext y
  refine View.canon_apply_of_pieces (KB x0 x1 x2 x3 x4) _ ?_ y (cover0_A_5 c i arg1 harg1 arg2 harg2 arg3 harg3 arg4 harg4 arg5 harg5 arg6 harg6 arg7 harg7 arg8 harg8 arg9 harg9 arg10 harg10 x0 x1 x2 x3 x4 y)
  unfold kernelRun0_A
  dsimp only
  sl_unfold_words
  intro q hq
  simp only [List.mem_cons, List.not_mem_nil, or_false] at hq
  rcases hq with rfl | rfl | rfl | rfl | rfl
  · intro x
    obtain ⟨p, k, rfl⟩ : ∃ (p : Fin 1600) (k : Fin 512), x = ix2 p k := ⟨x 0, x 1, eq_ix2 x⟩
    simp only [View.readCov_cons_toLoadRect, View.readAt_eq_ld, harg1.read_unread, harg2.read_unread, harg3.read_unread,
      harg4.read_unread, harg5.read_unread, View.ld_unit_zero (S := S1600x3) hz, View.ld_unit_zero (S := S3136x64) hz,
      View.ld_unit_zero (S := S784x128) hz, View.ld_unit_zero (S := S196x256) hz, View.ld_unit_zero (S := S49x512) hz]
    refine b4_piece x0 x1 x2 x3 x4 p k _ ?_ ?_
    · show 0 + 1 * p.val = p.val; omega
    · show 451 + 1 * k.val = 451 + k.val; omega
  · intro x
    obtain ⟨p, k, rfl⟩ : ∃ (p : Fin 1600) (k : Fin 256), x = ix2 p k := ⟨x 0, x 1, eq_ix2 x⟩
    simp only [View.readCov_cons_toLoadRect, View.readAt_eq_ld, harg1.read_unread, harg2.read_unread, harg3.read_unread,
      harg4.read_unread, harg5.read_unread, View.ld_unit_zero (S := S1600x3) hz, View.ld_unit_zero (S := S3136x64) hz,
      View.ld_unit_zero (S := S784x128) hz, View.ld_unit_zero (S := S196x256) hz, View.ld_unit_zero (S := S49x512) hz]
    refine a3_piece x0 x1 x2 x3 x4 p k _ ?_ ?_
    · show 0 + 1 * p.val = p.val; omega
    · show 195 + 1 * k.val = 195 + k.val; omega
  · intro x
    obtain ⟨p, k, rfl⟩ : ∃ (p : Fin 1600) (k : Fin 128), x = ix2 p k := ⟨x 0, x 1, eq_ix2 x⟩
    simp only [View.readCov_cons_toLoadRect, View.readAt_eq_ld, harg1.read_unread, harg2.read_unread, harg3.read_unread,
      harg4.read_unread, harg5.read_unread, View.ld_unit_zero (S := S1600x3) hz, View.ld_unit_zero (S := S3136x64) hz,
      View.ld_unit_zero (S := S784x128) hz, View.ld_unit_zero (S := S196x256) hz, View.ld_unit_zero (S := S49x512) hz]
    refine b2_piece x0 x1 x2 x3 x4 p k _ ?_ ?_
    · show 0 + 1 * p.val = p.val; omega
    · show 67 + 1 * k.val = 67 + k.val; omega
  · intro x
    obtain ⟨p, k, rfl⟩ : ∃ (p : Fin 1600) (k : Fin 64), x = ix2 p k := ⟨x 0, x 1, eq_ix2 x⟩
    simp only [View.readCov_cons_toLoadRect, View.readAt_eq_ld, harg1.read_unread, harg2.read_unread, harg3.read_unread,
      harg4.read_unread, harg5.read_unread, View.ld_unit_zero (S := S1600x3) hz, View.ld_unit_zero (S := S3136x64) hz,
      View.ld_unit_zero (S := S784x128) hz, View.ld_unit_zero (S := S196x256) hz, View.ld_unit_zero (S := S49x512) hz]
    refine a1_piece x0 x1 x2 x3 x4 p k _ ?_ ?_
    · show 0 + 1 * p.val = p.val; omega
    · show 3 + 1 * k.val = 3 + k.val; omega
  · intro x
    obtain ⟨p, k, rfl⟩ : ∃ (p : Fin 1600) (k : Fin 3), x = ix2 p k := ⟨x 0, x 1, eq_ix2 x⟩
    simp only [View.readCov_cons_toLoadRect, View.readAt_eq_ld, harg1.read_unread, harg2.read_unread, harg3.read_unread,
      harg4.read_unread, harg5.read_unread, View.ld_unit_zero (S := S1600x3) hz, View.ld_unit_zero (S := S3136x64) hz,
      View.ld_unit_zero (S := S784x128) hz, View.ld_unit_zero (S := S196x256) hz, View.ld_unit_zero (S := S49x512) hz]
    rw [View.ld_unit_zero (S := S1600x3) hz inb_S1600x3_S1600x3_0_0 x0]
    refine piece0 x0 x1 x2 x3 x4 p k _ ?_ ?_
    · show 0 + 1 * p.val = p.val; omega
    · show 0 + 1 * k.val = k.val; omega

end Cert.KernelIdeal.KBlock

end
-- ==== Proof.KernelArray.lean ====
/-
  From the output's blocks to the output array.

  Grid point t stages rows 1600·t … 1600·t + 1599 of the point array and the four whole flat feature tables, and
  writes back rows 1600·t … 1600·t + 1599 of the output. What it writes is the block function of its five input
  blocks (the kernel body's value); read at row p of the block that is the specification's row 1600·t + p of the
  argument arrays: the point block's row p is the point array's row 1600·t + p, and a flat table [H·H, C] — the host's
  reshape of the feature array [H, H, C] — holds at row r the cell (r / H, r % H), since both lay the entry at
  position (r·C + k) of the same row-major order. The 125 blocks tile the 200000 rows (row n is in the block of point
  n / 1600), so the output array after the run is the specification's one-hot spelling of the argument arrays.
-/
import proofs.«182027_j29850022707588_2_alg».proof.Proof.Gen.KernelIdeal.Value
import proofs.«182027_j29850022707588_2_alg».proof.Proof.KernelBlock
import proofs.«182027_j29850022707588_2_alg».proof.Proof.Spec
import Idealize.ShloMosaic.Lib.Pipeline.Value
import Idealize.ShloMosaic.Lib.ValueIdx
import Idealize.ShloMosaic.Lib.ValueLayout
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output array in the one-hot spelling, of the argument arrays as launched. -/
abbrev G (c : Dev nD) : S200000x963.Idx → EReal :=
  Cert.Spec.GK (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the grid: the point window and the output window sit at block row t, block column 0;
    the four table windows at block (0, 0). -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of point t's block of the point array is the array's row 1600·t + p. -/
theorem iblk0_apply (c : Dev nD) (t : Fin cfg0.N) (p : Fin 1600) (q : Fin 3) (h : t.val * 1600 + p.val < 200000) :
    (iblk m c 0 t : Vec Ideal S1600x3 .f32) (ix2 p q)
      = m ((c : Thread nD τ).loc main_arg0) (ix2 ⟨t.val * 1600 + p.val, h⟩ q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1600 + 1 * p.val = t.val * 1600 + p.val; rw [e0]; omega
  | ⟨1, _⟩ => show win0_0.index t (1 : Fin 2) * 3 + 1 * q.val = q.val; rw [e1]; omega

/-- The point block read at natural-number coordinates is the point array at row 1600·t + p. -/
theorem tab_pts (c : Dev nD) (t : Fin cfg0.N) (p : ℕ) (hp : p < 1600) (q : ℕ) :
    Cert.Spec.tab2 (iblk m c 0 t : Vec Ideal S1600x3 .f32) p q
      = Cert.Spec.tab2 (m ((c : Thread nD τ).loc main_arg0)) (t.val * 1600 + p) q := by
  have hN : cfg0.N = 125 := N_0
  have ht := t.isLt
  unfold Cert.Spec.tab2
  by_cases hq : q < 3
  · rw [dif_pos ⟨hp, hq⟩, dif_pos ⟨by omega, hq⟩]; exact iblk0_apply m c t ⟨p, hp⟩ ⟨q, hq⟩ _
  · rw [dif_neg (fun h => hq h.2), dif_neg (fun h => hq h.2)]

/-- The flat table of scale 1 as the region finds it: the host's reshape of feature array 1. -/
theorem V_tbl1 (c : Dev nD) : (V m c main_v0 : S3136x64.Idx → EReal)
    = shapeCast S3136x64 (m ((c : Thread nD τ).loc main_arg1)) shapeCasts_S56x56x64_S3136x64 := by
  dsimp only [V, hostOps0]; after_results; rfl

/-- Row r of the flat table of scale 1 is the cell (r / 56, r % 56) of feature array 1. -/
theorem tbl1_apply (c : Dev nD) (t : Fin cfg0.N) (r : Fin 3136) (k : Fin 64) :
    (iblk m c 1 t : Vec Ideal S3136x64 .f32) (ix2 r k)
      = m ((c : Thread nD τ).loc main_arg1) (ix3 ⟨r.val / 56, by have := r.isLt; omega⟩ ⟨r.val % 56, by omega⟩ k) := by
  obtain ⟨-, -, -, -, e0, e1, -⟩ := idx_facts t
  unfold iblk
  rw [View.read_apply]
  show V m c main_v0 _ = _
  rw [V_tbl1]
  refine shapeCast_apply _ _ _ _ ?_
  refine (Shape.rowMajor_val_three (d := ![56, 56, 64]) _).trans
    (Eq.trans ?_ (Shape.rowMajor_val_two (d := ![3136, 64]) _).symm)
  show (r.val / 56 * 56 + r.val % 56) * 64 + k.val
    = (win0_1.index t (0 : Fin 2) * 3136 + 1 * r.val) * 64 + (win0_1.index t (1 : Fin 2) * 64 + 1 * k.val)
  rw [e0, e1]; omega

/-- The flat table of scale 1 read at natural-number coordinates is feature array 1 at the cell and channel. -/
theorem tab_tbl1 (c : Dev nD) (t : Fin cfg0.N) :
    Cert.Spec.tab2 (iblk m c 1 t : Vec Ideal S3136x64 .f32)
      = fun r k => Cert.Spec.tab3 (m ((c : Thread nD τ).loc main_arg1)) (r / 56) (r % 56) k := by
  funext r k
  unfold Cert.Spec.tab2 Cert.Spec.tab3
  by_cases h : r < 3136 ∧ k < 64
  · rw [dif_pos h, dif_pos ⟨by omega, by omega, h.2⟩]; exact tbl1_apply m c t ⟨r, h.1⟩ ⟨k, h.2⟩
  · rw [dif_neg h, dif_neg (fun h' => h ⟨by omega, h'.2.2⟩)]

/-- The flat table of scale 2 as the region finds it: the host's reshape of feature array 2. -/
theorem V_tbl2 (c : Dev nD) : (V m c main_v1 : S784x128.Idx → EReal)
    = shapeCast S784x128 (m ((c : Thread nD τ).loc main_arg2)) shapeCasts_S28x28x128_S784x128 := by
  dsimp only [V, hostOps0]; after_results; rfl

/-- Row r of the flat table of scale 2 is the cell (r / 28, r % 28) of feature array 2. -/
theorem tbl2_apply (c : Dev nD) (t : Fin cfg0.N) (r : Fin 784) (k : Fin 128) :
    (iblk m c 2 t : Vec Ideal S784x128 .f32) (ix2 r k)
      = m ((c : Thread nD τ).loc main_arg2) (ix3 ⟨r.val / 28, by have := r.isLt; omega⟩ ⟨r.val % 28, by omega⟩ k) := by
  obtain ⟨-, -, -, -, -, -, e0, e1, -⟩ := idx_facts t
  unfold iblk
  rw [View.read_apply]
  show V m c main_v1 _ = _
  rw [V_tbl2]
  refine shapeCast_apply _ _ _ _ ?_
  refine (Shape.rowMajor_val_three (d := ![28, 28, 128]) _).trans
    (Eq.trans ?_ (Shape.rowMajor_val_two (d := ![784, 128]) _).symm)
  show (r.val / 28 * 28 + r.val % 28) * 128 + k.val
    = (win0_2.index t (0 : Fin 2) * 784 + 1 * r.val) * 128 + (win0_2.index t (1 : Fin 2) * 128 + 1 * k.val)
  rw [e0, e1]; omega

/-- The flat table of scale 2 read at natural-number coordinates is feature array 2 at the cell and channel. -/
theorem tab_tbl2 (c : Dev nD) (t : Fin cfg0.N) :
    Cert.Spec.tab2 (iblk m c 2 t : Vec Ideal S784x128 .f32)
      = fun r k => Cert.Spec.tab3 (m ((c : Thread nD τ).loc main_arg2)) (r / 28) (r % 28) k := by
  funext r k
  unfold Cert.Spec.tab2 Cert.Spec.tab3
  by_cases h : r < 784 ∧ k < 128
  · rw [dif_pos h, dif_pos ⟨by omega, by omega, h.2⟩]; exact tbl2_apply m c t ⟨r, h.1⟩ ⟨k, h.2⟩
  · rw [dif_neg h, dif_neg (fun h' => h ⟨by omega, h'.2.2⟩)]

/-- The flat table of scale 3 as the region finds it: the host's reshape of feature array 3. -/
theorem V_tbl3 (c : Dev nD) : (V m c main_v2 : S196x256.Idx → EReal)
    = shapeCast S196x256 (m ((c : Thread nD τ).loc main_arg3)) shapeCasts_S14x14x256_S196x256 := by
  dsimp only [V, hostOps0]; after_results; rfl

/-- Row r of the flat table of scale 3 is the cell (r / 14, r % 14) of feature array 3. -/
theorem tbl3_apply (c : Dev nD) (t : Fin cfg0.N) (r : Fin 196) (k : Fin 256) :
    (iblk m c 3 t : Vec Ideal S196x256 .f32) (ix2 r k)
      = m ((c : Thread nD τ).loc main_arg3) (ix3 ⟨r.val / 14, by have := r.isLt; omega⟩ ⟨r.val % 14, by omega⟩ k) := by
  obtain ⟨-, -, -, -, -, -, -, -, e0, e1, -⟩ := idx_facts t
  unfold iblk
  rw [View.read_apply]
  show V m c main_v2 _ = _
  rw [V_tbl3]
  refine shapeCast_apply _ _ _ _ ?_
  refine (Shape.rowMajor_val_three (d := ![14, 14, 256]) _).trans
    (Eq.trans ?_ (Shape.rowMajor_val_two (d := ![196, 256]) _).symm)
  show (r.val / 14 * 14 + r.val % 14) * 256 + k.val
    = (win0_3.index t (0 : Fin 2) * 196 + 1 * r.val) * 256 + (win0_3.index t (1 : Fin 2) * 256 + 1 * k.val)
  rw [e0, e1]; omega

/-- The flat table of scale 3 read at natural-number coordinates is feature array 3 at the cell and channel. -/
theorem tab_tbl3 (c : Dev nD) (t : Fin cfg0.N) :
    Cert.Spec.tab2 (iblk m c 3 t : Vec Ideal S196x256 .f32)
      = fun r k => Cert.Spec.tab3 (m ((c : Thread nD τ).loc main_arg3)) (r / 14) (r % 14) k := by
  funext r k
  unfold Cert.Spec.tab2 Cert.Spec.tab3
  by_cases h : r < 196 ∧ k < 256
  · rw [dif_pos h, dif_pos ⟨by omega, by omega, h.2⟩]; exact tbl3_apply m c t ⟨r, h.1⟩ ⟨k, h.2⟩
  · rw [dif_neg h, dif_neg (fun h' => h ⟨by omega, h'.2.2⟩)]

/-- The flat table of scale 4 as the region finds it: the host's reshape of feature array 4. -/
theorem V_tbl4 (c : Dev nD) : (V m c main_v3 : S49x512.Idx → EReal)
    = shapeCast S49x512 (m ((c : Thread nD τ).loc main_arg4)) shapeCasts_S7x7x512_S49x512 := by
  dsimp only [V, hostOps0]; after_results; rfl

/-- Row r of the flat table of scale 4 is the cell (r / 7, r % 7) of feature array 4. -/
theorem tbl4_apply (c : Dev nD) (t : Fin cfg0.N) (r : Fin 49) (k : Fin 512) :
    (iblk m c 4 t : Vec Ideal S49x512 .f32) (ix2 r k)
      = m ((c : Thread nD τ).loc main_arg4) (ix3 ⟨r.val / 7, by have := r.isLt; omega⟩ ⟨r.val % 7, by omega⟩ k) := by
  obtain ⟨-, -, -, -, -, -, -, -, -, -, e0, e1⟩ := idx_facts t
  unfold iblk
  rw [View.read_apply]
  show V m c main_v3 _ = _
  rw [V_tbl4]
  refine shapeCast_apply _ _ _ _ ?_
  refine (Shape.rowMajor_val_three (d := ![7, 7, 512]) _).trans
    (Eq.trans ?_ (Shape.rowMajor_val_two (d := ![49, 512]) _).symm)
  show (r.val / 7 * 7 + r.val % 7) * 512 + k.val
    = (win0_4.index t (0 : Fin 2) * 49 + 1 * r.val) * 512 + (win0_4.index t (1 : Fin 2) * 512 + 1 * k.val)
  rw [e0, e1]; omega

/-- The flat table of scale 4 read at natural-number coordinates is feature array 4 at the cell and channel. -/
theorem tab_tbl4 (c : Dev nD) (t : Fin cfg0.N) :
    Cert.Spec.tab2 (iblk m c 4 t : Vec Ideal S49x512 .f32)
      = fun r k => Cert.Spec.tab3 (m ((c : Thread nD τ).loc main_arg4)) (r / 7) (r % 7) k := by
  funext r k
  unfold Cert.Spec.tab2 Cert.Spec.tab3
  by_cases h : r < 49 ∧ k < 512
  · rw [dif_pos h, dif_pos ⟨by omega, by omega, h.2⟩]; exact tbl4_apply m c t ⟨r, h.1⟩ ⟨k, h.2⟩
  · rw [dif_neg h, dif_neg (fun h' => h ⟨by omega, h'.2.2⟩)]

/-- An index of the array is in point t's block iff each coordinate is in the block's range on its axis. -/
theorem mem_blk (t : Fin cfg0.N) (i : S200000x963.Idx) :
    i ∈ ((cfg0.win 5).blk t).view.set ↔ ∀ a : Fin 2, win0_5.index t a * S1600x963.size a ≤ (i a).val
      ∧ (i a).val < win0_5.index t a * S1600x963.size a + S1600x963.size a := by
  show i ∈ ((View.whole main_v4).slice (win0_5.rect t)).set ↔ _
  rw [View.set_slice_whole, Rect.mem_set_unit]
  exact Iff.rfl

/-- Every index of the output array is in the block of the point that holds its row: point (row / 1600). -/
theorem cover (i : S200000x963.Idx) :
    ∃ t : Fin cfg0.N, (cfg0.win 5).flush t = true ∧ i ∈ ((cfg0.win 5).blk t).view.set := by
  have hN : cfg0.N = 125 := N_0
  have hi0 : (i 0).val < 200000 := (i 0).isLt
  have hi1 : (i 1).val < 963 := (i 1).isLt
  have ht : (i 0).val / 1600 < cfg0.N := by rw [hN]; omega
  obtain ⟨-, -, e0, e1, -⟩ := idx_facts ⟨(i 0).val / 1600, ht⟩
  refine ⟨⟨(i 0).val / 1600, ht⟩, flush0_5 _, ?_⟩
  rw [mem_blk]
  intro a
  match a with
  | ⟨0, _⟩ =>
    show win0_5.index ⟨(i 0).val / 1600, ht⟩ (0 : Fin 2) * 1600 ≤ (i 0).val
      ∧ (i 0).val < win0_5.index ⟨(i 0).val / 1600, ht⟩ (0 : Fin 2) * 1600 + 1600
    rw [e0]; dsimp only; omega
  | ⟨1, _⟩ =>
    show win0_5.index ⟨(i 0).val / 1600, ht⟩ (1 : Fin 2) * 963 ≤ (i 1).val
      ∧ (i 1).val < win0_5.index ⟨(i 0).val / 1600, ht⟩ (1 : Fin 2) * 963 + 963
    rw [e1]; omega

/-- What the output's staging buffer holds after the body at point t: the block function of the point's input blocks. -/
theorem outsAt_eq (c : Dev nD) (t : Fin cfg0.N) :
    outsAt0 m c t = Cert.KernelIdeal.KBlock.KB (iblk m c 0 t) (iblk m c 1 t) (iblk m c 2 t) (iblk m c 3 t) (iblk m c 4 t) := by
  unfold outsAt0
  exact Cert.KernelIdeal.KBlock.out_eq c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) scM0_1
    (Memref.isWhole_whole _) scM0_2 (Memref.isWhole_whole _) scM0_3 (Memref.isWhole_whole _)
    (iblk m c 0 t) (iblk m c 1 t) (iblk m c 2 t) (iblk m c 3 t) (iblk m c 4 t)

/-- What point t writes back is block t of the specification's array. -/
theorem flushed_eq (c : Dev nD) (t : Fin cfg0.N) :
    (dats m 0 c).flushed 5 t = ((cfg0.win 5).blk t).view.read (Elt Ideal) (G m c) := by
  obtain ⟨-, -, e0, e1, -⟩ := idx_facts t
  rw [Cert.KernelIdeal.Value.flushed5, outsAt_eq m c t]
  funext j
  rw [View.read_apply]
  have hj0 : (j 0).val < 1600 := (j 0).isLt
  have hi0 : ((((cfg0.win 5).blk t).view.emb j) 0).val = t.val * 1600 + (j 0).val := by
    show win0_5.index t (0 : Fin 2) * 1600 + 1 * (j 0).val = _; rw [e0]; omega
  have hi1 : ((((cfg0.win 5).blk t).view.emb j) 1).val = (j 1).val := by
    show win0_5.index t (1 : Fin 2) * 963 + 1 * (j 1).val = _; rw [e1]; omega
  show Cert.KernelIdeal.KBlock.KB (iblk m c 0 t) (iblk m c 1 t) (iblk m c 2 t) (iblk m c 3 t) (iblk m c 4 t) j
    = Cert.Spec.GK _ _ _ _ _ (((cfg0.win 5).blk t).view.emb j)
  unfold Cert.KernelIdeal.KBlock.KB Cert.Spec.GK
  rw [hi0, hi1, tab_tbl1 m c t, tab_tbl2 m c t, tab_tbl3 m c t, tab_tbl4 m c t]
  simp only [tab_pts m c t (j 0).val hj0]

/-- The output array after the run is the specification's array. -/
theorem final (c : Dev nD) : (dats m 0 c).arrAt 5 cfg0.N = G m c :=
  (dats m 0 c).arrAt_eq_of_cover 5 (G m c) (fun t _ => flushed_eq m c t) cover

/-- The kernel's run, read: the result array is the one-hot spelling of the argument arrays, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KValue

end
-- ==== Proof.RefLayout.lean ====
/-
  Layout operations of the four-cell lookup read at an index: a table [H, H, C] looked up at two columns of cell
  words (each word read signed and clamped into 0..H−1), a two-column array assembled from its columns, the word
  wrapped by H when negative, and the output row assembled from its five pieces.
-/
import Idealize.ShloMosaic.Lib.ValueIdx
import Idealize.ShloMosaic.Lib.Pipeline.Value
import proofs.«182027_j29850022707588_2_alg».proof.Proof.Spec

noncomputable section

namespace Cert.RefLayout

open Idealize.ShloMosaic Idealize.ShloMosaic.ValueIdx

/-! ## A table looked up at two columns of cell words -/

section Cells
variable {α : Type}

/-- The dimension numbers of a lookup of whole channel rows of a table [H, H, C] at N pairs of cell words: the
    result's axis 1 is the channel, the table's two cell axes are collapsed and named, in order, by the pair. -/
abbrev cellDims (H C N : Nat)
    (wf : GatherDims.WF ⟨3, ![H, H, C]⟩ ⟨2, ![N, 2]⟩ ⟨2, ![N, C]⟩ [1] [0, 1] [] [0, 1] [] 1 ![1, 1, C]) :
    GatherDims ⟨3, ![H, H, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- The lookup at (n, q): the table at the cell the n-th pair names — each word read signed and clamped into
    0..H−1 — and channel q. -/
theorem gather_cell_apply {H C N w : Nat} (hH : 0 < H)
    (wf : GatherDims.WF ⟨3, ![H, H, C]⟩ ⟨2, ![N, 2]⟩ ⟨2, ![N, C]⟩ [1] [0, 1] [] [0, 1] [] 1 ![1, 1, C])
    (x : (⟨3, ![H, H, C]⟩ : Shape).Idx → α) (idx : IVec ⟨2, ![N, 2]⟩ w) (n : Fin N) (q : Fin C) :
    Host.gather (cellDims H C N wf) x idx (ix2 n q)
      = x (ix3 ⟨min (idx (ix2 n (0 : Fin 2))).toInt.toNat (H - 1), by omega⟩
            ⟨min (idx (ix2 n (1 : Fin 2))).toInt.toNat (H - 1), by omega⟩ q) := by
  unfold Host.gather
  congr 1
  funext a
  refine Fin.ext ?_
  match a with
  | ⟨0, _⟩ =>
    show (cellDims H C N wf).start (ix2 n q) idx 0 + (cellDims H C N wf).batchCoord (ix2 n q) 0
      + (cellDims H C N wf).offCoord (ix2 n q) 0 = _
    rw [GatherDims.batchCoord_eq_zero _ _ _ List.not_mem_nil,
      GatherDims.offCoord_eq_zero _ _ _ (fun h => ((GatherDims.mem_sKept _ _).mp h).1 (by decide : (0 : Fin 3) ∈ ([0, 1] : List (Fin 3))))]
    simp only [Nat.add_zero]
    unfold GatherDims.start
    rw [dif_pos (show (0 : Fin 3) ∈ (cellDims H C N wf).startIndexMap from (by decide : (0 : Fin 3) ∈ ([0, 1] : List (Fin 3))))]
    have hsi : (cellDims H C N wf).siIdx (ix2 n q) ⟨List.idxOf (0 : Fin 3) (cellDims H C N wf).startIndexMap,
        List.idxOf_lt_length_iff.2 (by decide : (0 : Fin 3) ∈ ([0, 1] : List (Fin 3)))⟩ = ix2 n (0 : Fin 2) := by
      funext b; refine Fin.ext ?_
      match b with
      | ⟨0, _⟩ => rfl
      | ⟨1, _⟩ => rfl
    rw [hsi]
    rfl
  | ⟨1, _⟩ =>
    show (cellDims H C N wf).start (ix2 n q) idx 1 + (cellDims H C N wf).batchCoord (ix2 n q) 1
      + (cellDims H C N wf).offCoord (ix2 n q) 1 = _
    rw [GatherDims.batchCoord_eq_zero _ _ _ List.not_mem_nil,
      GatherDims.offCoord_eq_zero _ _ _ (fun h => ((GatherDims.mem_sKept _ _).mp h).1 (by decide : (1 : Fin 3) ∈ ([0, 1] : List (Fin 3))))]
    simp only [Nat.add_zero]
    unfold GatherDims.start
    rw [dif_pos (show (1 : Fin 3) ∈ (cellDims H C N wf).startIndexMap from (by decide : (1 : Fin 3) ∈ ([0, 1] : List (Fin 3))))]
    have hsi : (cellDims H C N wf).siIdx (ix2 n q) ⟨List.idxOf (1 : Fin 3) (cellDims H C N wf).startIndexMap,
        List.idxOf_lt_length_iff.2 (by decide : (1 : Fin 3) ∈ ([0, 1] : List (Fin 3)))⟩ = ix2 n (1 : Fin 2) := by
      funext b; refine Fin.ext ?_
      match b with
      | ⟨0, _⟩ => rfl
      | ⟨1, _⟩ => rfl
    rw [hsi]
    rfl
  | ⟨2, _⟩ =>
    show (cellDims H C N wf).start (ix2 n q) idx 2 + (cellDims H C N wf).batchCoord (ix2 n q) 2
      + (cellDims H C N wf).offCoord (ix2 n q) 2 = _
    rw [GatherDims.batchCoord_eq_zero _ _ _ List.not_mem_nil]
    unfold GatherDims.start GatherDims.offCoord
    rw [dif_neg (show ¬ (2 : Fin 3) ∈ (cellDims H C N wf).startIndexMap from (by decide : (2 : Fin 3) ∉ ([0, 1] : List (Fin 3)))),
      dif_pos (show (2 : Fin 3) ∈ (cellDims H C N wf).sKept from
        (GatherDims.mem_sKept _ _).mpr ⟨(by decide : (2 : Fin 3) ∉ ([0, 1] : List (Fin 3))), List.not_mem_nil⟩)]
    simp only [Nat.zero_add, Nat.add_zero]
    rfl

/-- A two-column array assembled from its columns, at column 0: the first column. -/
theorem concat_cols_fst {N w : Nat} (a b : IVec ⟨2, ![N, 1]⟩ w)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h _ rfl _ (fun k => by
    match k with
    | ⟨0, _⟩ => rfl
    | ⟨1, _⟩ => rfl)

/-- … and at column 1: the second column. -/
theorem concat_cols_snd {N w : Nat} (a b : IVec ⟨2, ![N, 1]⟩ w)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h _ rfl rfl _
    (fun k hk => by
      match k with
      | ⟨0, _⟩ => rfl
      | ⟨1, _⟩ => exact absurd rfl hk)
    rfl

/-- The lookup at the two columns assembled: the table, read at natural-number coordinates, at the two clamped cells. -/
theorem gather_cols_apply {H C N w : Nat} (hH : 0 < H)
    (wf : GatherDims.WF ⟨3, ![H, H, C]⟩ ⟨2, ![N, 2]⟩ ⟨2, ![N, C]⟩ [1] [0, 1] [] [0, 1] [] 1 ![1, 1, C])
    (hcat : Shape.Concatenates [(⟨2, ![N, 1]⟩ : Shape), ⟨2, ![N, 1]⟩] ⟨2, ![N, 2]⟩ 1)
    (x : (⟨3, ![H, H, C]⟩ : Shape).Idx → EReal) (a b : IVec ⟨2, ![N, 1]⟩ w) (n : Fin N) (q : Fin C) :
    Host.gather (cellDims H C N wf) x (concatenate ⟨2, ![N, 2]⟩ 1 [⟨⟨2, ![N, 1]⟩, a⟩, ⟨⟨2, ![N, 1]⟩, b⟩] hcat) (ix2 n q)
      = Cert.Spec.tab3 x (min (a (ix2 n (0 : Fin 1))).toInt.toNat (H - 1))
          (min (b (ix2 n (0 : Fin 1))).toInt.toNat (H - 1)) q.val := by
  rw [gather_cell_apply hH]
  simp only [concat_cols_fst, concat_cols_snd]
  unfold Cert.Spec.tab3
  rw [dif_pos ⟨by omega, by omega, q.isLt⟩]

end Cells

/-! ## The cell word wrapped -/

/-- A word that is replaced by itself plus k when it is negative. -/
theorem select_slt_wrap (a k : BitVec 32) :
    Scalar.select (IntOp.cmpi .slt a 0#32) (IntOp.addi a k) a = if a.slt 0#32 then a + k else a := by
  unfold Scalar.select IntOp.cmpi IntOp.addi
  cases h : a.slt 0#32 <;> simp

/-! ## The output row assembled from its five pieces -/

section Row
variable {α : Type}

/-- The point followed by the four feature rows, at (n, q): the piece whose span holds q, at q less the spans before. -/
theorem concat5_apply (p0 : (⟨2, ![200000, 3]⟩ : Shape).Idx → α) (p1 : (⟨2, ![200000, 64]⟩ : Shape).Idx → α)
    (p2 : (⟨2, ![200000, 128]⟩ : Shape).Idx → α) (p3 : (⟨2, ![200000, 256]⟩ : Shape).Idx → α)
    (p4 : (⟨2, ![200000, 512]⟩ : Shape).Idx → α)
    (h : Shape.Concatenates [(⟨2, ![200000, 3]⟩ : Shape), ⟨2, ![200000, 64]⟩, ⟨2, ![200000, 128]⟩, ⟨2, ![200000, 256]⟩,
      ⟨2, ![200000, 512]⟩] ⟨2, ![200000, 963]⟩ 1) (n : Fin 200000) (q : Fin 963) :
    concatenate ⟨2, ![200000, 963]⟩ 1 [⟨⟨2, ![200000, 3]⟩, p0⟩, ⟨⟨2, ![200000, 64]⟩, p1⟩, ⟨⟨2, ![200000, 128]⟩, p2⟩,
        ⟨⟨2, ![200000, 256]⟩, p3⟩, ⟨⟨2, ![200000, 512]⟩, p4⟩] h (ix2 n q)
      = if h0 : q.val < 3 then p0 (ix2 n ⟨q.val, h0⟩)
        else if h1 : q.val < 67 then p1 (ix2 n ⟨q.val - 3, by omega⟩)
        else if h2 : q.val < 195 then p2 (ix2 n ⟨q.val - 67, by omega⟩)
        else if h3 : q.val < 451 then p3 (ix2 n ⟨q.val - 195, by omega⟩)
        else p4 (ix2 n ⟨q.val - 451, by have := q.isLt; omega⟩) := by
  have hq := q.isLt
  split
  · next h0 =>
    exact concatenate_apply_piece 1 [⟨⟨2, ![200000, 3]⟩, p0⟩, ⟨⟨2, ![200000, 64]⟩, p1⟩, ⟨⟨2, ![200000, 128]⟩, p2⟩, ⟨⟨2, ![200000, 256]⟩, p3⟩, ⟨⟨2, ![200000, 512]⟩, p4⟩] h (ix2 n q) 0 (by decide : (0 : Nat) < 5) _ p0 rfl rfl 0 rfl _
      (fun k hk => by
        match k with
        | ⟨0, _⟩ => rfl
        | ⟨1, _⟩ => exact absurd rfl hk)
      (by show 0 + q.val = q.val; omega)
  · next h0 =>
    split
    · next h1 =>
      exact concatenate_apply_piece 1 [⟨⟨2, ![200000, 3]⟩, p0⟩, ⟨⟨2, ![200000, 64]⟩, p1⟩, ⟨⟨2, ![200000, 128]⟩, p2⟩, ⟨⟨2, ![200000, 256]⟩, p3⟩, ⟨⟨2, ![200000, 512]⟩, p4⟩] h (ix2 n q) 1 (by decide : (1 : Nat) < 5) _ p1 rfl rfl 3 rfl _
        (fun k hk => by
          match k with
          | ⟨0, _⟩ => rfl
          | ⟨1, _⟩ => exact absurd rfl hk)
        (by show 3 + (q.val - 3) = q.val; omega)
    · next h1 =>
      split
      · next h2 =>
        exact concatenate_apply_piece 1 [⟨⟨2, ![200000, 3]⟩, p0⟩, ⟨⟨2, ![200000, 64]⟩, p1⟩, ⟨⟨2, ![200000, 128]⟩, p2⟩, ⟨⟨2, ![200000, 256]⟩, p3⟩, ⟨⟨2, ![200000, 512]⟩, p4⟩] h (ix2 n q) 2 (by decide : (2 : Nat) < 5) _ p2 rfl rfl 67 rfl _
          (fun k hk => by
            match k with
            | ⟨0, _⟩ => rfl
            | ⟨1, _⟩ => exact absurd rfl hk)
          (by show 67 + (q.val - 67) = q.val; omega)
      · next h2 =>
        split
        · next h3 =>
          exact concatenate_apply_piece 1 [⟨⟨2, ![200000, 3]⟩, p0⟩, ⟨⟨2, ![200000, 64]⟩, p1⟩, ⟨⟨2, ![200000, 128]⟩, p2⟩, ⟨⟨2, ![200000, 256]⟩, p3⟩, ⟨⟨2, ![200000, 512]⟩, p4⟩] h (ix2 n q) 3 (by decide : (3 : Nat) < 5) _ p3 rfl rfl 195 rfl _
            (fun k hk => by
              match k with
              | ⟨0, _⟩ => rfl
              | ⟨1, _⟩ => exact absurd rfl hk)
            (by show 195 + (q.val - 195) = q.val; omega)
        · next h3 =>
          exact concatenate_apply_piece 1 [⟨⟨2, ![200000, 3]⟩, p0⟩, ⟨⟨2, ![200000, 64]⟩, p1⟩, ⟨⟨2, ![200000, 128]⟩, p2⟩, ⟨⟨2, ![200000, 256]⟩, p3⟩, ⟨⟨2, ![200000, 512]⟩, p4⟩] h (ix2 n q) 4 (by decide : (4 : Nat) < 5) _ p4 rfl rfl 451 rfl _
            (fun k hk => by
              match k with
              | ⟨0, _⟩ => rfl
              | ⟨1, _⟩ => exact absurd rfl hk)
            (by show 451 + (q.val - 451) = q.val; omega)

end Row

end Cert.RefLayout

end
-- ==== Proof.RefValue.lean ====
/-
  The reference, read one operation at a time, is the specification's four-cell spelling.

  Per point n the reference slices the three coordinates, forms the image row coordinate 112·(−y)/(−z) + 111.5 and the
  image column coordinate 112·x/(−z) + 111.5, and clips both to [0, 223]. At each of the four scales it divides the two
  by the cell size, takes floor and ceiling of each, converts the four to 32-bit words, wraps a negative word by the
  grid side, pairs the words into two-column arrays, looks the table up at the four pairs (each word read signed and
  clamped into the grid), forms the four products of fractional parts, spreads each over the channels, and adds the
  four weighted rows, left to right. The result row is the point followed by the four blended rows.

  Each stage is read here at the index of point n (and channel q): the shared stages once, then one section per
  scale, and last the 963-column row by the column range its entry falls in.
-/
import proofs.«182027_j29850022707588_2_alg».proof.Proof.RefReadP
import proofs.«182027_j29850022707588_2_alg».proof.Proof.RefLayout
import proofs.«182027_j29850022707588_2_alg».proof.Proof.Spec
import Idealize.ShloMosaic.Lib.ValueIdx
import Idealize.ShloMosaic.Lib.Pipeline.Value
import Idealize.ShloMosaic.PureOps.Ideal.Laws

noncomputable section

namespace Cert.ReferenceIdeal.RValue

open Cert.ReferenceIdeal Cert.ReferenceIdeal.Gen Idealize.ShloMosaic Idealize.ShloMosaic.ValueIdx
open Cert.ReferenceIdeal.ReadP Cert.Spec Cert.RefLayout

/-! ## The point and its clipped image coordinates -/

/-- The zero word subtracted from is a negation. -/
theorem lit_zero_sub (a : EReal) : lit 0x00000000#32 - a = -a := by
  rw [show lit 0x00000000#32 = 0 from Ideal.ofBits_zero_f32, zero_sub]

/-- Row n of the point array read at a natural-number column below 3. -/
theorem tab2_at (x0 : S200000x3.Idx → EReal) (n : Fin 200000) (k : Fin 3) : tab2 x0 n.val k.val = x0 (ix2 n k) := by
  unfold tab2
  rw [dif_pos ⟨n.isLt, k.isLt⟩]

/-- The first coordinate of point n. -/
theorem v1_at (x0 : S200000x3.Idx → EReal) (n : Fin 200000) : val_main_v1 (F := Ideal) x0 (ix1 n) = tab2 x0 n.val 0 := by
  rw [val_main_v1_apply, val_main_v0_apply,
    show idx_main_v0 (idx_main_v1 (ix1 n)) = ix2 n (0 : Fin 3) from funext fun a => Fin.ext (by
      match a with
      | ⟨0, _⟩ => exact Nat.div_one _
      | ⟨1, _⟩ => rfl)]
  exact (tab2_at x0 n 0).symm

/-- The second coordinate of point n. -/
theorem v3_at (x0 : S200000x3.Idx → EReal) (n : Fin 200000) : val_main_v3 (F := Ideal) x0 (ix1 n) = tab2 x0 n.val 1 := by
  rw [val_main_v3_apply, val_main_v2_apply,
    show idx_main_v2 (idx_main_v3 (ix1 n)) = ix2 n (1 : Fin 3) from funext fun a => Fin.ext (by
      match a with
      | ⟨0, _⟩ => exact Nat.div_one _
      | ⟨1, _⟩ => rfl)]
  exact (tab2_at x0 n 1).symm

/-- The third coordinate of point n. -/
theorem v5_at (x0 : S200000x3.Idx → EReal) (n : Fin 200000) : val_main_v5 (F := Ideal) x0 (ix1 n) = tab2 x0 n.val 2 := by
  rw [val_main_v5_apply, val_main_v4_apply,
    show idx_main_v4 (idx_main_v5 (ix1 n)) = ix2 n (2 : Fin 3) from funext fun a => Fin.ext (by
      match a with
      | ⟨0, _⟩ => exact Nat.div_one _
      | ⟨1, _⟩ => rfl)]
  exact (tab2_at x0 n 2).symm

/-- The clipped image row coordinate of point n. -/
def hC (x0 : S200000x3.Idx → EReal) (n : Fin 200000) : EReal := clip (rowPre (tab2 x0 n.val 1) (tab2 x0 n.val 2))

/-- The clipped image column coordinate of point n. -/
def wC (x0 : S200000x3.Idx → EReal) (n : Fin 200000) : EReal := clip (colPre (tab2 x0 n.val 0) (tab2 x0 n.val 2))

/-- The clipped row stage at point n: 112·(−y)/(−z) + 111.5 clipped, the negations spelt as differences from zero. -/
theorem v19_at (x0 : S200000x3.Idx → EReal) (n : Fin 200000) : val_main_v19 (F := Ideal) x0 (ix1 n) = hC x0 n := by
  show clip (Ideal.div (lit 0x42E00000#32 * -(val_main_v3 (F := Ideal) x0 (ix1 n))) (-(val_main_v5 (F := Ideal) x0 (ix1 n)))
    + lit 0x42DF0000#32) = _
  rw [v3_at, v5_at]
  unfold hC rowPre
  rw [lit_zero_sub, lit_zero_sub]

/-- The clipped column stage at point n: 112·x/(−z) + 111.5 clipped. -/
theorem v20_at (x0 : S200000x3.Idx → EReal) (n : Fin 200000) : val_main_v20 (F := Ideal) x0 (ix1 n) = wC x0 n := by
  show clip (Ideal.div (lit 0x42E00000#32 * val_main_v1 (F := Ideal) x0 (ix1 n)) (-(val_main_v5 (F := Ideal) x0 (ix1 n)))
    + lit 0x42DF0000#32) = _
  rw [v1_at, v5_at]
  unfold wC colPre
  rw [lit_zero_sub]

/-! ## Scale 1: grid side 56, 64 channels -/

/-- The grid row coordinate of point n at this scale. -/
def s1 (x0 : S200000x3.Idx → EReal) (n : Fin 200000) : EReal := Ideal.div (hC x0 n) (lit 0x40800000#32)

/-- The grid column coordinate of point n at this scale. -/
def t1 (x0 : S200000x3.Idx → EReal) (n : Fin 200000) : EReal := Ideal.div (wC x0 n) (lit 0x40800000#32)

section
variable (x0 : S200000x3.Idx → EReal) (x1 : S56x56x64.Idx → EReal) (n : Fin 200000)

theorem v22_at : val_main_v22 (F := Ideal) x0 (ix1 n) = s1 x0 n := by
  show Ideal.div (val_main_v19 (F := Ideal) x0 (ix1 n)) (lit 0x40800000#32) = _
  rw [v19_at]; rfl

theorem v24_at : val_main_v24 (F := Ideal) x0 (ix1 n) = t1 x0 n := by
  show Ideal.div (val_main_v20 (F := Ideal) x0 (ix1 n)) (lit 0x40800000#32) = _
  rw [v20_at]; rfl

theorem v25_at : val_main_v25 (F := Ideal) x0 (ix1 n) = fl (s1 x0 n) := by
  show Ideal.liftRound Int.floor (val_main_v22 (F := Ideal) x0 (ix1 n)) = _
  rw [v22_at]; rfl

theorem v26_at : val_main_v26 (F := Ideal) x0 (ix1 n) = ce (s1 x0 n) := by
  show Ideal.liftRound Int.ceil (val_main_v22 (F := Ideal) x0 (ix1 n)) = _
  rw [v22_at]; rfl

theorem v27_at : val_main_v27 (F := Ideal) x0 (ix1 n) = fl (t1 x0 n) := by
  show Ideal.liftRound Int.floor (val_main_v24 (F := Ideal) x0 (ix1 n)) = _
  rw [v24_at]; rfl

theorem v28_at : val_main_v28 (F := Ideal) x0 (ix1 n) = ce (t1 x0 n) := by
  show Ideal.liftRound Int.ceil (val_main_v24 (F := Ideal) x0 (ix1 n)) = _
  rw [v24_at]; rfl

theorem v29_at : val_main_v29 (F := Ideal) x0 (ix1 n) = Ideal.fptosi 32 (fl (s1 x0 n)) := by
  show Ideal.fptosi 32 (val_main_v25 (F := Ideal) x0 (ix1 n)) = _
  rw [v25_at]

theorem v30_at : val_main_v30 (F := Ideal) x0 (ix1 n) = Ideal.fptosi 32 (ce (s1 x0 n)) := by
  show Ideal.fptosi 32 (val_main_v26 (F := Ideal) x0 (ix1 n)) = _
  rw [v26_at]

theorem v31_at : val_main_v31 (F := Ideal) x0 (ix1 n) = Ideal.fptosi 32 (fl (t1 x0 n)) := by
  show Ideal.fptosi 32 (val_main_v27 (F := Ideal) x0 (ix1 n)) = _
  rw [v27_at]

theorem v32_at : val_main_v32 (F := Ideal) x0 (ix1 n) = Ideal.fptosi 32 (ce (t1 x0 n)) := by
  show Ideal.fptosi 32 (val_main_v28 (F := Ideal) x0 (ix1 n)) = _
  rw [v28_at]

/-- A cell word wrapped: the floor of the grid row coordinate. -/
theorem v37_at : val_main_v37 (F := Ideal) x0 (ix1 n) = rWord 56 (fl (s1 x0 n)) := by
  show Scalar.select (IntOp.cmpi .slt (val_main_v29 (F := Ideal) x0 (ix1 n)) 0#32)
    (IntOp.addi (val_main_v29 (F := Ideal) x0 (ix1 n)) 56#32) (val_main_v29 (F := Ideal) x0 (ix1 n)) = _
  rw [select_slt_wrap, v29_at]; rfl

/-- A cell word wrapped: the floor of the grid column coordinate. -/
theorem v42_at : val_main_v42 (F := Ideal) x0 (ix1 n) = rWord 56 (fl (t1 x0 n)) := by
  show Scalar.select (IntOp.cmpi .slt (val_main_v31 (F := Ideal) x0 (ix1 n)) 0#32)
    (IntOp.addi (val_main_v31 (F := Ideal) x0 (ix1 n)) 56#32) (val_main_v31 (F := Ideal) x0 (ix1 n)) = _
  rw [select_slt_wrap, v31_at]; rfl

/-- A cell word wrapped: the floor of the grid row coordinate. -/
theorem v51_at : val_main_v51 (F := Ideal) x0 (ix1 n) = rWord 56 (fl (s1 x0 n)) := by
  show Scalar.select (IntOp.cmpi .slt (val_main_v29 (F := Ideal) x0 (ix1 n)) 0#32)
    (IntOp.addi (val_main_v29 (F := Ideal) x0 (ix1 n)) 56#32) (val_main_v29 (F := Ideal) x0 (ix1 n)) = _
  rw [select_slt_wrap, v29_at]; rfl

/-- A cell word wrapped: the ceiling of the grid column coordinate. -/
theorem v56_at : val_main_v56 (F := Ideal) x0 (ix1 n) = rWord 56 (ce (t1 x0 n)) := by
  show Scalar.select (IntOp.cmpi .slt (val_main_v32 (F := Ideal) x0 (ix1 n)) 0#32)
    (IntOp.addi (val_main_v32 (F := Ideal) x0 (ix1 n)) 56#32) (val_main_v32 (F := Ideal) x0 (ix1 n)) = _
  rw [select_slt_wrap, v32_at]; rfl

/-- A cell word wrapped: the ceiling of the grid row coordinate. -/
theorem v65_at : val_main_v65 (F := Ideal) x0 (ix1 n) = rWord 56 (ce (s1 x0 n)) := by
  show Scalar.select (IntOp.cmpi .slt (val_main_v30 (F := Ideal) x0 (ix1 n)) 0#32)
    (IntOp.addi (val_main_v30 (F := Ideal) x0 (ix1 n)) 56#32) (val_main_v30 (F := Ideal) x0 (ix1 n)) = _
  rw [select_slt_wrap, v30_at]; rfl

/-- A cell word wrapped: the floor of the grid column coordinate. -/
theorem v70_at : val_main_v70 (F := Ideal) x0 (ix1 n) = rWord 56 (fl (t1 x0 n)) := by
  show Scalar.select (IntOp.cmpi .slt (val_main_v31 (F := Ideal) x0 (ix1 n)) 0#32)
    (IntOp.addi (val_main_v31 (F := Ideal) x0 (ix1 n)) 56#32) (val_main_v31 (F := Ideal) x0 (ix1 n)) = _
  rw [select_slt_wrap, v31_at]; rfl

/-- A cell word wrapped: the ceiling of the grid row coordinate. -/
theorem v79_at : val_main_v79 (F := Ideal) x0 (ix1 n) = rWord 56 (ce (s1 x0 n)) := by
  show Scalar.select (IntOp.cmpi .slt (val_main_v30 (F := Ideal) x0 (ix1 n)) 0#32)
    (IntOp.addi (val_main_v30 (F := Ideal) x0 (ix1 n)) 56#32) (val_main_v30 (F := Ideal) x0 (ix1 n)) = _
  rw [select_slt_wrap, v30_at]; rfl

/-- A cell word wrapped: the ceiling of the grid column coordinate. -/
theorem v84_at : val_main_v84 (F := Ideal) x0 (ix1 n) = rWord 56 (ce (t1 x0 n)) := by
  show Scalar.select (IntOp.cmpi .slt (val_main_v32 (F := Ideal) x0 (ix1 n)) 0#32)
    (IntOp.addi (val_main_v32 (F := Ideal) x0 (ix1 n)) 56#32) (val_main_v32 (F := Ideal) x0 (ix1 n)) = _
  rw [select_slt_wrap, v32_at]; rfl

/-- The table at the cell (fl s, fl t) of point n, channel q. -/
theorem v46_at (q : Fin 64) : val_main_v46 (F := Ideal) x0 x1 (ix2 n q)
    = tab3 x1 (rCell 56 (fl (s1 x0 n))) (rCell 56 (fl (t1 x0 n))) q.val := by
  unfold val_main_v46 val_main_v45
  refine (gather_cols_apply (H := 56) (C := 64) (N := 200000) (by decide) gather_S56x56x64_S200000x2_S200000x64_1_01_n_n_01_1_1164_wf
    concatenates_S200000x1_S200000x1_S200000x2_d1 x1 (val_main_v43 (F := Ideal) x0) (val_main_v44 (F := Ideal) x0) n q).trans ?_
  rw [val_main_v43_apply, val_main_v44_apply,
    show idx_main_v43 (ix2 n (0 : Fin 1)) = ix1 n from funext fun a => by match a with | ⟨0, _⟩ => rfl,
    show idx_main_v44 (ix2 n (0 : Fin 1)) = ix1 n from funext fun a => by match a with | ⟨0, _⟩ => rfl,
    v37_at, v42_at]
  rfl

/-- The table at the cell (fl s, ce t) of point n, channel q. -/
theorem v60_at (q : Fin 64) : val_main_v60 (F := Ideal) x0 x1 (ix2 n q)
    = tab3 x1 (rCell 56 (fl (s1 x0 n))) (rCell 56 (ce (t1 x0 n))) q.val := by
  unfold val_main_v60 val_main_v59
  refine (gather_cols_apply (H := 56) (C := 64) (N := 200000) (by decide) gather_S56x56x64_S200000x2_S200000x64_1_01_n_n_01_1_1164_wf
    concatenates_S200000x1_S200000x1_S200000x2_d1 x1 (val_main_v57 (F := Ideal) x0) (val_main_v58 (F := Ideal) x0) n q).trans ?_
  rw [val_main_v57_apply, val_main_v58_apply,
    show idx_main_v57 (ix2 n (0 : Fin 1)) = ix1 n from funext fun a => by match a with | ⟨0, _⟩ => rfl,
    show idx_main_v58 (ix2 n (0 : Fin 1)) = ix1 n from funext fun a => by match a with | ⟨0, _⟩ => rfl,
    v51_at, v56_at]
  rfl

/-- The table at the cell (ce s, fl t) of point n, channel q. -/
theorem v74_at (q : Fin 64) : val_main_v74 (F := Ideal) x0 x1 (ix2 n q)
    = tab3 x1 (rCell 56 (ce (s1 x0 n))) (rCell 56 (fl (t1 x0 n))) q.val := by
  unfold val_main_v74 val_main_v73
  refine (gather_cols_apply (H := 56) (C := 64) (N := 200000) (by decide) gather_S56x56x64_S200000x2_S200000x64_1_01_n_n_01_1_1164_wf
    concatenates_S200000x1_S200000x1_S200000x2_d1 x1 (val_main_v71 (F := Ideal) x0) (val_main_v72 (F := Ideal) x0) n q).trans ?_
  rw [val_main_v71_apply, val_main_v72_apply,
    show idx_main_v71 (ix2 n (0 : Fin 1)) = ix1 n from funext fun a => by match a with | ⟨0, _⟩ => rfl,
    show idx_main_v72 (ix2 n (0 : Fin 1)) = ix1 n from funext fun a => by match a with | ⟨0, _⟩ => rfl,
    v65_at, v70_at]
  rfl

/-- The table at the cell (ce s, ce t) of point n, channel q. -/
theorem v88_at (q : Fin 64) : val_main_v88 (F := Ideal) x0 x1 (ix2 n q)
    = tab3 x1 (rCell 56 (ce (s1 x0 n))) (rCell 56 (ce (t1 x0 n))) q.val := by
  unfold val_main_v88 val_main_v87
  refine (gather_cols_apply (H := 56) (C := 64) (N := 200000) (by decide) gather_S56x56x64_S200000x2_S200000x64_1_01_n_n_01_1_1164_wf
    concatenates_S200000x1_S200000x1_S200000x2_d1 x1 (val_main_v85 (F := Ideal) x0) (val_main_v86 (F := Ideal) x0) n q).trans ?_
  rw [val_main_v85_apply, val_main_v86_apply,
    show idx_main_v85 (ix2 n (0 : Fin 1)) = ix1 n from funext fun a => by match a with | ⟨0, _⟩ => rfl,
    show idx_main_v86 (ix2 n (0 : Fin 1)) = ix1 n from funext fun a => by match a with | ⟨0, _⟩ => rfl,
    v79_at, v84_at]
  rfl

/-- The weight w11 of point n, spread over the channels. -/
theorem v105_at (q : Fin 64) : val_main_v105 (F := Ideal) x0 (ix2 n q) = w11 (s1 x0 n) (t1 x0 n) := by
  rw [val_main_v105_apply,
    show idx_main_v105 (ix2 n q) = ix2 n (0 : Fin 1) from funext fun a => by match a with | ⟨0, _⟩ => rfl | ⟨1, _⟩ => rfl,
    val_main_v92_apply,
    show idx_main_v92 (ix2 n (0 : Fin 1)) = ix1 n from funext fun a => by match a with | ⟨0, _⟩ => rfl]
  show (val_main_v26 (F := Ideal) x0 (ix1 n) - val_main_v22 (F := Ideal) x0 (ix1 n))
    * (val_main_v28 (F := Ideal) x0 (ix1 n) - val_main_v24 (F := Ideal) x0 (ix1 n)) = _
  rw [v26_at, v22_at, v28_at, v24_at]; rfl

/-- The weight w21 of point n, spread over the channels. -/
theorem v107_at (q : Fin 64) : val_main_v107 (F := Ideal) x0 (ix2 n q) = w21 (s1 x0 n) (t1 x0 n) := by
  rw [val_main_v107_apply,
    show idx_main_v107 (ix2 n q) = ix2 n (0 : Fin 1) from funext fun a => by match a with | ⟨0, _⟩ => rfl | ⟨1, _⟩ => rfl,
    val_main_v96_apply,
    show idx_main_v96 (ix2 n (0 : Fin 1)) = ix1 n from funext fun a => by match a with | ⟨0, _⟩ => rfl]
  show (val_main_v22 (F := Ideal) x0 (ix1 n) - val_main_v25 (F := Ideal) x0 (ix1 n))
    * (val_main_v28 (F := Ideal) x0 (ix1 n) - val_main_v24 (F := Ideal) x0 (ix1 n)) = _
  rw [v22_at, v25_at, v28_at, v24_at]; rfl

/-- The weight w12 of point n, spread over the channels. -/
theorem v110_at (q : Fin 64) : val_main_v110 (F := Ideal) x0 (ix2 n q) = w12 (s1 x0 n) (t1 x0 n) := by
  rw [val_main_v110_apply,
    show idx_main_v110 (ix2 n q) = ix2 n (0 : Fin 1) from funext fun a => by match a with | ⟨0, _⟩ => rfl | ⟨1, _⟩ => rfl,
    val_main_v100_apply,
    show idx_main_v100 (ix2 n (0 : Fin 1)) = ix1 n from funext fun a => by match a with | ⟨0, _⟩ => rfl]
  show (val_main_v26 (F := Ideal) x0 (ix1 n) - val_main_v22 (F := Ideal) x0 (ix1 n))
    * (val_main_v24 (F := Ideal) x0 (ix1 n) - val_main_v27 (F := Ideal) x0 (ix1 n)) = _
  rw [v26_at, v22_at, v24_at, v27_at]; rfl

/-- The weight w22 of point n, spread over the channels. -/
theorem v113_at (q : Fin 64) : val_main_v113 (F := Ideal) x0 (ix2 n q) = w22 (s1 x0 n) (t1 x0 n) := by
  rw [val_main_v113_apply,
    show idx_main_v113 (ix2 n q) = ix2 n (0 : Fin 1) from funext fun a => by match a with | ⟨0, _⟩ => rfl | ⟨1, _⟩ => rfl,
    val_main_v104_apply,
    show idx_main_v104 (ix2 n (0 : Fin 1)) = ix1 n from funext fun a => by match a with | ⟨0, _⟩ => rfl]
  show (val_main_v22 (F := Ideal) x0 (ix1 n) - val_main_v25 (F := Ideal) x0 (ix1 n))
    * (val_main_v24 (F := Ideal) x0 (ix1 n) - val_main_v27 (F := Ideal) x0 (ix1 n)) = _
  rw [v22_at, v25_at, v24_at, v27_at]; rfl

/-- The blended feature row of point n at this scale, entry q: the four-cell spelling. -/
theorem v115_at (q : Fin 64) : val_main_v115 (F := Ideal) x0 x1 (ix2 n q)
    = projR 56 (s1 x0 n) (t1 x0 n) (fun a b => tab3 x1 a b q.val) := by
  show ((val_main_v105 (F := Ideal) x0 (ix2 n q) * val_main_v46 (F := Ideal) x0 x1 (ix2 n q)
      + val_main_v107 (F := Ideal) x0 (ix2 n q) * val_main_v74 (F := Ideal) x0 x1 (ix2 n q))
      + val_main_v110 (F := Ideal) x0 (ix2 n q) * val_main_v60 (F := Ideal) x0 x1 (ix2 n q))
      + val_main_v113 (F := Ideal) x0 (ix2 n q) * val_main_v88 (F := Ideal) x0 x1 (ix2 n q) = _
  rw [v105_at, v46_at, v107_at, v74_at, v110_at, v60_at, v113_at, v88_at]
  rfl

end

/-! ## Scale 2: grid side 28, 128 channels -/

/-- The grid row coordinate of point n at this scale. -/
def s2 (x0 : S200000x3.Idx → EReal) (n : Fin 200000) : EReal := Ideal.div (hC x0 n) (lit 0x41000000#32)

/-- The grid column coordinate of point n at this scale. -/
def t2 (x0 : S200000x3.Idx → EReal) (n : Fin 200000) : EReal := Ideal.div (wC x0 n) (lit 0x41000000#32)

section
variable (x0 : S200000x3.Idx → EReal) (x1 : S28x28x128.Idx → EReal) (n : Fin 200000)

theorem v117_at : val_main_v117 (F := Ideal) x0 (ix1 n) = s2 x0 n := by
  show Ideal.div (val_main_v19 (F := Ideal) x0 (ix1 n)) (lit 0x41000000#32) = _
  rw [v19_at]; rfl

theorem v119_at : val_main_v119 (F := Ideal) x0 (ix1 n) = t2 x0 n := by
  show Ideal.div (val_main_v20 (F := Ideal) x0 (ix1 n)) (lit 0x41000000#32) = _
  rw [v20_at]; rfl

theorem v120_at : val_main_v120 (F := Ideal) x0 (ix1 n) = fl (s2 x0 n) := by
  show Ideal.liftRound Int.floor (val_main_v117 (F := Ideal) x0 (ix1 n)) = _
  rw [v117_at]; rfl

theorem v121_at : val_main_v121 (F := Ideal) x0 (ix1 n) = ce (s2 x0 n) := by
  show Ideal.liftRound Int.ceil (val_main_v117 (F := Ideal) x0 (ix1 n)) = _
  rw [v117_at]; rfl

theorem v122_at : val_main_v122 (F := Ideal) x0 (ix1 n) = fl (t2 x0 n) := by
  show Ideal.liftRound Int.floor (val_main_v119 (F := Ideal) x0 (ix1 n)) = _
  rw [v119_at]; rfl

theorem v123_at : val_main_v123 (F := Ideal) x0 (ix1 n) = ce (t2 x0 n) := by
  show Ideal.liftRound Int.ceil (val_main_v119 (F := Ideal) x0 (ix1 n)) = _
  rw [v119_at]; rfl

theorem v124_at : val_main_v124 (F := Ideal) x0 (ix1 n) = Ideal.fptosi 32 (fl (s2 x0 n)) := by
  show Ideal.fptosi 32 (val_main_v120 (F := Ideal) x0 (ix1 n)) = _
  rw [v120_at]

theorem v125_at : val_main_v125 (F := Ideal) x0 (ix1 n) = Ideal.fptosi 32 (ce (s2 x0 n)) := by
  show Ideal.fptosi 32 (val_main_v121 (F := Ideal) x0 (ix1 n)) = _
  rw [v121_at]

theorem v126_at : val_main_v126 (F := Ideal) x0 (ix1 n) = Ideal.fptosi 32 (fl (t2 x0 n)) := by
  show Ideal.fptosi 32 (val_main_v122 (F := Ideal) x0 (ix1 n)) = _
  rw [v122_at]

theorem v127_at : val_main_v127 (F := Ideal) x0 (ix1 n) = Ideal.fptosi 32 (ce (t2 x0 n)) := by
  show Ideal.fptosi 32 (val_main_v123 (F := Ideal) x0 (ix1 n)) = _
  rw [v123_at]

/-- A cell word wrapped: the floor of the grid row coordinate. -/
theorem v132_at : val_main_v132 (F := Ideal) x0 (ix1 n) = rWord 28 (fl (s2 x0 n)) := by
  show Scalar.select (IntOp.cmpi .slt (val_main_v124 (F := Ideal) x0 (ix1 n)) 0#32)
    (IntOp.addi (val_main_v124 (F := Ideal) x0 (ix1 n)) 28#32) (val_main_v124 (F := Ideal) x0 (ix1 n)) = _
  rw [select_slt_wrap, v124_at]; rfl

/-- A cell word wrapped: the floor of the grid column coordinate. -/
theorem v137_at : val_main_v137 (F := Ideal) x0 (ix1 n) = rWord 28 (fl (t2 x0 n)) := by
  show Scalar.select (IntOp.cmpi .slt (val_main_v126 (F := Ideal) x0 (ix1 n)) 0#32)
    (IntOp.addi (val_main_v126 (F := Ideal) x0 (ix1 n)) 28#32) (val_main_v126 (F := Ideal) x0 (ix1 n)) = _
  rw [select_slt_wrap, v126_at]; rfl

/-- A cell word wrapped: the floor of the grid row coordinate. -/
theorem v146_at : val_main_v146 (F := Ideal) x0 (ix1 n) = rWord 28 (fl (s2 x0 n)) := by
  show Scalar.select (IntOp.cmpi .slt (val_main_v124 (F := Ideal) x0 (ix1 n)) 0#32)
    (IntOp.addi (val_main_v124 (F := Ideal) x0 (ix1 n)) 28#32) (val_main_v124 (F := Ideal) x0 (ix1 n)) = _
  rw [select_slt_wrap, v124_at]; rfl

/-- A cell word wrapped: the ceiling of the grid column coordinate. -/
theorem v151_at : val_main_v151 (F := Ideal) x0 (ix1 n) = rWord 28 (ce (t2 x0 n)) := by
  show Scalar.select (IntOp.cmpi .slt (val_main_v127 (F := Ideal) x0 (ix1 n)) 0#32)
    (IntOp.addi (val_main_v127 (F := Ideal) x0 (ix1 n)) 28#32) (val_main_v127 (F := Ideal) x0 (ix1 n)) = _
  rw [select_slt_wrap, v127_at]; rfl

/-- A cell word wrapped: the ceiling of the grid row coordinate. -/
theorem v160_at : val_main_v160 (F := Ideal) x0 (ix1 n) = rWord 28 (ce (s2 x0 n)) := by
  show Scalar.select (IntOp.cmpi .slt (val_main_v125 (F := Ideal) x0 (ix1 n)) 0#32)
    (IntOp.addi (val_main_v125 (F := Ideal) x0 (ix1 n)) 28#32) (val_main_v125 (F := Ideal) x0 (ix1 n)) = _
  rw [select_slt_wrap, v125_at]; rfl

/-- A cell word wrapped: the floor of the grid column coordinate. -/
theorem v165_at : val_main_v165 (F := Ideal) x0 (ix1 n) = rWord 28 (fl (t2 x0 n)) := by
  show Scalar.select (IntOp.cmpi .slt (val_main_v126 (F := Ideal) x0 (ix1 n)) 0#32)
    (IntOp.addi (val_main_v126 (F := Ideal) x0 (ix1 n)) 28#32) (val_main_v126 (F := Ideal) x0 (ix1 n)) = _
  rw [select_slt_wrap, v126_at]; rfl

/-- A cell word wrapped: the ceiling of the grid row coordinate. -/
theorem v174_at : val_main_v174 (F := Ideal) x0 (ix1 n) = rWord 28 (ce (s2 x0 n)) := by
  show Scalar.select (IntOp.cmpi .slt (val_main_v125 (F := Ideal) x0 (ix1 n)) 0#32)
    (IntOp.addi (val_main_v125 (F := Ideal) x0 (ix1 n)) 28#32) (val_main_v125 (F := Ideal) x0 (ix1 n)) = _
  rw [select_slt_wrap, v125_at]; rfl

/-- A cell word wrapped: the ceiling of the grid column coordinate. -/
theorem v179_at : val_main_v179 (F := Ideal) x0 (ix1 n) = rWord 28 (ce (t2 x0 n)) := by
  show Scalar.select (IntOp.cmpi .slt (val_main_v127 (F := Ideal) x0 (ix1 n)) 0#32)
    (IntOp.addi (val_main_v127 (F := Ideal) x0 (ix1 n)) 28#32) (val_main_v127 (F := Ideal) x0 (ix1 n)) = _
  rw [select_slt_wrap, v127_at]; rfl

/-- The table at the cell (fl s, fl t) of point n, channel q. -/
theorem v141_at (q : Fin 128) : val_main_v141 (F := Ideal) x0 x1 (ix2 n q)
    = tab3 x1 (rCell 28 (fl (s2 x0 n))) (rCell 28 (fl (t2 x0 n))) q.val := by
  unfold val_main_v141 val_main_v140
  refine (gather_cols_apply (H := 28) (C := 128) (N := 200000) (by decide) gather_S28x28x128_S200000x2_S200000x128_1_01_n_n_01_1_11128_wf
    concatenates_S200000x1_S200000x1_S200000x2_d1 x1 (val_main_v138 (F := Ideal) x0) (val_main_v139 (F := Ideal) x0) n q).trans ?_
  rw [val_main_v138_apply, val_main_v139_apply,
    show idx_main_v138 (ix2 n (0 : Fin 1)) = ix1 n from funext fun a => by match a with | ⟨0, _⟩ => rfl,
    show idx_main_v139 (ix2 n (0 : Fin 1)) = ix1 n from funext fun a => by match a with | ⟨0, _⟩ => rfl,
    v132_at, v137_at]
  rfl

/-- The table at the cell (fl s, ce t) of point n, channel q. -/
theorem v155_at (q : Fin 128) : val_main_v155 (F := Ideal) x0 x1 (ix2 n q)
    = tab3 x1 (rCell 28 (fl (s2 x0 n))) (rCell 28 (ce (t2 x0 n))) q.val := by
  unfold val_main_v155 val_main_v154
  refine (gather_cols_apply (H := 28) (C := 128) (N := 200000) (by decide) gather_S28x28x128_S200000x2_S200000x128_1_01_n_n_01_1_11128_wf
    concatenates_S200000x1_S200000x1_S200000x2_d1 x1 (val_main_v152 (F := Ideal) x0) (val_main_v153 (F := Ideal) x0) n q).trans ?_
  rw [val_main_v152_apply, val_main_v153_apply,
    show idx_main_v152 (ix2 n (0 : Fin 1)) = ix1 n from funext fun a => by match a with | ⟨0, _⟩ => rfl,
    show idx_main_v153 (ix2 n (0 : Fin 1)) = ix1 n from funext fun a => by match a with | ⟨0, _⟩ => rfl,
    v146_at, v151_at]
  rfl

/-- The table at the cell (ce s, fl t) of point n, channel q. -/
theorem v169_at (q : Fin 128) : val_main_v169 (F := Ideal) x0 x1 (ix2 n q)
    = tab3 x1 (rCell 28 (ce (s2 x0 n))) (rCell 28 (fl (t2 x0 n))) q.val := by
  unfold val_main_v169 val_main_v168
  refine (gather_cols_apply (H := 28) (C := 128) (N := 200000) (by decide) gather_S28x28x128_S200000x2_S200000x128_1_01_n_n_01_1_11128_wf
    concatenates_S200000x1_S200000x1_S200000x2_d1 x1 (val_main_v166 (F := Ideal) x0) (val_main_v167 (F := Ideal) x0) n q).trans ?_
  rw [val_main_v166_apply, val_main_v167_apply,
    show idx_main_v166 (ix2 n (0 : Fin 1)) = ix1 n from funext fun a => by match a with | ⟨0, _⟩ => rfl,
    show idx_main_v167 (ix2 n (0 : Fin 1)) = ix1 n from funext fun a => by match a with | ⟨0, _⟩ => rfl,
    v160_at, v165_at]
  rfl

/-- The table at the cell (ce s, ce t) of point n, channel q. -/
theorem v183_at (q : Fin 128) : val_main_v183 (F := Ideal) x0 x1 (ix2 n q)
    = tab3 x1 (rCell 28 (ce (s2 x0 n))) (rCell 28 (ce (t2 x0 n))) q.val := by
  unfold val_main_v183 val_main_v182
  refine (gather_cols_apply (H := 28) (C := 128) (N := 200000) (by decide) gather_S28x28x128_S200000x2_S200000x128_1_01_n_n_01_1_11128_wf
    concatenates_S200000x1_S200000x1_S200000x2_d1 x1 (val_main_v180 (F := Ideal) x0) (val_main_v181 (F := Ideal) x0) n q).trans ?_
  rw [val_main_v180_apply, val_main_v181_apply,
    show idx_main_v180 (ix2 n (0 : Fin 1)) = ix1 n from funext fun a => by match a with | ⟨0, _⟩ => rfl,
    show idx_main_v181 (ix2 n (0 : Fin 1)) = ix1 n from funext fun a => by match a with | ⟨0, _⟩ => rfl,
    v174_at, v179_at]
  rfl

/-- The weight w11 of point n, spread over the channels. -/
theorem v200_at (q : Fin 128) : val_main_v200 (F := Ideal) x0 (ix2 n q) = w11 (s2 x0 n) (t2 x0 n) := by
  rw [val_main_v200_apply,
    show idx_main_v200 (ix2 n q) = ix2 n (0 : Fin 1) from funext fun a => by match a with | ⟨0, _⟩ => rfl | ⟨1, _⟩ => rfl,
    val_main_v187_apply,
    show idx_main_v187 (ix2 n (0 : Fin 1)) = ix1 n from funext fun a => by match a with | ⟨0, _⟩ => rfl]
  show (val_main_v121 (F := Ideal) x0 (ix1 n) - val_main_v117 (F := Ideal) x0 (ix1 n))
    * (val_main_v123 (F := Ideal) x0 (ix1 n) - val_main_v119 (F := Ideal) x0 (ix1 n)) = _
  rw [v121_at, v117_at, v123_at, v119_at]; rfl

/-- The weight w21 of point n, spread over the channels. -/
theorem v202_at (q : Fin 128) : val_main_v202 (F := Ideal) x0 (ix2 n q) = w21 (s2 x0 n) (t2 x0 n) := by
  rw [val_main_v202_apply,
    show idx_main_v202 (ix2 n q) = ix2 n (0 : Fin 1) from funext fun a => by match a with | ⟨0, _⟩ => rfl | ⟨1, _⟩ => rfl,
    val_main_v191_apply,
    show idx_main_v191 (ix2 n (0 : Fin 1)) = ix1 n from funext fun a => by match a with | ⟨0, _⟩ => rfl]
  show (val_main_v117 (F := Ideal) x0 (ix1 n) - val_main_v120 (F := Ideal) x0 (ix1 n))
    * (val_main_v123 (F := Ideal) x0 (ix1 n) - val_main_v119 (F := Ideal) x0 (ix1 n)) = _
  rw [v117_at, v120_at, v123_at, v119_at]; rfl

/-- The weight w12 of point n, spread over the channels. -/
theorem v205_at (q : Fin 128) : val_main_v205 (F := Ideal) x0 (ix2 n q) = w12 (s2 x0 n) (t2 x0 n) := by
  rw [val_main_v205_apply,
    show idx_main_v205 (ix2 n q) = ix2 n (0 : Fin 1) from funext fun a => by match a with | ⟨0, _⟩ => rfl | ⟨1, _⟩ => rfl,
    val_main_v195_apply,
    show idx_main_v195 (ix2 n (0 : Fin 1)) = ix1 n from funext fun a => by match a with | ⟨0, _⟩ => rfl]
  show (val_main_v121 (F := Ideal) x0 (ix1 n) - val_main_v117 (F := Ideal) x0 (ix1 n))
    * (val_main_v119 (F := Ideal) x0 (ix1 n) - val_main_v122 (F := Ideal) x0 (ix1 n)) = _
  rw [v121_at, v117_at, v119_at, v122_at]; rfl

/-- The weight w22 of point n, spread over the channels. -/
theorem v208_at (q : Fin 128) : val_main_v208 (F := Ideal) x0 (ix2 n q) = w22 (s2 x0 n) (t2 x0 n) := by
  rw [val_main_v208_apply,
    show idx_main_v208 (ix2 n q) = ix2 n (0 : Fin 1) from funext fun a => by match a with | ⟨0, _⟩ => rfl | ⟨1, _⟩ => rfl,
    val_main_v199_apply,
    show idx_main_v199 (ix2 n (0 : Fin 1)) = ix1 n from funext fun a => by match a with | ⟨0, _⟩ => rfl]
  show (val_main_v117 (F := Ideal) x0 (ix1 n) - val_main_v120 (F := Ideal) x0 (ix1 n))
    * (val_main_v119 (F := Ideal) x0 (ix1 n) - val_main_v122 (F := Ideal) x0 (ix1 n)) = _
  rw [v117_at, v120_at, v119_at, v122_at]; rfl

/-- The blended feature row of point n at this scale, entry q: the four-cell spelling. -/
theorem v210_at (q : Fin 128) : val_main_v210 (F := Ideal) x0 x1 (ix2 n q)
    = projR 28 (s2 x0 n) (t2 x0 n) (fun a b => tab3 x1 a b q.val) := by
  show ((val_main_v200 (F := Ideal) x0 (ix2 n q) * val_main_v141 (F := Ideal) x0 x1 (ix2 n q)
      + val_main_v202 (F := Ideal) x0 (ix2 n q) * val_main_v169 (F := Ideal) x0 x1 (ix2 n q))
      + val_main_v205 (F := Ideal) x0 (ix2 n q) * val_main_v155 (F := Ideal) x0 x1 (ix2 n q))
      + val_main_v208 (F := Ideal) x0 (ix2 n q) * val_main_v183 (F := Ideal) x0 x1 (ix2 n q) = _
  rw [v200_at, v141_at, v202_at, v169_at, v205_at, v155_at, v208_at, v183_at]
  rfl

end

/-! ## Scale 3: grid side 14, 256 channels -/

/-- The grid row coordinate of point n at this scale. -/
def s3 (x0 : S200000x3.Idx → EReal) (n : Fin 200000) : EReal := Ideal.div (hC x0 n) (lit 0x41800000#32)

/-- The grid column coordinate of point n at this scale. -/
def t3 (x0 : S200000x3.Idx → EReal) (n : Fin 200000) : EReal := Ideal.div (wC x0 n) (lit 0x41800000#32)

section
variable (x0 : S200000x3.Idx → EReal) (x1 : S14x14x256.Idx → EReal) (n : Fin 200000)

theorem v212_at : val_main_v212 (F := Ideal) x0 (ix1 n) = s3 x0 n := by
  show Ideal.div (val_main_v19 (F := Ideal) x0 (ix1 n)) (lit 0x41800000#32) = _
  rw [v19_at]; rfl

theorem v214_at : val_main_v214 (F := Ideal) x0 (ix1 n) = t3 x0 n := by
  show Ideal.div (val_main_v20 (F := Ideal) x0 (ix1 n)) (lit 0x41800000#32) = _
  rw [v20_at]; rfl

theorem v215_at : val_main_v215 (F := Ideal) x0 (ix1 n) = fl (s3 x0 n) := by
  show Ideal.liftRound Int.floor (val_main_v212 (F := Ideal) x0 (ix1 n)) = _
  rw [v212_at]; rfl

theorem v216_at : val_main_v216 (F := Ideal) x0 (ix1 n) = ce (s3 x0 n) := by
  show Ideal.liftRound Int.ceil (val_main_v212 (F := Ideal) x0 (ix1 n)) = _
  rw [v212_at]; rfl

theorem v217_at : val_main_v217 (F := Ideal) x0 (ix1 n) = fl (t3 x0 n) := by
  show Ideal.liftRound Int.floor (val_main_v214 (F := Ideal) x0 (ix1 n)) = _
  rw [v214_at]; rfl

theorem v218_at : val_main_v218 (F := Ideal) x0 (ix1 n) = ce (t3 x0 n) := by
  show Ideal.liftRound Int.ceil (val_main_v214 (F := Ideal) x0 (ix1 n)) = _
  rw [v214_at]; rfl

theorem v219_at : val_main_v219 (F := Ideal) x0 (ix1 n) = Ideal.fptosi 32 (fl (s3 x0 n)) := by
  show Ideal.fptosi 32 (val_main_v215 (F := Ideal) x0 (ix1 n)) = _
  rw [v215_at]

theorem v220_at : val_main_v220 (F := Ideal) x0 (ix1 n) = Ideal.fptosi 32 (ce (s3 x0 n)) := by
  show Ideal.fptosi 32 (val_main_v216 (F := Ideal) x0 (ix1 n)) = _
  rw [v216_at]

theorem v221_at : val_main_v221 (F := Ideal) x0 (ix1 n) = Ideal.fptosi 32 (fl (t3 x0 n)) := by
  show Ideal.fptosi 32 (val_main_v217 (F := Ideal) x0 (ix1 n)) = _
  rw [v217_at]

theorem v222_at : val_main_v222 (F := Ideal) x0 (ix1 n) = Ideal.fptosi 32 (ce (t3 x0 n)) := by
  show Ideal.fptosi 32 (val_main_v218 (F := Ideal) x0 (ix1 n)) = _
  rw [v218_at]

/-- A cell word wrapped: the floor of the grid row coordinate. -/
theorem v227_at : val_main_v227 (F := Ideal) x0 (ix1 n) = rWord 14 (fl (s3 x0 n)) := by
  show Scalar.select (IntOp.cmpi .slt (val_main_v219 (F := Ideal) x0 (ix1 n)) 0#32)
    (IntOp.addi (val_main_v219 (F := Ideal) x0 (ix1 n)) 14#32) (val_main_v219 (F := Ideal) x0 (ix1 n)) = _
  rw [select_slt_wrap, v219_at]; rfl

/-- A cell word wrapped: the floor of the grid column coordinate. -/
theorem v232_at : val_main_v232 (F := Ideal) x0 (ix1 n) = rWord 14 (fl (t3 x0 n)) := by
  show Scalar.select (IntOp.cmpi .slt (val_main_v221 (F := Ideal) x0 (ix1 n)) 0#32)
    (IntOp.addi (val_main_v221 (F := Ideal) x0 (ix1 n)) 14#32) (val_main_v221 (F := Ideal) x0 (ix1 n)) = _
  rw [select_slt_wrap, v221_at]; rfl

/-- A cell word wrapped: the floor of the grid row coordinate. -/
theorem v241_at : val_main_v241 (F := Ideal) x0 (ix1 n) = rWord 14 (fl (s3 x0 n)) := by
  show Scalar.select (IntOp.cmpi .slt (val_main_v219 (F := Ideal) x0 (ix1 n)) 0#32)
    (IntOp.addi (val_main_v219 (F := Ideal) x0 (ix1 n)) 14#32) (val_main_v219 (F := Ideal) x0 (ix1 n)) = _
  rw [select_slt_wrap, v219_at]; rfl

/-- A cell word wrapped: the ceiling of the grid column coordinate. -/
theorem v246_at : val_main_v246 (F := Ideal) x0 (ix1 n) = rWord 14 (ce (t3 x0 n)) := by
  show Scalar.select (IntOp.cmpi .slt (val_main_v222 (F := Ideal) x0 (ix1 n)) 0#32)
    (IntOp.addi (val_main_v222 (F := Ideal) x0 (ix1 n)) 14#32) (val_main_v222 (F := Ideal) x0 (ix1 n)) = _
  rw [select_slt_wrap, v222_at]; rfl

/-- A cell word wrapped: the ceiling of the grid row coordinate. -/
theorem v255_at : val_main_v255 (F := Ideal) x0 (ix1 n) = rWord 14 (ce (s3 x0 n)) := by
  show Scalar.select (IntOp.cmpi .slt (val_main_v220 (F := Ideal) x0 (ix1 n)) 0#32)
    (IntOp.addi (val_main_v220 (F := Ideal) x0 (ix1 n)) 14#32) (val_main_v220 (F := Ideal) x0 (ix1 n)) = _
  rw [select_slt_wrap, v220_at]; rfl

/-- A cell word wrapped: the floor of the grid column coordinate. -/
theorem v260_at : val_main_v260 (F := Ideal) x0 (ix1 n) = rWord 14 (fl (t3 x0 n)) := by
  show Scalar.select (IntOp.cmpi .slt (val_main_v221 (F := Ideal) x0 (ix1 n)) 0#32)
    (IntOp.addi (val_main_v221 (F := Ideal) x0 (ix1 n)) 14#32) (val_main_v221 (F := Ideal) x0 (ix1 n)) = _
  rw [select_slt_wrap, v221_at]; rfl

/-- A cell word wrapped: the ceiling of the grid row coordinate. -/
theorem v269_at : val_main_v269 (F := Ideal) x0 (ix1 n) = rWord 14 (ce (s3 x0 n)) := by
  show Scalar.select (IntOp.cmpi .slt (val_main_v220 (F := Ideal) x0 (ix1 n)) 0#32)
    (IntOp.addi (val_main_v220 (F := Ideal) x0 (ix1 n)) 14#32) (val_main_v220 (F := Ideal) x0 (ix1 n)) = _
  rw [select_slt_wrap, v220_at]; rfl

/-- A cell word wrapped: the ceiling of the grid column coordinate. -/
theorem v274_at : val_main_v274 (F := Ideal) x0 (ix1 n) = rWord 14 (ce (t3 x0 n)) := by
  show Scalar.select (IntOp.cmpi .slt (val_main_v222 (F := Ideal) x0 (ix1 n)) 0#32)
    (IntOp.addi (val_main_v222 (F := Ideal) x0 (ix1 n)) 14#32) (val_main_v222 (F := Ideal) x0 (ix1 n)) = _
  rw [select_slt_wrap, v222_at]; rfl

/-- The table at the cell (fl s, fl t) of point n, channel q. -/
theorem v236_at (q : Fin 256) : val_main_v236 (F := Ideal) x0 x1 (ix2 n q)
    = tab3 x1 (rCell 14 (fl (s3 x0 n))) (rCell 14 (fl (t3 x0 n))) q.val := by
  unfold val_main_v236 val_main_v235
  refine (gather_cols_apply (H := 14) (C := 256) (N := 200000) (by decide) gather_S14x14x256_S200000x2_S200000x256_1_01_n_n_01_1_11256_wf
    concatenates_S200000x1_S200000x1_S200000x2_d1 x1 (val_main_v233 (F := Ideal) x0) (val_main_v234 (F := Ideal) x0) n q).trans ?_
  rw [val_main_v233_apply, val_main_v234_apply,
    show idx_main_v233 (ix2 n (0 : Fin 1)) = ix1 n from funext fun a => by match a with | ⟨0, _⟩ => rfl,
    show idx_main_v234 (ix2 n (0 : Fin 1)) = ix1 n from funext fun a => by match a with | ⟨0, _⟩ => rfl,
    v227_at, v232_at]
  rfl

/-- The table at the cell (fl s, ce t) of point n, channel q. -/
theorem v250_at (q : Fin 256) : val_main_v250 (F := Ideal) x0 x1 (ix2 n q)
    = tab3 x1 (rCell 14 (fl (s3 x0 n))) (rCell 14 (ce (t3 x0 n))) q.val := by
  unfold val_main_v250 val_main_v249
  refine (gather_cols_apply (H := 14) (C := 256) (N := 200000) (by decide) gather_S14x14x256_S200000x2_S200000x256_1_01_n_n_01_1_11256_wf
    concatenates_S200000x1_S200000x1_S200000x2_d1 x1 (val_main_v247 (F := Ideal) x0) (val_main_v248 (F := Ideal) x0) n q).trans ?_
  rw [val_main_v247_apply, val_main_v248_apply,
    show idx_main_v247 (ix2 n (0 : Fin 1)) = ix1 n from funext fun a => by match a with | ⟨0, _⟩ => rfl,
    show idx_main_v248 (ix2 n (0 : Fin 1)) = ix1 n from funext fun a => by match a with | ⟨0, _⟩ => rfl,
    v241_at, v246_at]
  rfl

/-- The table at the cell (ce s, fl t) of point n, channel q. -/
theorem v264_at (q : Fin 256) : val_main_v264 (F := Ideal) x0 x1 (ix2 n q)
    = tab3 x1 (rCell 14 (ce (s3 x0 n))) (rCell 14 (fl (t3 x0 n))) q.val := by
  unfold val_main_v264 val_main_v263
  refine (gather_cols_apply (H := 14) (C := 256) (N := 200000) (by decide) gather_S14x14x256_S200000x2_S200000x256_1_01_n_n_01_1_11256_wf
    concatenates_S200000x1_S200000x1_S200000x2_d1 x1 (val_main_v261 (F := Ideal) x0) (val_main_v262 (F := Ideal) x0) n q).trans ?_
  rw [val_main_v261_apply, val_main_v262_apply,
    show idx_main_v261 (ix2 n (0 : Fin 1)) = ix1 n from funext fun a => by match a with | ⟨0, _⟩ => rfl,
    show idx_main_v262 (ix2 n (0 : Fin 1)) = ix1 n from funext fun a => by match a with | ⟨0, _⟩ => rfl,
    v255_at, v260_at]
  rfl

/-- The table at the cell (ce s, ce t) of point n, channel q. -/
theorem v278_at (q : Fin 256) : val_main_v278 (F := Ideal) x0 x1 (ix2 n q)
    = tab3 x1 (rCell 14 (ce (s3 x0 n))) (rCell 14 (ce (t3 x0 n))) q.val := by
  unfold val_main_v278 val_main_v277
  refine (gather_cols_apply (H := 14) (C := 256) (N := 200000) (by decide) gather_S14x14x256_S200000x2_S200000x256_1_01_n_n_01_1_11256_wf
    concatenates_S200000x1_S200000x1_S200000x2_d1 x1 (val_main_v275 (F := Ideal) x0) (val_main_v276 (F := Ideal) x0) n q).trans ?_
  rw [val_main_v275_apply, val_main_v276_apply,
    show idx_main_v275 (ix2 n (0 : Fin 1)) = ix1 n from funext fun a => by match a with | ⟨0, _⟩ => rfl,
    show idx_main_v276 (ix2 n (0 : Fin 1)) = ix1 n from funext fun a => by match a with | ⟨0, _⟩ => rfl,
    v269_at, v274_at]
  rfl

/-- The weight w11 of point n, spread over the channels. -/
theorem v295_at (q : Fin 256) : val_main_v295 (F := Ideal) x0 (ix2 n q) = w11 (s3 x0 n) (t3 x0 n) := by
  rw [val_main_v295_apply,
    show idx_main_v295 (ix2 n q) = ix2 n (0 : Fin 1) from funext fun a => by match a with | ⟨0, _⟩ => rfl | ⟨1, _⟩ => rfl,
    val_main_v282_apply,
    show idx_main_v282 (ix2 n (0 : Fin 1)) = ix1 n from funext fun a => by match a with | ⟨0, _⟩ => rfl]
  show (val_main_v216 (F := Ideal) x0 (ix1 n) - val_main_v212 (F := Ideal) x0 (ix1 n))
    * (val_main_v218 (F := Ideal) x0 (ix1 n) - val_main_v214 (F := Ideal) x0 (ix1 n)) = _
  rw [v216_at, v212_at, v218_at, v214_at]; rfl

/-- The weight w21 of point n, spread over the channels. -/
theorem v297_at (q : Fin 256) : val_main_v297 (F := Ideal) x0 (ix2 n q) = w21 (s3 x0 n) (t3 x0 n) := by
  rw [val_main_v297_apply,
    show idx_main_v297 (ix2 n q) = ix2 n (0 : Fin 1) from funext fun a => by match a with | ⟨0, _⟩ => rfl | ⟨1, _⟩ => rfl,
    val_main_v286_apply,
    show idx_main_v286 (ix2 n (0 : Fin 1)) = ix1 n from funext fun a => by match a with | ⟨0, _⟩ => rfl]
  show (val_main_v212 (F := Ideal) x0 (ix1 n) - val_main_v215 (F := Ideal) x0 (ix1 n))
    * (val_main_v218 (F := Ideal) x0 (ix1 n) - val_main_v214 (F := Ideal) x0 (ix1 n)) = _
  rw [v212_at, v215_at, v218_at, v214_at]; rfl

/-- The weight w12 of point n, spread over the channels. -/
theorem v300_at (q : Fin 256) : val_main_v300 (F := Ideal) x0 (ix2 n q) = w12 (s3 x0 n) (t3 x0 n) := by
  rw [val_main_v300_apply,
    show idx_main_v300 (ix2 n q) = ix2 n (0 : Fin 1) from funext fun a => by match a with | ⟨0, _⟩ => rfl | ⟨1, _⟩ => rfl,
    val_main_v290_apply,
    show idx_main_v290 (ix2 n (0 : Fin 1)) = ix1 n from funext fun a => by match a with | ⟨0, _⟩ => rfl]
  show (val_main_v216 (F := Ideal) x0 (ix1 n) - val_main_v212 (F := Ideal) x0 (ix1 n))
    * (val_main_v214 (F := Ideal) x0 (ix1 n) - val_main_v217 (F := Ideal) x0 (ix1 n)) = _
  rw [v216_at, v212_at, v214_at, v217_at]; rfl

/-- The weight w22 of point n, spread over the channels. -/
theorem v303_at (q : Fin 256) : val_main_v303 (F := Ideal) x0 (ix2 n q) = w22 (s3 x0 n) (t3 x0 n) := by
  rw [val_main_v303_apply,
    show idx_main_v303 (ix2 n q) = ix2 n (0 : Fin 1) from funext fun a => by match a with | ⟨0, _⟩ => rfl | ⟨1, _⟩ => rfl,
    val_main_v294_apply,
    show idx_main_v294 (ix2 n (0 : Fin 1)) = ix1 n from funext fun a => by match a with | ⟨0, _⟩ => rfl]
  show (val_main_v212 (F := Ideal) x0 (ix1 n) - val_main_v215 (F := Ideal) x0 (ix1 n))
    * (val_main_v214 (F := Ideal) x0 (ix1 n) - val_main_v217 (F := Ideal) x0 (ix1 n)) = _
  rw [v212_at, v215_at, v214_at, v217_at]; rfl

/-- The blended feature row of point n at this scale, entry q: the four-cell spelling. -/
theorem v305_at (q : Fin 256) : val_main_v305 (F := Ideal) x0 x1 (ix2 n q)
    = projR 14 (s3 x0 n) (t3 x0 n) (fun a b => tab3 x1 a b q.val) := by
  show ((val_main_v295 (F := Ideal) x0 (ix2 n q) * val_main_v236 (F := Ideal) x0 x1 (ix2 n q)
      + val_main_v297 (F := Ideal) x0 (ix2 n q) * val_main_v264 (F := Ideal) x0 x1 (ix2 n q))
      + val_main_v300 (F := Ideal) x0 (ix2 n q) * val_main_v250 (F := Ideal) x0 x1 (ix2 n q))
      + val_main_v303 (F := Ideal) x0 (ix2 n q) * val_main_v278 (F := Ideal) x0 x1 (ix2 n q) = _
  rw [v295_at, v236_at, v297_at, v264_at, v300_at, v250_at, v303_at, v278_at]
  rfl

end

/-! ## Scale 4: grid side 7, 512 channels -/

/-- The grid row coordinate of point n at this scale. -/
def s4 (x0 : S200000x3.Idx → EReal) (n : Fin 200000) : EReal := Ideal.div (hC x0 n) (lit 0x42000000#32)

/-- The grid column coordinate of point n at this scale. -/
def t4 (x0 : S200000x3.Idx → EReal) (n : Fin 200000) : EReal := Ideal.div (wC x0 n) (lit 0x42000000#32)

section
variable (x0 : S200000x3.Idx → EReal) (x1 : S7x7x512.Idx → EReal) (n : Fin 200000)

theorem v307_at : val_main_v307 (F := Ideal) x0 (ix1 n) = s4 x0 n := by
  show Ideal.div (val_main_v19 (F := Ideal) x0 (ix1 n)) (lit 0x42000000#32) = _
  rw [v19_at]; rfl

theorem v309_at : val_main_v309 (F := Ideal) x0 (ix1 n) = t4 x0 n := by
  show Ideal.div (val_main_v20 (F := Ideal) x0 (ix1 n)) (lit 0x42000000#32) = _
  rw [v20_at]; rfl

theorem v310_at : val_main_v310 (F := Ideal) x0 (ix1 n) = fl (s4 x0 n) := by
  show Ideal.liftRound Int.floor (val_main_v307 (F := Ideal) x0 (ix1 n)) = _
  rw [v307_at]; rfl

theorem v311_at : val_main_v311 (F := Ideal) x0 (ix1 n) = ce (s4 x0 n) := by
  show Ideal.liftRound Int.ceil (val_main_v307 (F := Ideal) x0 (ix1 n)) = _
  rw [v307_at]; rfl

theorem v312_at : val_main_v312 (F := Ideal) x0 (ix1 n) = fl (t4 x0 n) := by
  show Ideal.liftRound Int.floor (val_main_v309 (F := Ideal) x0 (ix1 n)) = _
  rw [v309_at]; rfl

theorem v313_at : val_main_v313 (F := Ideal) x0 (ix1 n) = ce (t4 x0 n) := by
  show Ideal.liftRound Int.ceil (val_main_v309 (F := Ideal) x0 (ix1 n)) = _
  rw [v309_at]; rfl

theorem v314_at : val_main_v314 (F := Ideal) x0 (ix1 n) = Ideal.fptosi 32 (fl (s4 x0 n)) := by
  show Ideal.fptosi 32 (val_main_v310 (F := Ideal) x0 (ix1 n)) = _
  rw [v310_at]

theorem v315_at : val_main_v315 (F := Ideal) x0 (ix1 n) = Ideal.fptosi 32 (ce (s4 x0 n)) := by
  show Ideal.fptosi 32 (val_main_v311 (F := Ideal) x0 (ix1 n)) = _
  rw [v311_at]

theorem v316_at : val_main_v316 (F := Ideal) x0 (ix1 n) = Ideal.fptosi 32 (fl (t4 x0 n)) := by
  show Ideal.fptosi 32 (val_main_v312 (F := Ideal) x0 (ix1 n)) = _
  rw [v312_at]

theorem v317_at : val_main_v317 (F := Ideal) x0 (ix1 n) = Ideal.fptosi 32 (ce (t4 x0 n)) := by
  show Ideal.fptosi 32 (val_main_v313 (F := Ideal) x0 (ix1 n)) = _
  rw [v313_at]

/-- A cell word wrapped: the floor of the grid row coordinate. -/
theorem v322_at : val_main_v322 (F := Ideal) x0 (ix1 n) = rWord 7 (fl (s4 x0 n)) := by
  show Scalar.select (IntOp.cmpi .slt (val_main_v314 (F := Ideal) x0 (ix1 n)) 0#32)
    (IntOp.addi (val_main_v314 (F := Ideal) x0 (ix1 n)) 7#32) (val_main_v314 (F := Ideal) x0 (ix1 n)) = _
  rw [select_slt_wrap, v314_at]; rfl

/-- A cell word wrapped: the floor of the grid column coordinate. -/
theorem v327_at : val_main_v327 (F := Ideal) x0 (ix1 n) = rWord 7 (fl (t4 x0 n)) := by
  show Scalar.select (IntOp.cmpi .slt (val_main_v316 (F := Ideal) x0 (ix1 n)) 0#32)
    (IntOp.addi (val_main_v316 (F := Ideal) x0 (ix1 n)) 7#32) (val_main_v316 (F := Ideal) x0 (ix1 n)) = _
  rw [select_slt_wrap, v316_at]; rfl

/-- A cell word wrapped: the floor of the grid row coordinate. -/
theorem v336_at : val_main_v336 (F := Ideal) x0 (ix1 n) = rWord 7 (fl (s4 x0 n)) := by
  show Scalar.select (IntOp.cmpi .slt (val_main_v314 (F := Ideal) x0 (ix1 n)) 0#32)
    (IntOp.addi (val_main_v314 (F := Ideal) x0 (ix1 n)) 7#32) (val_main_v314 (F := Ideal) x0 (ix1 n)) = _
  rw [select_slt_wrap, v314_at]; rfl

/-- A cell word wrapped: the ceiling of the grid column coordinate. -/
theorem v341_at : val_main_v341 (F := Ideal) x0 (ix1 n) = rWord 7 (ce (t4 x0 n)) := by
  show Scalar.select (IntOp.cmpi .slt (val_main_v317 (F := Ideal) x0 (ix1 n)) 0#32)
    (IntOp.addi (val_main_v317 (F := Ideal) x0 (ix1 n)) 7#32) (val_main_v317 (F := Ideal) x0 (ix1 n)) = _
  rw [select_slt_wrap, v317_at]; rfl

/-- A cell word wrapped: the ceiling of the grid row coordinate. -/
theorem v350_at : val_main_v350 (F := Ideal) x0 (ix1 n) = rWord 7 (ce (s4 x0 n)) := by
  show Scalar.select (IntOp.cmpi .slt (val_main_v315 (F := Ideal) x0 (ix1 n)) 0#32)
    (IntOp.addi (val_main_v315 (F := Ideal) x0 (ix1 n)) 7#32) (val_main_v315 (F := Ideal) x0 (ix1 n)) = _
  rw [select_slt_wrap, v315_at]; rfl

/-- A cell word wrapped: the floor of the grid column coordinate. -/
theorem v355_at : val_main_v355 (F := Ideal) x0 (ix1 n) = rWord 7 (fl (t4 x0 n)) := by
  show Scalar.select (IntOp.cmpi .slt (val_main_v316 (F := Ideal) x0 (ix1 n)) 0#32)
    (IntOp.addi (val_main_v316 (F := Ideal) x0 (ix1 n)) 7#32) (val_main_v316 (F := Ideal) x0 (ix1 n)) = _
  rw [select_slt_wrap, v316_at]; rfl

/-- A cell word wrapped: the ceiling of the grid row coordinate. -/
theorem v364_at : val_main_v364 (F := Ideal) x0 (ix1 n) = rWord 7 (ce (s4 x0 n)) := by
  show Scalar.select (IntOp.cmpi .slt (val_main_v315 (F := Ideal) x0 (ix1 n)) 0#32)
    (IntOp.addi (val_main_v315 (F := Ideal) x0 (ix1 n)) 7#32) (val_main_v315 (F := Ideal) x0 (ix1 n)) = _
  rw [select_slt_wrap, v315_at]; rfl

/-- A cell word wrapped: the ceiling of the grid column coordinate. -/
theorem v369_at : val_main_v369 (F := Ideal) x0 (ix1 n) = rWord 7 (ce (t4 x0 n)) := by
  show Scalar.select (IntOp.cmpi .slt (val_main_v317 (F := Ideal) x0 (ix1 n)) 0#32)
    (IntOp.addi (val_main_v317 (F := Ideal) x0 (ix1 n)) 7#32) (val_main_v317 (F := Ideal) x0 (ix1 n)) = _
  rw [select_slt_wrap, v317_at]; rfl

/-- The table at the cell (fl s, fl t) of point n, channel q. -/
theorem v331_at (q : Fin 512) : val_main_v331 (F := Ideal) x0 x1 (ix2 n q)
    = tab3 x1 (rCell 7 (fl (s4 x0 n))) (rCell 7 (fl (t4 x0 n))) q.val := by
  unfold val_main_v331 val_main_v330
  refine (gather_cols_apply (H := 7) (C := 512) (N := 200000) (by decide) gather_S7x7x512_S200000x2_S200000x512_1_01_n_n_01_1_11512_wf
    concatenates_S200000x1_S200000x1_S200000x2_d1 x1 (val_main_v328 (F := Ideal) x0) (val_main_v329 (F := Ideal) x0) n q).trans ?_
  rw [val_main_v328_apply, val_main_v329_apply,
    show idx_main_v328 (ix2 n (0 : Fin 1)) = ix1 n from funext fun a => by match a with | ⟨0, _⟩ => rfl,
    show idx_main_v329 (ix2 n (0 : Fin 1)) = ix1 n from funext fun a => by match a with | ⟨0, _⟩ => rfl,
    v322_at, v327_at]
  rfl

/-- The table at the cell (fl s, ce t) of point n, channel q. -/
theorem v345_at (q : Fin 512) : val_main_v345 (F := Ideal) x0 x1 (ix2 n q)
    = tab3 x1 (rCell 7 (fl (s4 x0 n))) (rCell 7 (ce (t4 x0 n))) q.val := by
  unfold val_main_v345 val_main_v344
  refine (gather_cols_apply (H := 7) (C := 512) (N := 200000) (by decide) gather_S7x7x512_S200000x2_S200000x512_1_01_n_n_01_1_11512_wf
    concatenates_S200000x1_S200000x1_S200000x2_d1 x1 (val_main_v342 (F := Ideal) x0) (val_main_v343 (F := Ideal) x0) n q).trans ?_
  rw [val_main_v342_apply, val_main_v343_apply,
    show idx_main_v342 (ix2 n (0 : Fin 1)) = ix1 n from funext fun a => by match a with | ⟨0, _⟩ => rfl,
    show idx_main_v343 (ix2 n (0 : Fin 1)) = ix1 n from funext fun a => by match a with | ⟨0, _⟩ => rfl,
    v336_at, v341_at]
  rfl

/-- The table at the cell (ce s, fl t) of point n, channel q. -/
theorem v359_at (q : Fin 512) : val_main_v359 (F := Ideal) x0 x1 (ix2 n q)
    = tab3 x1 (rCell 7 (ce (s4 x0 n))) (rCell 7 (fl (t4 x0 n))) q.val := by
  unfold val_main_v359 val_main_v358
  refine (gather_cols_apply (H := 7) (C := 512) (N := 200000) (by decide) gather_S7x7x512_S200000x2_S200000x512_1_01_n_n_01_1_11512_wf
    concatenates_S200000x1_S200000x1_S200000x2_d1 x1 (val_main_v356 (F := Ideal) x0) (val_main_v357 (F := Ideal) x0) n q).trans ?_
  rw [val_main_v356_apply, val_main_v357_apply,
    show idx_main_v356 (ix2 n (0 : Fin 1)) = ix1 n from funext fun a => by match a with | ⟨0, _⟩ => rfl,
    show idx_main_v357 (ix2 n (0 : Fin 1)) = ix1 n from funext fun a => by match a with | ⟨0, _⟩ => rfl,
    v350_at, v355_at]
  rfl

/-- The table at the cell (ce s, ce t) of point n, channel q. -/
theorem v373_at (q : Fin 512) : val_main_v373 (F := Ideal) x0 x1 (ix2 n q)
    = tab3 x1 (rCell 7 (ce (s4 x0 n))) (rCell 7 (ce (t4 x0 n))) q.val := by
  unfold val_main_v373 val_main_v372
  refine (gather_cols_apply (H := 7) (C := 512) (N := 200000) (by decide) gather_S7x7x512_S200000x2_S200000x512_1_01_n_n_01_1_11512_wf
    concatenates_S200000x1_S200000x1_S200000x2_d1 x1 (val_main_v370 (F := Ideal) x0) (val_main_v371 (F := Ideal) x0) n q).trans ?_
  rw [val_main_v370_apply, val_main_v371_apply,
    show idx_main_v370 (ix2 n (0 : Fin 1)) = ix1 n from funext fun a => by match a with | ⟨0, _⟩ => rfl,
    show idx_main_v371 (ix2 n (0 : Fin 1)) = ix1 n from funext fun a => by match a with | ⟨0, _⟩ => rfl,
    v364_at, v369_at]
  rfl

/-- The weight w11 of point n, spread over the channels. -/
theorem v390_at (q : Fin 512) : val_main_v390 (F := Ideal) x0 (ix2 n q) = w11 (s4 x0 n) (t4 x0 n) := by
  rw [val_main_v390_apply,
    show idx_main_v390 (ix2 n q) = ix2 n (0 : Fin 1) from funext fun a => by match a with | ⟨0, _⟩ => rfl | ⟨1, _⟩ => rfl,
    val_main_v377_apply,
    show idx_main_v377 (ix2 n (0 : Fin 1)) = ix1 n from funext fun a => by match a with | ⟨0, _⟩ => rfl]
  show (val_main_v311 (F := Ideal) x0 (ix1 n) - val_main_v307 (F := Ideal) x0 (ix1 n))
    * (val_main_v313 (F := Ideal) x0 (ix1 n) - val_main_v309 (F := Ideal) x0 (ix1 n)) = _
  rw [v311_at, v307_at, v313_at, v309_at]; rfl

/-- The weight w21 of point n, spread over the channels. -/
theorem v392_at (q : Fin 512) : val_main_v392 (F := Ideal) x0 (ix2 n q) = w21 (s4 x0 n) (t4 x0 n) := by
  rw [val_main_v392_apply,
    show idx_main_v392 (ix2 n q) = ix2 n (0 : Fin 1) from funext fun a => by match a with | ⟨0, _⟩ => rfl | ⟨1, _⟩ => rfl,
    val_main_v381_apply,
    show idx_main_v381 (ix2 n (0 : Fin 1)) = ix1 n from funext fun a => by match a with | ⟨0, _⟩ => rfl]
  show (val_main_v307 (F := Ideal) x0 (ix1 n) - val_main_v310 (F := Ideal) x0 (ix1 n))
    * (val_main_v313 (F := Ideal) x0 (ix1 n) - val_main_v309 (F := Ideal) x0 (ix1 n)) = _
  rw [v307_at, v310_at, v313_at, v309_at]; rfl

/-- The weight w12 of point n, spread over the channels. -/
theorem v395_at (q : Fin 512) : val_main_v395 (F := Ideal) x0 (ix2 n q) = w12 (s4 x0 n) (t4 x0 n) := by
  rw [val_main_v395_apply,
    show idx_main_v395 (ix2 n q) = ix2 n (0 : Fin 1) from funext fun a => by match a with | ⟨0, _⟩ => rfl | ⟨1, _⟩ => rfl,
    val_main_v385_apply,
    show idx_main_v385 (ix2 n (0 : Fin 1)) = ix1 n from funext fun a => by match a with | ⟨0, _⟩ => rfl]
  show (val_main_v311 (F := Ideal) x0 (ix1 n) - val_main_v307 (F := Ideal) x0 (ix1 n))
    * (val_main_v309 (F := Ideal) x0 (ix1 n) - val_main_v312 (F := Ideal) x0 (ix1 n)) = _
  rw [v311_at, v307_at, v309_at, v312_at]; rfl

/-- The weight w22 of point n, spread over the channels. -/
theorem v398_at (q : Fin 512) : val_main_v398 (F := Ideal) x0 (ix2 n q) = w22 (s4 x0 n) (t4 x0 n) := by
  rw [val_main_v398_apply,
    show idx_main_v398 (ix2 n q) = ix2 n (0 : Fin 1) from funext fun a => by match a with | ⟨0, _⟩ => rfl | ⟨1, _⟩ => rfl,
    val_main_v389_apply,
    show idx_main_v389 (ix2 n (0 : Fin 1)) = ix1 n from funext fun a => by match a with | ⟨0, _⟩ => rfl]
  show (val_main_v307 (F := Ideal) x0 (ix1 n) - val_main_v310 (F := Ideal) x0 (ix1 n))
    * (val_main_v309 (F := Ideal) x0 (ix1 n) - val_main_v312 (F := Ideal) x0 (ix1 n)) = _
  rw [v307_at, v310_at, v309_at, v312_at]; rfl

/-- The blended feature row of point n at this scale, entry q: the four-cell spelling. -/
theorem v400_at (q : Fin 512) : val_main_v400 (F := Ideal) x0 x1 (ix2 n q)
    = projR 7 (s4 x0 n) (t4 x0 n) (fun a b => tab3 x1 a b q.val) := by
  show ((val_main_v390 (F := Ideal) x0 (ix2 n q) * val_main_v331 (F := Ideal) x0 x1 (ix2 n q)
      + val_main_v392 (F := Ideal) x0 (ix2 n q) * val_main_v359 (F := Ideal) x0 x1 (ix2 n q))
      + val_main_v395 (F := Ideal) x0 (ix2 n q) * val_main_v345 (F := Ideal) x0 x1 (ix2 n q))
      + val_main_v398 (F := Ideal) x0 (ix2 n q) * val_main_v373 (F := Ideal) x0 x1 (ix2 n q) = _
  rw [v390_at, v331_at, v392_at, v359_at, v395_at, v345_at, v398_at, v373_at]
  rfl

end

/-! ## The whole array -/

/-- The reference's last stage — the point followed by the four blended feature rows — is the four-cell spelling of
    the specification, entry by entry. -/
theorem stage_eq (x0 : S200000x3.Idx → EReal) (x1 : S56x56x64.Idx → EReal) (x2 : S28x28x128.Idx → EReal)
    (x3 : S14x14x256.Idx → EReal) (x4 : S7x7x512.Idx → EReal) :
    val_main_v401 (F := Ideal) x0 x1 x2 x3 x4 = GR x0 x1 x2 x3 x4 := by
  funext i
  obtain ⟨n, q, rfl⟩ : ∃ (n : Fin 200000) (q : Fin 963), i = ix2 n q := ⟨i 0, i 1, eq_ix2 i⟩
  unfold val_main_v401
  rw [concat5_apply]
  show _ = entryR (tab2 x0 n.val 0) (tab2 x0 n.val 1) (tab2 x0 n.val 2) (fun k => tab2 x0 n.val k)
    (tab3 x1) (tab3 x2) (tab3 x3) (tab3 x4) q.val
  unfold entryR
  by_cases h0 : q.val < 3
  · rw [dif_pos h0, if_pos h0]
    exact (tab2_at x0 n ⟨q.val, h0⟩).symm
  rw [dif_neg h0, if_neg h0]
  by_cases h1 : q.val < 67
  · rw [dif_pos h1, if_pos h1, v115_at]; rfl
  rw [dif_neg h1, if_neg h1]
  by_cases h2 : q.val < 195
  · rw [dif_pos h2, if_pos h2, v210_at]; rfl
  rw [dif_neg h2, if_neg h2]
  by_cases h3 : q.val < 451
  · rw [dif_pos h3, if_pos h3, v305_at]; rfl
  rw [dif_neg h3, if_neg h3, v400_at]; rfl

open Idealize.ShloMosaic.TcCoe Idealize.SL.Sem in
/-- The reference's result is the four-cell spelling of the specification, of the five argument arrays. -/
theorem res_eq (m : (ℓ : Loc nD τ sig) → Buf (Elt Ideal) ℓ) (c : Dev nD) :
    Cert.ReferenceIdeal.ValueP.res_main_v401 (F := Ideal) m c
      = Cert.Spec.GR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v401_eq (F := Ideal) m c).trans (stage_eq _ _ _ _ _)

end Cert.ReferenceIdeal.RValue

end
-- ==== Proof.LibOneHotRows.lean ====
/-
  Weighted one-hot rows against a table, on the extended reals.

  A row with four weighted marks — place r holds the sum of the weights a₁ … a₄ of those marks i₁ … i₄ that sit at r
  (marks may coincide) — contracted against a table g gives the four weighted table entries:

      ∑ r, ((([r = i₁]·a₁ + [r = i₂]·a₂) + [r = i₃]·a₃) + [r = i₄]·a₄) · g r
        = ((a₁ · g i₁ + a₂ · g i₂) + a₃ · g i₃) + a₄ · g i₄.

  This is distributivity of the product over the sum, and on the extended reals distributivity fails at the
  infinities (∞ · (1 − 1) ≠ ∞ − ∞), so the law is stated for REAL weights and a REAL-valued table: every term is
  then the coercion of a real term, the sum of coercions is the coercion of the sum, and the identity is the one
  of the reals.  Both sides keep their additions in the left-nested order they are written in.
-/
import Mathlib

open scoped BigOperators

namespace Cert.Lib.OneHotRows

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals: a row with four weighted marks contracted against a table. -/
theorem sum_marks_mul_real {ι : Type*} [Fintype ι] [DecidableEq ι] (i₁ i₂ i₃ i₄ : ι) (a₁ a₂ a₃ a₄ : ℝ)
    (g : ι → ℝ) :
    ∑ r, ((((if r = i₁ then a₁ else 0) + (if r = i₂ then a₂ else 0)) + (if r = i₃ then a₃ else 0))
        + (if r = i₄ then a₄ else 0)) * g r
      = ((a₁ * g i₁ + a₂ * g i₂) + a₃ * g i₃) + a₄ * g i₄ := by
  simp only [add_mul, ite_mul, zero_mul, Finset.sum_add_distrib, Finset.sum_ite_eq', Finset.mem_univ, if_true]

/-- The law on the extended reals, real weights and a real-valued table, both written as coercions. -/
theorem sum_marks_mul_coe {ι : Type*} [Fintype ι] [DecidableEq ι] (i₁ i₂ i₃ i₄ : ι) (a₁ a₂ a₃ a₄ : ℝ)
    (g : ι → ℝ) :
    ∑ r, ((((if r = i₁ then (a₁ : EReal) else 0) + (if r = i₂ then (a₂ : EReal) else 0))
          + (if r = i₃ then (a₃ : EReal) else 0)) + (if r = i₄ then (a₄ : EReal) else 0)) * (g r : EReal)
      = (((a₁ : EReal) * (g i₁ : EReal) + (a₂ : EReal) * (g i₂ : EReal)) + (a₃ : EReal) * (g i₃ : EReal))
          + (a₄ : EReal) * (g i₄ : EReal) := by
  have h : ∀ r, ((((if r = i₁ then (a₁ : EReal) else 0) + (if r = i₂ then (a₂ : EReal) else 0))
          + (if r = i₃ then (a₃ : EReal) else 0)) + (if r = i₄ then (a₄ : EReal) else 0)) * (g r : EReal)
        = ((((((if r = i₁ then a₁ else 0) + (if r = i₂ then a₂ else 0)) + (if r = i₃ then a₃ else 0))
          + (if r = i₄ then a₄ else 0)) * g r : ℝ) : EReal) := by
    intro r
    simp only [EReal.coe_mul, EReal.coe_add, apply_ite ((↑) : ℝ → EReal), EReal.coe_zero]
  rw [Finset.sum_congr rfl (fun r _ => h r), ← coe_finset_sum, sum_marks_mul_real]
  simp only [EReal.coe_add, EReal.coe_mul]

/-- The law on the extended reals, for weights and a table that are extended reals known to be real: place r of
    the row is decided by any predicates p₁ … p₄ that hold exactly at the marks. -/
theorem sum_marks_mul {ι : Type*} [Fintype ι] [DecidableEq ι] (i₁ i₂ i₃ i₄ : ι) (a₁ a₂ a₃ a₄ : EReal)
    (g : ι → EReal) (p₁ p₂ p₃ p₄ : ι → Prop) [DecidablePred p₁] [DecidablePred p₂] [DecidablePred p₃]
    [DecidablePred p₄] (h₁ : ∀ r, p₁ r ↔ r = i₁) (h₂ : ∀ r, p₂ r ↔ r = i₂) (h₃ : ∀ r, p₃ r ↔ r = i₃)
    (h₄ : ∀ r, p₄ r ↔ r = i₄) (ha₁ : ∃ v : ℝ, a₁ = (v : EReal)) (ha₂ : ∃ v : ℝ, a₂ = (v : EReal))
    (ha₃ : ∃ v : ℝ, a₃ = (v : EReal)) (ha₄ : ∃ v : ℝ, a₄ = (v : EReal)) (hg : ∀ r, ∃ v : ℝ, g r = (v : EReal)) :
    ∑ r, ((((if p₁ r then a₁ else 0) + (if p₂ r then a₂ else 0)) + (if p₃ r then a₃ else 0))
        + (if p₄ r then a₄ else 0)) * g r
      = ((a₁ * g i₁ + a₂ * g i₂) + a₃ * g i₃) + a₄ * g i₄ := by
  obtain ⟨b₁, rfl⟩ := ha₁
  obtain ⟨b₂, rfl⟩ := ha₂
  obtain ⟨b₃, rfl⟩ := ha₃
  obtain ⟨b₄, rfl⟩ := ha₄
  choose g' hg' using hg
  simp only [h₁, h₂, h₃, h₄, hg']
  exact sum_marks_mul_coe i₁ i₂ i₃ i₄ b₁ b₂ b₃ b₄ g'

end Cert.Lib.OneHotRows
-- ==== Proof.Blend.lean ====
/-
  The two spellings of the blend agree.

  After the clip to [0, 223] and the division by the cell size k the grid coordinate s is a REAL in [0, 223/k], and
  223/k ≤ H, so the floor and the ceiling of s are integers in 0..H.  For such an integer n both spellings select the
  cell min(n, H−1): the one-hot spelling clips to H−1 before the conversion to a word, the four-cell spelling converts
  (the word is not negative, so nothing is wrapped) and clamps.  The flat cell x·H + y stays below H·H < 2³¹, so the
  word equation that decides a place of the one-hot row is the equation of natural numbers r = x·H + y.  The weights
  are real (differences and products of reals) and the table is real by hypothesis, so the contraction of the weighted
  one-hot row against the flat table is the weighted sum of the four selected entries, the additions in the same
  left-nested order on both sides.
-/
import proofs.«182027_j29850022707588_2_alg».proof.Proof.Spec
import Idealize.ShloMosaic.PureOps.Ideal.Laws
import proofs.«182027_j29850022707588_2_alg».proof.Proof.LibOneHotRows
import Mathlib

noncomputable section

open scoped BigOperators

namespace Cert.Spec

open Idealize.ShloMosaic Idealize.ShloMosaic.ValueIdx

/-! ## The float words as reals -/

theorem lit_zero : lit 0x00000000#32 = 0 := Ideal.ofBits_zero_f32

theorem lit_223 : lit 0x435F0000#32 = ((223 : ℝ) : EReal) := by
  simp [lit, Ideal.ofBits, Ideal.ieee, -EReal.coe_mul]; norm_num

theorem lit_4 : lit 0x40800000#32 = ((4 : ℝ) : EReal) := by
  simp [lit, Ideal.ofBits, Ideal.ieee, -EReal.coe_mul]; norm_num

theorem lit_8 : lit 0x41000000#32 = ((8 : ℝ) : EReal) := by
  simp [lit, Ideal.ofBits, Ideal.ieee, -EReal.coe_mul]; norm_num

theorem lit_16 : lit 0x41800000#32 = ((16 : ℝ) : EReal) := by
  simp [lit, Ideal.ofBits, Ideal.ieee, -EReal.coe_mul]; norm_num

theorem lit_32 : lit 0x42000000#32 = ((32 : ℝ) : EReal) := by
  simp [lit, Ideal.ofBits, Ideal.ieee, -EReal.coe_mul]; norm_num

theorem lit_55 : lit 0x425C0000#32 = ((55 : ℝ) : EReal) := by
  simp [lit, Ideal.ofBits, Ideal.ieee, -EReal.coe_mul]; norm_num

theorem lit_27 : lit 0x41D80000#32 = ((27 : ℝ) : EReal) := by
  simp [lit, Ideal.ofBits, Ideal.ieee, -EReal.coe_mul]; norm_num

theorem lit_13 : lit 0x41500000#32 = ((13 : ℝ) : EReal) := by
  simp [lit, Ideal.ofBits, Ideal.ieee, -EReal.coe_mul]; norm_num

theorem lit_6 : lit 0x40C00000#32 = ((6 : ℝ) : EReal) := by
  simp [lit, Ideal.ofBits, Ideal.ieee, -EReal.coe_mul]; norm_num

/-! ## The grid coordinate is a real in [0, H] -/

/-- The coercion of the reals into the extended reals is monotone, so it commutes with max and min. -/
theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-- Whatever the coordinate — an infinity included — its clip is a real in [0, 223]. -/
theorem clip_real (a : EReal) : ∃ c : ℝ, clip a = (c : EReal) ∧ 0 ≤ c ∧ c ≤ 223 := by
  have h0 : ((0 : ℝ) : EReal) ≤ clip a := by
    unfold clip; rw [lit_223, lit_zero, EReal.coe_zero]
    exact le_min (by exact_mod_cast (by norm_num : (0 : ℝ) ≤ 223)) (le_max_left _ _)
  have h1 : clip a ≤ ((223 : ℝ) : EReal) := by
    unfold clip; rw [lit_223]; exact min_le_left _ _
  have hb : clip a ≠ ⊥ := ne_bot_of_le_ne_bot (EReal.coe_ne_bot _) h0
  have ht : clip a ≠ ⊤ := ne_top_of_le_ne_top (EReal.coe_ne_top _) h1
  refine ⟨(clip a).toReal, (EReal.coe_toReal ht hb).symm, ?_, ?_⟩
  · rw [← EReal.coe_toReal ht hb] at h0; exact_mod_cast h0
  · rw [← EReal.coe_toReal ht hb] at h1; exact_mod_cast h1

/-- The clipped coordinate divided by the cell size k is a real in [0, H] when 223/k ≤ H. -/
theorem grid_real (a : EReal) (k : ℝ) (H : ℕ) (hk : 0 < k) (hkH : 223 / k ≤ H) :
    ∃ s : ℝ, Ideal.div (clip a) (k : EReal) = (s : EReal) ∧ 0 ≤ s ∧ s ≤ H := by
  obtain ⟨c, hc, hc0, hc1⟩ := clip_real a
  refine ⟨c / k, ?_, div_nonneg hc0 hk.le, le_trans (div_le_div_of_nonneg_right hc1 hk.le) hkH⟩
  rw [hc, Ideal.div_coe hk.ne', ← EReal.coe_mul, mul_one_div]

/-! ## Floor, ceiling and the weights at a real coordinate -/

theorem fl_coe (s : ℝ) : fl (s : EReal) = (((⌊s⌋ : ℤ) : ℝ) : EReal) := rfl
theorem ce_coe (s : ℝ) : ce (s : EReal) = (((⌈s⌉ : ℤ) : ℝ) : EReal) := rfl

theorem w11_real (s t : ℝ) : ∃ v : ℝ, w11 (s : EReal) (t : EReal) = (v : EReal) :=
  ⟨(⌈s⌉ - s) * (⌈t⌉ - t), by simp only [w11, ce_coe, ← EReal.coe_sub, ← EReal.coe_mul]⟩
theorem w21_real (s t : ℝ) : ∃ v : ℝ, w21 (s : EReal) (t : EReal) = (v : EReal) :=
  ⟨(s - ⌊s⌋) * (⌈t⌉ - t), by simp only [w21, ce_coe, fl_coe, ← EReal.coe_sub, ← EReal.coe_mul]⟩
theorem w12_real (s t : ℝ) : ∃ v : ℝ, w12 (s : EReal) (t : EReal) = (v : EReal) :=
  ⟨(⌈s⌉ - s) * (t - ⌊t⌋), by simp only [w12, ce_coe, fl_coe, ← EReal.coe_sub, ← EReal.coe_mul]⟩
theorem w22_real (s t : ℝ) : ∃ v : ℝ, w22 (s : EReal) (t : EReal) = (v : EReal) :=
  ⟨(s - ⌊s⌋) * (t - ⌊t⌋), by simp only [w22, fl_coe, ← EReal.coe_sub, ← EReal.coe_mul]⟩

/-! ## The cell an integer coordinate selects -/

/-- The conversion of a real integer inside the 32-bit signed range is that integer's word. -/
theorem fptosi_intCast (z : ℤ) (h1 : -(2 ^ 31) ≤ z) (h2 : z ≤ 2 ^ 31 - 1) :
    Ideal.fptosi 32 (((z : ℤ) : ℝ) : EReal) = BitVec.ofInt 32 z := by
  unfold Ideal.fptosi
  rw [Ideal.toIntClamped_coe]
  congr 1
  simp only [Int.floor_intCast, Int.ceil_intCast, ite_self]
  norm_num
  omega

/-- The cell the integer coordinate n selects on a grid of side H: min(n, H−1). -/
def cell (H : ℕ) (n : ℤ) : ℕ := min n.toNat (H - 1)

theorem cell_lt (H : ℕ) (hH : 0 < H) (n : ℤ) : cell H n < H := by
  unfold cell; omega

/-- One-hot spelling: the coordinate clipped into [0, H−1], then converted, is the word of the cell. -/
theorem kWord_intCast (H : ℕ) (hH : 0 < H) (hlt : H < 2 ^ 31) (n : ℤ) (hn : 0 ≤ n) :
    kWord ((((H - 1 : ℕ) : ℝ)) : EReal) (((n : ℤ) : ℝ) : EReal) = BitVec.ofNat 32 (cell H n) := by
  have hz : ((cell H n : ℕ) : ℤ) = min (((H - 1 : ℕ) : ℕ) : ℤ) n := by unfold cell; omega
  have hc := cell_lt H hH n
  have hr : min (((H - 1 : ℕ) : ℝ)) (max (0 : ℝ) ((n : ℤ) : ℝ)) = (((cell H n : ℕ) : ℤ) : ℝ) := by
    rw [max_eq_right (by exact_mod_cast hn), hz, Int.cast_min, Int.cast_natCast]
  unfold kWord
  rw [lit_zero, ← EReal.coe_zero, ← coe_max', ← coe_min', hr,
    fptosi_intCast _ (by omega) (by omega), BitVec.ofInt_natCast]

/-- Four-cell spelling: the coordinate converted (the word is not negative: nothing is wrapped), read signed and
    clamped, is the cell. -/
theorem rCell_intCast (H : ℕ) (n : ℤ) (hn : 0 ≤ n) (hlt : n < 2 ^ 31) :
    rCell H (((n : ℤ) : ℝ) : EReal) = cell H n := by
  have hti : (BitVec.ofInt 32 n).toInt = n :=
    BitVec.toInt_ofInt_eq_self (by norm_num) (by norm_num; omega) (by norm_num; omega)
  have hslt : (BitVec.ofInt 32 n).slt 0#32 = false := by
    rw [BitVec.slt_eq_decide, hti, BitVec.toInt_zero]
    exact decide_eq_false (by omega)
  unfold rCell rWord cell
  rw [fptosi_intCast n (by omega) (by omega), hslt]
  simp only [Bool.false_eq_true, if_false, hti]

/-- The flat cell of a corner, in words, is the word of the natural number x·H + y. -/
theorem kRow_intCast (H : ℕ) (hH : 0 < H) (hlt : H < 2 ^ 31) (n m : ℤ) (hn : 0 ≤ n) (hm : 0 ≤ m) :
    kRow H ((((H - 1 : ℕ) : ℝ)) : EReal) (((n : ℤ) : ℝ) : EReal) (((m : ℤ) : ℝ) : EReal)
      = BitVec.ofNat 32 (cell H n * H + cell H m) := by
  unfold kRow
  rw [kWord_intCast H hH hlt n hn, kWord_intCast H hH hlt m hm, BitVec.ofNat_add, BitVec.ofNat_mul]

/-- Below 2³², words are equal exactly when the natural numbers are. -/
theorem ofNat_eq_ofNat_iff (r c : ℕ) (hr : r < 2 ^ 32) (hc : c < 2 ^ 32) :
    BitVec.ofNat 32 r = BitVec.ofNat 32 c ↔ r = c := by
  constructor
  · intro h
    have := congrArg BitVec.toNat h
    rw [BitVec.toNat_ofNat, BitVec.toNat_ofNat, Nat.mod_eq_of_lt hr, Nat.mod_eq_of_lt hc] at this
    exact this
  · intro h; rw [h]

theorem flat_div (H X Y : ℕ) (hY : Y < H) : (X * H + Y) / H = X := by
  have hH : 0 < H := by omega
  rw [Nat.add_comm, Nat.add_mul_div_right _ _ hH, Nat.div_eq_of_lt hY, Nat.zero_add]

theorem flat_mod (H X Y : ℕ) (hY : Y < H) : (X * H + Y) % H = Y := by
  rw [Nat.add_comm, Nat.add_mul_mod_self_right, Nat.mod_eq_of_lt hY]

theorem flat_lt (H X Y : ℕ) (hX : X < H) (hY : Y < H) : X * H + Y < H * H := by
  have : X * H + H ≤ H * H := by
    have := Nat.mul_le_mul_right H (Nat.succ_le_of_lt hX)
    rw [Nat.succ_mul] at this; exact this
  omega

/-! ## One scale -/

open Cert.Lib.OneHotRows in
/-- At real grid coordinates s, t in [0, H] the contraction of the weighted one-hot row against the flat table is
    the blend of the four cells. -/
theorem proj_eq (H HW : ℕ) (top : EReal) (hH : 0 < H) (hHW : HW = H * H) (hlt : H * H < 2 ^ 31)
    (htop : top = (((H - 1 : ℕ) : ℝ) : EReal)) (s t : ℝ) (hs0 : 0 ≤ s) (hsH : s ≤ H) (ht0 : 0 ≤ t) (htH : t ≤ H)
    (T : ℕ → ℕ → EReal) (hT : ∀ a b, ∃ v : ℝ, T a b = (v : EReal)) :
    projK HW H top (s : EReal) (t : EReal) (fun r => T (r / H) (r % H)) = projR H (s : EReal) (t : EReal) T := by
  subst hHW htop
  have hHlt : H < 2 ^ 31 := lt_of_le_of_lt (Nat.le_mul_self H) hlt
  have hfs0 : 0 ≤ ⌊s⌋ := Int.floor_nonneg.mpr hs0
  have hcs0 : 0 ≤ ⌈s⌉ := Int.ceil_nonneg hs0
  have hft0 : 0 ≤ ⌊t⌋ := Int.floor_nonneg.mpr ht0
  have hct0 : 0 ≤ ⌈t⌉ := Int.ceil_nonneg ht0
  have hcsH : ⌈s⌉ ≤ H := Int.ceil_le.mpr (by exact_mod_cast hsH)
  have hctH : ⌈t⌉ ≤ H := Int.ceil_le.mpr (by exact_mod_cast htH)
  have hfsH : ⌊s⌋ ≤ H := le_trans (Int.floor_le_ceil s) hcsH
  have hftH : ⌊t⌋ ≤ H := le_trans (Int.floor_le_ceil t) hctH
  have key : ∀ (n m : ℤ), 0 ≤ n → 0 ≤ m → ∀ r : Fin (H * H),
      (BitVec.ofNat 32 r.val = kRow H (((H - 1 : ℕ) : ℝ) : EReal) (((n : ℤ) : ℝ) : EReal) (((m : ℤ) : ℝ) : EReal))
        ↔ r = ⟨cell H n * H + cell H m, flat_lt H _ _ (cell_lt H hH n) (cell_lt H hH m)⟩ := by
    intro n m hn hm r
    have h1 := r.isLt
    have h2 := flat_lt H _ _ (cell_lt H hH n) (cell_lt H hH m)
    rw [kRow_intCast H hH hHlt n m hn hm, ofNat_eq_ofNat_iff _ _ (by omega) (by omega), Fin.ext_iff]
  have hc : ∀ n : ℤ, 0 ≤ n → n ≤ H → rCell H (((n : ℤ) : ℝ) : EReal) = cell H n :=
    fun n hn hnH => rCell_intCast H n hn (by omega)
  unfold projK projR oneHot
  simp only [lit_zero, fl_coe, ce_coe]
  refine (sum_marks_mul (ι := Fin (H * H)) _ _ _ _ (w11 s t) (w21 s t) (w12 s t) (w22 s t)
    (fun r => T (r.val / H) (r.val % H)) _ _ _ _ (key _ _ hfs0 hft0) (key _ _ hcs0 hft0) (key _ _ hfs0 hct0)
    (key _ _ hcs0 hct0) (w11_real s t) (w21_real s t) (w12_real s t) (w22_real s t) (fun r => hT _ _)).trans ?_
  rw [hc _ hfs0 hfsH, hc _ hcs0 hcsH, hc _ hft0 hftH, hc _ hct0 hctH]
  simp only [flat_div H _ _ (cell_lt H hH _), flat_mod H _ _ (cell_lt H hH _)]

/-- One scale, at the clipped coordinates divided by the cell size. -/
theorem scale_eq (H HW : ℕ) (top cs : EReal) (k : ℝ) (hH : 0 < H) (hHW : HW = H * H) (hlt : H * H < 2 ^ 31)
    (htop : top = (((H - 1 : ℕ) : ℝ) : EReal)) (hcs : cs = (k : EReal)) (hk : 0 < k) (hkH : 223 / k ≤ H)
    (a b : EReal) (T : ℕ → ℕ → EReal) (hT : ∀ a b, ∃ v : ℝ, T a b = (v : EReal)) :
    projK HW H top (Ideal.div (clip a) cs) (Ideal.div (clip b) cs) (fun r => T (r / H) (r % H))
      = projR H (Ideal.div (clip a) cs) (Ideal.div (clip b) cs) T := by
  subst hcs
  obtain ⟨s, hs, hs0, hsH⟩ := grid_real a k H hk hkH
  obtain ⟨t, ht, ht0, htH⟩ := grid_real b k H hk hkH
  rw [hs, ht]
  exact proj_eq H HW top hH hHW hlt htop s t hs0 hsH ht0 htH T hT

/-! ## One entry, and the arrays -/

theorem entryK_eq_entryR (x y z : EReal) (first3 : ℕ → EReal) (T1 T2 T3 T4 : ℕ → ℕ → ℕ → EReal)
    (h1 : ∀ a b c, ∃ v : ℝ, T1 a b c = (v : EReal)) (h2 : ∀ a b c, ∃ v : ℝ, T2 a b c = (v : EReal))
    (h3 : ∀ a b c, ∃ v : ℝ, T3 a b c = (v : EReal)) (h4 : ∀ a b c, ∃ v : ℝ, T4 a b c = (v : EReal)) (q : ℕ) :
    entryK x y z first3 (fun r c => T1 (r / 56) (r % 56) c) (fun r c => T2 (r / 28) (r % 28) c)
        (fun r c => T3 (r / 14) (r % 14) c) (fun r c => T4 (r / 7) (r % 7) c) q
      = entryR x y z first3 T1 T2 T3 T4 q := by
  unfold entryK entryR
  split_ifs
  · rfl
  · exact scale_eq 56 3136 _ _ 4 (by norm_num) (by norm_num) (by norm_num) (by rw [lit_55]; norm_num) lit_4
      (by norm_num) (by norm_num) _ _ (fun a b => T1 a b (q - 3)) (fun a b => h1 a b _)
  · exact scale_eq 28 784 _ _ 8 (by norm_num) (by norm_num) (by norm_num) (by rw [lit_27]; norm_num) lit_8
      (by norm_num) (by norm_num) _ _ (fun a b => T2 a b (q - 67)) (fun a b => h2 a b _)
  · exact scale_eq 14 196 _ _ 16 (by norm_num) (by norm_num) (by norm_num) (by rw [lit_13]; norm_num) lit_16
      (by norm_num) (by norm_num) _ _ (fun a b => T3 a b (q - 195)) (fun a b => h3 a b _)
  · exact scale_eq 7 49 _ _ 32 (by norm_num) (by norm_num) (by norm_num) (by rw [lit_6]; norm_num) lit_32
      (by norm_num) (by norm_num) _ _ (fun a b => T4 a b (q - 451)) (fun a b => h4 a b _)

/-- An array of reals read at natural-number coordinates is real (zero outside the range). -/
theorem tab3_real {A B C : ℕ} (f : (⟨3, ![A, B, C]⟩ : Shape).Idx → EReal) (h : ∀ i, ∃ v : ℝ, f i = (v : EReal))
    (a b c : ℕ) : ∃ v : ℝ, tab3 f a b c = (v : EReal) := by
  unfold tab3
  split_ifs
  · exact h _
  · exact ⟨0, EReal.coe_zero.symm⟩

theorem GK_eq_GR (coord : (⟨2, ![200000, 3]⟩ : Shape).Idx → EReal) (f1 : (⟨3, ![56, 56, 64]⟩ : Shape).Idx → EReal) (f2 : (⟨3, ![28, 28, 128]⟩ : Shape).Idx → EReal) (f3 : (⟨3, ![14, 14, 256]⟩ : Shape).Idx → EReal) (f4 : (⟨3, ![7, 7, 512]⟩ : Shape).Idx → EReal)
    (h1 : ∀ i, ∃ v : ℝ, f1 i = (v : EReal)) (h2 : ∀ i, ∃ v : ℝ, f2 i = (v : EReal)) (h3 : ∀ i, ∃ v : ℝ, f3 i = (v : EReal)) (h4 : ∀ i, ∃ v : ℝ, f4 i = (v : EReal)) :
    GK coord f1 f2 f3 f4 = GR coord f1 f2 f3 f4 := by
  funext i
  unfold GK GR
  exact entryK_eq_entryR _ _ _ _ (tab3 f1) (tab3 f2) (tab3 f3) (tab3 f4) (tab3_real f1 h1) (tab3_real f2 h2)
    (tab3_real f3 h3) (tab3_real f4 h4) _

end Cert.Spec

end
-- ==== Proof.Finite.lean ====
/-
  What the precondition gives: every entry of the four feature arrays is a real number.

  The precondition is the conjunction, over the five argument arrays, of "every entry's absolute value is below +∞".
  On the extended reals |x| = max x (−x), which is +∞ at both infinities, so |x| < +∞ leaves exactly the real numbers.
  (The point array needs nothing: its coordinates pass through a clip to [0, 223] before they are used.)
-/
import proofs.«182027_j29850022707588_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs

variable [Facts]

/-- The scalar shape has one index. -/
instance : Subsingleton S_.Idx := ⟨fun a b => funext fun d => d.elim0⟩

/-- The float word 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ v : ℝ, x = (v : EReal) := by
  rw [ofBits_inf] at h
  induction x using EReal.rec with
  | bot => simp [Ideal.cmp] at h
  | coe r => exact ⟨r, rfl⟩
  | top => simp [Ideal.cmp] at h

/-- Under the precondition every entry of each feature array is a real number. -/
theorem tables_real (a0 : FVec Ideal S200000x3 .f32) (a1 : FVec Ideal S56x56x64 .f32) (a2 : FVec Ideal S28x28x128 .f32)
    (a3 : FVec Ideal S14x14x256 .f32) (a4 : FVec Ideal S7x7x512 .f32)
    (h : fn (F := Ideal) a0 a1 a2 a3 a4 = fun _ => 1#1) :
    (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨-, e1⟩ := IntOp.andi_eq_one.1 h01
  exact ⟨fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i),
    fun i => real_of_abs_lt (a4 i) (Host.reduce_andi_all _ _ _ _ _ e4 i)⟩

end Cert.Pre_finite_inputs.Finite

end
-- ==== Proof.lean ====
/-
  A perspective projection of 200000 points onto four feature grids (sides 56, 28, 14, 7) with bilinear blending,
  computed two ways.  The kernel builds, for each point and each grid, a weighted one-hot row over the grid's H·H
  cells — place r holds the sum of the weights of those of the four surrounding corners (floor/ceil × floor/ceil of
  the grid coordinates, clipped to 0..H−1) whose flat cell is r — and multiplies it into the flat feature table
  [H·H, C].  The reference gathers the four corner rows of the table [H, H, C] and sums them with the same weights.

  On the extended reals the two agree entry by entry:
  * the image coordinates pass through a clip to [0, 223], so whatever the point is (a zero depth included) the grid
    coordinates s = clip(·)/size are real numbers in [0, 223/size], floor s and ceil s are integers in 0..H, and the
    four weights are real numbers;
  * both programs send a corner coordinate v in 0..H to the cell min(v, H−1): the kernel by clipping before the
    conversion to an integer, the reference through the gather's clamp of an out-of-range start index (ceil s = H
    happens, at s > H−1);
  * the feature entries are real numbers by the precondition, so multiplication distributes over the one-hot row's
    four-term sums and  Σ_r (Σ_corner [r = cell_corner]·w_corner)·T(r) = Σ_corner w_corner·T(cell_corner).
  The kernel's result array is read off its frame run block by block (KernelBlock: one grid point's block as a
  function of its input blocks; KernelArray: the 125 blocks tile the array), the reference's off its run one operation
  at a time (RefValue), both against the specification's two spellings (Spec), which Blend proves equal for finite
  tables; Finite reads the tables' finiteness off the precondition.  The frames of the two kernels are their generated
  frame runs; the reference's frame is its run with the result dropped.  Nothing was rewritten by the idealization,
  so the preservation claim is trivial.
-/
import proofs.«182027_j29850022707588_2_alg».proof.Defs
import proofs.«182027_j29850022707588_2_alg».proof.Proof.Gen.Kernel
import proofs.«182027_j29850022707588_2_alg».proof.Proof.Gen.Kernel.Frame
import proofs.«182027_j29850022707588_2_alg».proof.Proof.Gen.KernelIdeal
import proofs.«182027_j29850022707588_2_alg».proof.Proof.Gen.KernelIdeal.Frame
import proofs.«182027_j29850022707588_2_alg».proof.Proof.Gen.ReferenceIdeal
import proofs.«182027_j29850022707588_2_alg».proof.Proof.Gen.Pre_finite_inputs
import proofs.«182027_j29850022707588_2_alg».proof.Proof.KernelArray
import proofs.«182027_j29850022707588_2_alg».proof.Proof.RefValue
import proofs.«182027_j29850022707588_2_alg».proof.Proof.Blend
import proofs.«182027_j29850022707588_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments the kernel's result array is the specification's one-hot spelling of the
    argument arrays and the reference's its four-cell spelling; the tables being finite under the precondition, the
    two spellings are one array. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h1, h2, h3, h4⟩ := Cert.Pre_finite_inputs.Finite.tables_real _ _ _ _ _ (hpre c)
  rw [Cert.ReferenceIdeal.RValue.res_eq m' c, (hagree c).1, (hagree c).2.1, (hagree c).2.2.1, (hagree c).2.2.2.1,
    (hagree c).2.2.2.2]
  exact (Cert.Spec.GK_eq_GR _ _ _ _ _ h1 h2 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
